-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S3x4 : Shape := ⟨2, ![3, 4]⟩
abbrev S192x64 : Shape := ⟨2, ![192, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x4 : S_.BroadcastsInDim S3x4 (![] : Fin 0 → Fin S3x4.rank)
  reducesTo_S3x4_S_d0_1 : S3x4.ReducesTo [0, 1] S_
  bcast_S_S192x64 : S_.BroadcastsInDim S192x64 (![] : Fin 0 → Fin S192x64.rank)
  reducesTo_S192x64_S_d0_1 : S192x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64 .f32) (main_arg10 : FVec F S64x2 .f32) (main_arg11 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2 .f32 := Host.absf main_arg10
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S64 .f32) (main_arg7 : FVec F S3x4 .f32) (main_arg8 : FVec F S192x64 .f32) (main_arg9 : FVec F S64 .f32) (main_arg10 : FVec F S64x2 .f32) (main_arg11 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x4 .f32 := Host.absf main_arg7
  let main_cst_8 : FVec F S_ .f32 := constant S_ .f32 0x7F800000#32
  let main_v25 : FVec F S3x4 .f32 := broadcastInDim S3x4 ![] bcast_S_S3x4 main_cst_8
  let main_v26 : IVec S3x4 1 := cmpf .olt main_v24 main_v25
  let main_c_9 : IVec S_ 1 := constantI S_ 1 1#1
  let main_v27 : IVec S_ 1 := (fun x v => Host.reduce IntOp.andi x v reducesTo_S3x4_S_d0_1 h_S_) main_v26 main_c_9
  let main_v28 : IVec S_ 1 := andi main_v23 main_v27
  let main_v29 : FVec F S192x64 .f32 := Host.absf main_arg8
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x64 .f32) (main_arg6 : FVec F S64 .f32) (main_arg7 : FVec F S3x4 .f32) (main_arg8 : FVec F S192x64 .f32) (main_arg9 : FVec F S64 .f32) (main_arg10 : FVec F S64x2 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S3x4 : Shape := ⟨2, ![3, 4]⟩
abbrev S192x64 : Shape := ⟨2, ![192, 64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S3x1 : Shape := ⟨2, ![3, 1]⟩
abbrev S3 : Shape := ⟨1, ![3]⟩
abbrev S3x64 : Shape := ⟨2, ![3, 64]⟩
abbrev S192 : Shape := ⟨1, ![192]⟩
abbrev S1x192 : Shape := ⟨2, ![1, 192]⟩
abbrev S100000x192 : Shape := ⟨2, ![100000, 192]⟩
abbrev S2000x192 : Shape := ⟨2, ![2000, 192]⟩
abbrev S1x2 : Shape := ⟨2, ![1, 2]⟩
abbrev S100000x2 : Shape := ⟨2, ![100000, 2]⟩
abbrev S2000x2 : Shape := ⟨2, ![2000, 2]⟩

abbrev nBuf : Space → Nat
  | .hbm => 99
  | .vmem => 60
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S3x4, .f32⟩
  | .hbm, ⟨8, _⟩ => ⟨S192x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S1x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S3x1, .f32⟩
  | .hbm, ⟨44, _⟩ => ⟨S3, .f32⟩
  | .hbm, ⟨45, _⟩ => ⟨S3x64, .f32⟩
  | .hbm, ⟨46, _⟩ => ⟨S192, .f32⟩
  | .hbm, ⟨47, _⟩ => ⟨S1x192, .f32⟩
  | .hbm, ⟨48, _⟩ => ⟨S3x1, .f32⟩
  | .hbm, ⟨49, _⟩ => ⟨S3, .f32⟩
  | .hbm, ⟨50, _⟩ => ⟨S3x64, .f32⟩
  | .hbm, ⟨51, _⟩ => ⟨S192, .f32⟩
  | .hbm, ⟨52, _⟩ => ⟨S1x192, .f32⟩
  | .hbm, ⟨53, _⟩ => ⟨S100000x64, .f32⟩
  | .hbm, ⟨54, _⟩ => ⟨S100000x192, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S3x1, .f32⟩
  | .hbm, ⟨70, _⟩ => ⟨S3, .f32⟩
  | .hbm, ⟨71, _⟩ => ⟨S3x64, .f32⟩
  | .hbm, ⟨72, _⟩ => ⟨S192, .f32⟩
  | .hbm, ⟨73, _⟩ => ⟨S1x192, .f32⟩
  | .hbm, ⟨74, _⟩ => ⟨S100000x64, .f32⟩
  | .hbm, ⟨75, _⟩ => ⟨S100000x192, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S3x1, .f32⟩
  | .hbm, ⟨91, _⟩ => ⟨S3, .f32⟩
  | .hbm, ⟨92, _⟩ => ⟨S3x64, .f32⟩
  | .hbm, ⟨93, _⟩ => ⟨S192, .f32⟩
  | .hbm, ⟨94, _⟩ => ⟨S1x192, .f32⟩
  | .hbm, ⟨95, _⟩ => ⟨S100000x192, .f32⟩
  | .hbm, ⟨96, _⟩ => ⟨S1x64, .f32⟩
  | .hbm, ⟨97, _⟩ => ⟨S1x2, .f32⟩
  | .hbm, ⟨98, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S2000x1, .f32⟩
  | .local _ .vmem, ⟨7, _⟩ => ⟨S2000x1, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S1x192, .f32⟩
  | .local _ .vmem, ⟨19, _⟩ => ⟨S1x192, .f32⟩
  | .local _ .vmem, ⟨20, _⟩ => ⟨S2000x64, .f32⟩
  | .local _ .vmem, ⟨21, _⟩ => ⟨S2000x64, .f32⟩
  | .local _ .vmem, ⟨22, _⟩ => ⟨S2000x192, .f32⟩
  | .local _ .vmem, ⟨23, _⟩ => ⟨S2000x192, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x1, .f32⟩
  | .local _ .vmem, ⟨31, _⟩ => ⟨S2000x1, .f32⟩
  | .local _ .vmem, ⟨32, _⟩ => ⟨S2000x192, .f32⟩
  | .local _ .vmem, ⟨33, _⟩ => ⟨S2000x192, .f32⟩
  | .local _ .vmem, ⟨34, _⟩ => ⟨S1x192, .f32⟩
  | .local _ .vmem, ⟨35, _⟩ => ⟨S2000x64, .f32⟩
  | .local _ .vmem, ⟨36, _⟩ => ⟨S2000x64, .f32⟩
  | .local _ .vmem, ⟨37, _⟩ => ⟨S2000x192, .f32⟩
  | .local _ .vmem, ⟨38, _⟩ => ⟨S2000x192, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x1, .f32⟩
  | .local _ .vmem, ⟨46, _⟩ => ⟨S2000x1, .f32⟩
  | .local _ .vmem, ⟨47, _⟩ => ⟨S2000x192, .f32⟩
  | .local _ .vmem, ⟨48, _⟩ => ⟨S2000x192, .f32⟩
  | .local _ .vmem, ⟨49, _⟩ => ⟨S1x192, .f32⟩
  | .local _ .vmem, ⟨50, _⟩ => ⟨S2000x192, .f32⟩
  | .local _ .vmem, ⟨51, _⟩ => ⟨S2000x192, .f32⟩
  | .local _ .vmem, ⟨52, _⟩ => ⟨S2000x192, .f32⟩
  | .local _ .vmem, ⟨53, _⟩ => ⟨S2000x192, .f32⟩
  | .local _ .vmem, ⟨54, _⟩ => ⟨S192x64, .f32⟩
  | .local _ .vmem, ⟨55, _⟩ => ⟨S1x64, .f32⟩
  | .local _ .vmem, ⟨56, _⟩ => ⟨S64x2, .f32⟩
  | .local _ .vmem, ⟨57, _⟩ => ⟨S1x2, .f32⟩
  | .local _ .vmem, ⟨58, _⟩ => ⟨S2000x2, .f32⟩
  | .local _ .vmem, ⟨59, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31_0 : Ref sig .tc := ⟨.hbm, 53, rfl⟩
abbrev main_v31_1 : Ref sig .tc := ⟨.hbm, 54, rfl⟩
abbrev main_v31_2 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47_0 : Ref sig .tc := ⟨.hbm, 74, rfl⟩
abbrev main_v47_1 : Ref sig .tc := ⟨.hbm, 75, rfl⟩
abbrev main_v47_2 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg5_1 : Ref sig .tc := ⟨.vmem, 36, rfl⟩
abbrev cc2_stg6_0 : Ref sig .tc := ⟨.vmem, 37, rfl⟩
abbrev cc2_stg6_1 : Ref sig .tc := ⟨.vmem, 38, rfl⟩
abbrev cc2_stg7_0 : Ref sig .tc := ⟨.vmem, 39, rfl⟩
abbrev cc2_stg7_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg3_1 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg5_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem5_1 : DmaSem sig := 36
abbrev cc2_sem6_0 : DmaSem sig := 37
abbrev cc2_sem6_1 : DmaSem sig := 38
abbrev cc2_sem7_0 : DmaSem sig := 39
abbrev cc2_sem7_1 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem2_1 : DmaSem sig := 46
abbrev cc3_sem3_0 : DmaSem sig := 47
abbrev cc3_sem3_1 : DmaSem sig := 48
abbrev cc3_sem4_0 : DmaSem sig := 49
abbrev cc3_sem5_0 : DmaSem sig := 50
abbrev cc3_sem5_1 : DmaSem sig := 51
abbrev cc4_sem0_0 : DmaSem sig := 52
abbrev cc4_sem0_1 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem5_1 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x192 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S_S100000x64 : S_.BroadcastsInDim S100000x64 (![] : Fin 0 → Fin S100000x64.rank)
  slices_S3x4_S3x1_0_1 : S3x4.Slices ![0, 1] S3x1
  shapeCasts_S3x1_S3 : S3x1.ShapeCasts S3
  bcast_S3_S3x64_0 : S3.BroadcastsInDim S3x64 (![0] : Fin 1 → Fin S3x64.rank)
  shapeCasts_S3x64_S192 : S3x64.ShapeCasts S192
  bcast_S192_S1x192_1 : S192.BroadcastsInDim S1x192 (![1] : Fin 1 → Fin S1x192.rank)
  slices_S3x4_S3x1_0_0 : S3x4.Slices ![0, 0] S3x1
  shapeCasts_S2000x64_S2000x64 : S2000x64.ShapeCasts S2000x64
  concatenates_S2000x64_S2000x64_S2000x64_S2000x192_d1 : Shape.Concatenates [S2000x64, S2000x64, S2000x64] S2000x192 1
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  inb_S2000x192_S2000x192_0_0 : ∀ a, (![0, 0] : Fin 2 → Nat) a + S2000x192.size a ≤ S2000x192.size a
  h_S2000x192 : 0 < S2000x192.numel
  slices_S3x4_S3x1_0_2 : S3x4.Slices ![0, 2] S3x1
  shapeCasts_S2000x192_S2000x192 : S2000x192.ShapeCasts S2000x192
  slices_S3x4_S3x1_0_3 : S3x4.Slices ![0, 3] S3x1
  shapeCasts_S2_S1x2 : S2.ShapeCasts S1x2
  inb_S192x64_S192x64_0_0 : ∀ a, (![0, 0] : Fin 2 → Nat) a + S192x64.size a ≤ S192x64.size a
  h_S192x64 : 0 < S192x64.numel
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x192_S192x64_S2000x64_1_0_0_1_n_n_wf : DotDims.WF S2000x192 S192x64 S2000x64 [1] [0] [0] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S100000x1.size a
  hwx0_5 : ∀ i : grid0.Coords, EltTy.bits .f32 = 32 ∨ (Rect.block (s := S100000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x192.size a ≤ S100000x192.size a
  hwx1_6 : ∀ i : grid1.Coords, EltTy.bits .f32 = 32 ∨ (Rect.block (s := S100000x192) S2000x192.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x192.size a ≤ S100000x192.size a
  hwx2_3 : ∀ i : grid2.Coords, EltTy.bits .f32 = 32 ∨ (Rect.block (s := S100000x192) S2000x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x192.size a ≤ S100000x192.size a
  hwx2_6 : ∀ i : grid2.Coords, EltTy.bits .f32 = 32 ∨ (Rect.block (s := S100000x192) S2000x192.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S100000x64.size a
  hwx2_7 : ∀ i : grid2.Coords, EltTy.bits .f32 = 32 ∨ (Rect.block (s := S100000x64) S2000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x192.size a ≤ S100000x192.size a
  hwx3_3 : ∀ i : grid3.Coords, EltTy.bits .f32 = 32 ∨ (Rect.block (s := S100000x192) S2000x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x192.size a ≤ S1x192.size a
  hwx3_4 : ∀ i : grid3.Coords, EltTy.bits .f32 = 32 ∨ (Rect.block (s := S1x192) S1x192.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x192.size a ≤ S100000x192.size a
  hwx3_5 : ∀ i : grid3.Coords, EltTy.bits .f32 = 32 ∨ (Rect.block (s := S100000x192) S2000x192.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x192.size a ≤ S100000x192.size a
  hwx4_0 : ∀ i : grid4.Coords, EltTy.bits .f32 = 32 ∨ (Rect.block (s := S100000x192) S2000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x64.size a ≤ S192x64.size a
  hwx4_1 : ∀ i : grid4.Coords, EltTy.bits .f32 = 32 ∨ (Rect.block (s := S192x64) S192x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x2.size a ≤ S64x2.size a
  hwx4_3 : ∀ i : grid4.Coords, EltTy.bits .f32 = 32 ∨ (Rect.block (s := S64x2) S64x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x2.size a ≤ S100000x2.size a
  hwx4_5 : ∀ i : grid4.Coords, EltTy.bits .f32 = 32 ∨ (Rect.block (s := S100000x2) S2000x2.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x192_S192x64_S2000x64_1_0_0_1_n_n : DotDims S2000x192 S192x64 S2000x64 where
  lhsContracting := [1]
  rhsContracting := [0]
  lhsNonContracting := [0]
  rhsNonContracting := [1]
  lhsBatch := []
  rhsBatch := []
  wf := dot_S2000x192_S192x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S2000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v10_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31_0) S2000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v31_1) S2000x192.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v31_2) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v31_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31_1) S2000x192.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v47_1) S2000x192.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47_2) S2000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47_1) S2000x192.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S2000x192.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S2000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S64x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S2000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S3x4 : Shape := ⟨2, ![3, 4]⟩
abbrev S192x64 : Shape := ⟨2, ![192, 64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1x64 : Shape := ⟨2, ![1, 64]⟩
abbrev S1x4 : Shape := ⟨2, ![1, 4]⟩
abbrev S4 : Shape := ⟨1, ![4]⟩
abbrev S1 : Shape := ⟨1, ![1]⟩
abbrev S1600000x64 : Shape := ⟨2, ![1600000, 64]⟩
abbrev S100000x192 : Shape := ⟨2, ![100000, 192]⟩
abbrev S100000x2 : Shape := ⟨2, ![100000, 2]⟩
abbrev S1x2 : Shape := ⟨2, ![1, 2]⟩

abbrev nBuf : Space → Nat
  | .hbm => 277
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x64, .f32⟩
  | 4 => ⟨S64, .f32⟩
  | 5 => ⟨S64x64, .f32⟩
  | 6 => ⟨S64, .f32⟩
  | 7 => ⟨S3x4, .f32⟩
  | 8 => ⟨S192x64, .f32⟩
  | 9 => ⟨S64, .f32⟩
  | 10 => ⟨S64x2, .f32⟩
  | 11 => ⟨S2, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S1x4, .f32⟩
  | 41 => ⟨S4, .f32⟩
  | 42 => ⟨S1, .f32⟩
  | 43 => ⟨S_, .f32⟩
  | 44 => ⟨S100000x64, .f32⟩
  | 45 => ⟨S100000x64, .f32⟩
  | 46 => ⟨S100000x64, .f32⟩
  | 47 => ⟨S100000x64, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000x64, .f32⟩
  | 62 => ⟨S100000x64, .f32⟩
  | 63 => ⟨S100000x64, .f32⟩
  | 64 => ⟨S1, .f32⟩
  | 65 => ⟨S_, .f32⟩
  | 66 => ⟨S100000x64, .f32⟩
  | 67 => ⟨S100000x64, .f32⟩
  | 68 => ⟨S100000x64, .f32⟩
  | 69 => ⟨S100000x64, .f32⟩
  | 70 => ⟨S100000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S100000x64, .f32⟩
  | 85 => ⟨S100000x64, .f32⟩
  | 86 => ⟨S100000x64, .f32⟩
  | 87 => ⟨S1, .f32⟩
  | 88 => ⟨S_, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S100000x64, .f32⟩
  | 108 => ⟨S100000x64, .f32⟩
  | 109 => ⟨S100000x64, .f32⟩
  | 110 => ⟨S1, .f32⟩
  | 111 => ⟨S_, .f32⟩
  | 112 => ⟨S100000x64, .f32⟩
  | 113 => ⟨S100000x64, .f32⟩
  | 114 => ⟨S100000x64, .f32⟩
  | 115 => ⟨S1x4, .f32⟩
  | 116 => ⟨S4, .f32⟩
  | 117 => ⟨S1, .f32⟩
  | 118 => ⟨S_, .f32⟩
  | 119 => ⟨S100000x64, .f32⟩
  | 120 => ⟨S100000x64, .f32⟩
  | 121 => ⟨S100000x64, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x64, .f32⟩
  | 9 => ⟨S100000x64, .f32⟩
  | 10 => ⟨S100000x64, .f32⟩
  | 11 => ⟨S1, .f32⟩
  | 12 => ⟨S_, .f32⟩
  | 13 => ⟨S100000x64, .f32⟩
  | 14 => ⟨S100000x64, .f32⟩
  | 15 => ⟨S100000x64, .f32⟩
  | 16 => ⟨S100000x64, .f32⟩
  | 17 => ⟨S100000x64, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S100000x64, .f32⟩
  | 32 => ⟨S100000x64, .f32⟩
  | 33 => ⟨S100000x64, .f32⟩
  | 34 => ⟨S1, .f32⟩
  | 35 => ⟨S_, .f32⟩
  | 36 => ⟨S100000x64, .f32⟩
  | 37 => ⟨S100000x64, .f32⟩
  | 38 => ⟨S100000x64, .f32⟩
  | 39 => ⟨S100000x64, .f32⟩
  | 40 => ⟨S100000x64, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S100000x64, .f32⟩
  | 55 => ⟨S100000x64, .f32⟩
  | 56 => ⟨S100000x64, .f32⟩
  | 57 => ⟨S1, .f32⟩
  | 58 => ⟨S_, .f32⟩
  | 59 => ⟨S100000x64, .f32⟩
  | 60 => ⟨S100000x64, .f32⟩
  | 61 => ⟨S100000x64, .f32⟩
  | 62 => ⟨S1x4, .f32⟩
  | 63 => ⟨S4, .f32⟩
  | 64 => ⟨S1, .f32⟩
  | 65 => ⟨S_, .f32⟩
  | 66 => ⟨S100000x64, .f32⟩
  | 67 => ⟨S100000x64, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S100000x64, .f32⟩
  | 84 => ⟨S100000x64, .f32⟩
  | 85 => ⟨S100000x64, .f32⟩
  | 86 => ⟨S1, .f32⟩
  | 87 => ⟨S_, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S100000x64, .f32⟩
  | 107 => ⟨S100000x64, .f32⟩
  | 108 => ⟨S100000x64, .f32⟩
  | 109 => ⟨S1, .f32⟩
  | 110 => ⟨S_, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S_, .f32⟩
  | 126 => ⟨S100000x64, .f32⟩
  | 127 => ⟨S1600000x1, .i32⟩
  | _ => ⟨S100000x128, .f32⟩

abbrev hbmTy0_2 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S1, .f32⟩
  | 5 => ⟨S_, .f32⟩
  | 6 => ⟨S100000x64, .f32⟩
  | 7 => ⟨S100000x64, .f32⟩
  | 8 => ⟨S100000x64, .f32⟩
  | 9 => ⟨S100000x192, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S100000x2, .f32⟩
  | 18 => ⟨S1x2, .f32⟩
  | 19 => ⟨S100000x2, .f32⟩
  | 20 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_cst : Ref sig .tc := ⟨.hbm, 30, rfl⟩
abbrev main_call1_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call2_cst : Ref sig .tc := ⟨.hbm, 37, rfl⟩
abbrev main_call2_v0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_v26 : Ref sig .tc := ⟨.hbm, 49, rfl⟩
abbrev main_v27 : Ref sig .tc := ⟨.hbm, 50, rfl⟩
abbrev main_c_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_5 : Ref sig .tc := ⟨.hbm, 71, rfl⟩
abbrev main_v46 : Ref sig .tc := ⟨.hbm, 72, rfl⟩
abbrev main_v47 : Ref sig .tc := ⟨.hbm, 73, rfl⟩
abbrev main_c_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_8 : Ref sig .tc := ⟨.hbm, 94, rfl⟩
abbrev main_v66 : Ref sig .tc := ⟨.hbm, 95, rfl⟩
abbrev main_v67 : Ref sig .tc := ⟨.hbm, 96, rfl⟩
abbrev main_c_9 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_10 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_11 : Ref sig .tc := ⟨.hbm, 123, rfl⟩
abbrev main_v92 : Ref sig .tc := ⟨.hbm, 124, rfl⟩
abbrev main_v93 : Ref sig .tc := ⟨.hbm, 125, rfl⟩
abbrev main_c_12 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_13 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_14 : Ref sig .tc := ⟨.hbm, 146, rfl⟩
abbrev main_v112 : Ref sig .tc := ⟨.hbm, 147, rfl⟩
abbrev main_v113 : Ref sig .tc := ⟨.hbm, 148, rfl⟩
abbrev main_c_15 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_16 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_c_17 : Ref sig .tc := ⟨.hbm, 169, rfl⟩
abbrev main_v132 : Ref sig .tc := ⟨.hbm, 170, rfl⟩
abbrev main_v133 : Ref sig .tc := ⟨.hbm, 171, rfl⟩
abbrev main_c_18 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_19 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_c_20 : Ref sig .tc := ⟨.hbm, 198, rfl⟩
abbrev main_v158 : Ref sig .tc := ⟨.hbm, 199, rfl⟩
abbrev main_v159 : Ref sig .tc := ⟨.hbm, 200, rfl⟩
abbrev main_c_21 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_22 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_c_23 : Ref sig .tc := ⟨.hbm, 221, rfl⟩
abbrev main_v178 : Ref sig .tc := ⟨.hbm, 222, rfl⟩
abbrev main_v179 : Ref sig .tc := ⟨.hbm, 223, rfl⟩
abbrev main_c_24 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_25 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_c_26 : Ref sig .tc := ⟨.hbm, 244, rfl⟩
abbrev main_v198 : Ref sig .tc := ⟨.hbm, 245, rfl⟩
abbrev main_v199 : Ref sig .tc := ⟨.hbm, 246, rfl⟩
abbrev main_c_27 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_cst_28 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_call3_cst : Ref sig .tc := ⟨.hbm, 270, rfl⟩
abbrev main_call3_v0 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x4_S1x4_0_0 : S3x4.Slices ![0, 0] S1x4
  shapeCasts_S1x4_S4 : S1x4.ShapeCasts S4
  slices_S4_S1_0 : S4.Slices ![0] S1
  shapeCasts_S1_S_ : S1.ShapeCasts S_
  bcast_S100000x1_S100000x64_0_1 : S100000x1.BroadcastsInDim S100000x64 (![0, 1] : Fin 2 → Fin S100000x64.rank)
  slices_S4_S1_1 : S4.Slices ![1] S1
  slices_S4_S1_2 : S4.Slices ![2] S1
  slices_S4_S1_3 : S4.Slices ![3] S1
  slices_S3x4_S1x4_1_0 : S3x4.Slices ![1, 0] S1x4
  slices_S3x4_S1x4_2_0 : S3x4.Slices ![2, 0] S1x4
  concatenates_S100000x64_S100000x64_S100000x64_S100000x192_d1 : Shape.Concatenates [S100000x64, S100000x64, S100000x64] S100000x192 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x192_S192x64_S100000x64_1_0_0_1_n_n_wf : DotDims.WF S100000x192 S192x64 S100000x64 [1] [0] [0] [1] [] []
  dot_S100000x64_S64x2_S100000x2_1_0_0_1_n_n_wf : DotDims.WF S100000x64 S64x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  THE RUN THAT NAMES ITS RESULT. Every weakly fair execution of the idealized kernel program on the TensorCores
  terminates without faulting, and in every final state the result buffer of each core holds the contents the last
  segment boundary records for it, while the twelve argument arrays are as launched. The statement about the arguments is
  the frame's; the one about the result reads one more buffer out of the same last thread state.
-/
import proofs.«148983_j56255481643509_2_alg».proof.Proof.Gen.KernelIdeal.Frame
import Idealize.ShloMosaic.PureOps.Ideal

set_option maxRecDepth 16384

noncomputable section

namespace Cert.PolyConv.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch lemma's implicit arguments are found by unifying its conclusion with this one, which takes unfolding
-- plain definitions in a metavariable's type
set_option backward.isDefEq.respectTransparency.types false in
/-- At the compiled mesh, from any memory with zero counters, every weakly fair execution of the program on the
    TensorCores terminates, nothing faulting, and every final state has, on each core, the result buffer at the last
    boundary's contents and the argument arrays as launched: the launch over the program's segments, the last thread
    state read against the final state, the result buffer as it stands there and each argument walked back through the
    fold to the launch memory. -/
theorem run_result : θ_run defs (onTc (τ := τ) (main (F := Ideal))) ⟨m, fun _ => 0, ρ⟩ (fun r => ∀ c : Dev nD,
      r.2.mem ((c.tc : Thread nD τ).loc main_v66) = W12 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v66 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.PolyConv.Chain

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«148983_j56255481643509_2_alg».proof.Proof.LibMatmulRows
import proofs.«148983_j56255481643509_2_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.Spec.lean ====
/-
  THE SPECIFICATION: a polynomial graph-convolution network on extended reals, written index by index and mentioning
  no program. All float operations are the exact ones, so a matrix is a function from its index set to the extended
  reals.

  * trunk: two rectified affine layers, relu (relu (x · W1 + b1) · W2 + b2).
  * scaleRows a d: row p of a multiplied by the column entry d (p, 0).
  * step f g d: f - g * d row by row, the update feat ↦ feat - agg · d of the recurrence.
  * lane / conv: column k of a 192-wide matrix made of three 64-wide pieces sits in piece conv k = k / 64 at lane k = k % 64.
  * first2 / nextTerm: the polynomial accumulation at an entry, t0 · f0 + t1 · f1, and acc + t · f, the coefficient rows
    being 1 × 192 and the features read at lane k.
  * coeffRow th j: the 1 × 192 row whose entry k is th (conv k, j): the j-th coefficient of each of the three convolutions
    repeated along its 64 lanes.
  * head: an affine layer after a rectified affine layer.
  * network A d: the whole map. A is the neighbourhood aggregation (a gather along edges followed by a sum into the
    destination rows), d the column of inverse square roots of the clamped degrees; both enter only as a function and a
    column, so nothing about them is used. The feature recurrence f ↦ step f (A (scaleRows f d)) d does not mention the
    coefficients: it is run once and read by all three convolutions.
  Row-locality lemmas say that an entry (p, ·) of each layer depends on row p of the row-wise operands only.
-/
import Idealize.ShloMosaic.PureOps.Ideal
import Idealize.ShloMosaic.PureOps.Ideal.Laws
import Idealize.ShloMosaic.Lib.ValueIdx
import proofs.«148983_j56255481643509_2_alg».proof.Proof.LibDenseLayers

noncomputable section

namespace Cert.PolyConv

open Idealize.ShloMosaic Idealize.ShloMosaic.ValueIdx Cert.LibDenseLayers
open scoped BigOperators

/-- A matrix of R rows and C columns of extended reals. -/
abbrev Mat (R C : ℕ) : Type := (⟨2, ![R, C]⟩ : Shape).Idx → EReal
/-- A vector of n extended reals. -/
abbrev Vec1 (n : ℕ) : Type := (⟨1, ![n]⟩ : Shape).Idx → EReal

/-! ## The dense ends -/

/-- The trunk: two rectified affine layers. -/
def trunk {R : ℕ} (x : Mat R 128) (W1 : Mat 128 64) (b1 : Vec1 64) (W2 : Mat 64 64) (b2 : Vec1 64) : Mat R 64 :=
  relu (affine (relu (affine x W1 b1)) W2 b2)

/-- The head: an affine layer after a rectified affine layer. -/
def head {R : ℕ} (hf : Mat R 192) (Wm1 : Mat 192 64) (bm1 : Vec1 64) (Wm2 : Mat 64 2) (bm2 : Vec1 2) : Mat R 2 :=
  affine (relu (affine hf Wm1 bm1)) Wm2 bm2

/-- Row p of the trunk of x is row p' of the trunk of x' when row p of x is row p' of x'. -/
theorem trunk_row {R R' : ℕ} (x : Mat R 128) (x' : Mat R' 128) (W1 : Mat 128 64) (b1 : Vec1 64) (W2 : Mat 64 64)
    (b2 : Vec1 64) (p : Fin R) (p' : Fin R') (hx : ∀ k : Fin 128, x (ix2 p k) = x' (ix2 p' k)) (q : Fin 64) :
    trunk x W1 b1 W2 b2 (ix2 p q) = trunk x' W1 b1 W2 b2 (ix2 p' q) := by
  show max (affineAt (relu (affine x W1 b1)) W2 b2 p q) _ = max (affineAt (relu (affine x' W1 b1)) W2 b2 p' q) _
  refine congrArg (fun e => max e _) (affineAt_congr _ _ W2 b2 p p' (fun k => ?_) q)
  show max (affineAt x W1 b1 p k) _ = max (affineAt x' W1 b1 p' k) _
  rw [affineAt_congr x x' W1 b1 p p' hx k]

/-- Row p of the head of hf is row p' of the head of hf' when row p of hf is row p' of hf'. -/
theorem head_row {R R' : ℕ} (hf : Mat R 192) (hf' : Mat R' 192) (Wm1 : Mat 192 64) (bm1 : Vec1 64) (Wm2 : Mat 64 2)
    (bm2 : Vec1 2) (p : Fin R) (p' : Fin R') (hx : ∀ k : Fin 192, hf (ix2 p k) = hf' (ix2 p' k)) (q : Fin 2) :
    head hf Wm1 bm1 Wm2 bm2 (ix2 p q) = head hf' Wm1 bm1 Wm2 bm2 (ix2 p' q) := by
  show affineAt (relu (affine hf Wm1 bm1)) Wm2 bm2 p q = affineAt (relu (affine hf' Wm1 bm1)) Wm2 bm2 p' q
  refine affineAt_congr _ _ Wm2 bm2 p p' (fun k => ?_) q
  show max (affineAt hf Wm1 bm1 p k) _ = max (affineAt hf' Wm1 bm1 p' k) _
  rw [affineAt_congr hf hf' Wm1 bm1 p p' hx k]

/-! ## The row-wise steps -/

/-- Entry (p, q) of a scaled by the column d: a (p, q) * d (p, 0). -/
def scaleAt {R C : ℕ} (a : Mat R C) (d : Mat R 1) (p : Fin R) (q : Fin C) : EReal :=
  a (ix2 p q) * d (ix2 p (0 : Fin 1))

/-- The rows of a scaled by the column d. -/
def scaleRows {R C : ℕ} (a : Mat R C) (d : Mat R 1) : Mat R C := fun i => scaleAt a d (i 0) (i 1)

/-- Entry (p, q) of f - g · d: f (p, q) - g (p, q) * d (p, 0). -/
def stepAt {R C : ℕ} (f g : Mat R C) (d : Mat R 1) (p : Fin R) (q : Fin C) : EReal :=
  f (ix2 p q) - g (ix2 p q) * d (ix2 p (0 : Fin 1))

/-- One update of the feature recurrence: f - g · d with g the aggregated messages. -/
def step {R C : ℕ} (f g : Mat R C) (d : Mat R 1) : Mat R C := fun i => stepAt f g d (i 0) (i 1)

theorem scaleRows_apply {R C : ℕ} (a : Mat R C) (d : Mat R 1) (p : Fin R) (q : Fin C) :
    scaleRows a d (ix2 p q) = a (ix2 p q) * d (ix2 p (0 : Fin 1)) := rfl

theorem step_apply {R C : ℕ} (f g : Mat R C) (d : Mat R 1) (p : Fin R) (q : Fin C) :
    step f g d (ix2 p q) = f (ix2 p q) - g (ix2 p q) * d (ix2 p (0 : Fin 1)) := rfl

/-! ## Three convolutions side by side -/

/-- The lane of column k inside its 64-wide piece. -/
def lane (k : Fin 192) : Fin 64 := ⟨k.val % 64, Nat.mod_lt _ (by norm_num)⟩
/-- The piece (the convolution) that column k belongs to. -/
def conv (k : Fin 192) : Fin 3 := ⟨k.val / 64, by have := k.isLt; omega⟩

theorem lane_val (k : Fin 192) : (lane k).val = k.val % 64 := rfl
theorem conv_val (k : Fin 192) : (conv k).val = k.val / 64 := rfl

/-- The first two terms of the three polynomials at (p, k): t0 (0, k) * f0 (p, lane k) + t1 (0, k) * f1 (p, lane k). -/
def first2At {R : ℕ} (t0 t1 : Mat 1 192) (f0 f1 : Mat R 64) (p : Fin R) (k : Fin 192) : EReal :=
  t0 (ix2 (0 : Fin 1) k) * f0 (ix2 p (lane k)) + t1 (ix2 (0 : Fin 1) k) * f1 (ix2 p (lane k))

def first2 {R : ℕ} (t0 t1 : Mat 1 192) (f0 f1 : Mat R 64) : Mat R 192 := fun i => first2At t0 t1 f0 f1 (i 0) (i 1)

/-- One more term at (p, k): acc (p, k) + t (0, k) * f (p, lane k). -/
def nextTermAt {R : ℕ} (acc : Mat R 192) (t : Mat 1 192) (f : Mat R 64) (p : Fin R) (k : Fin 192) : EReal :=
  acc (ix2 p k) + t (ix2 (0 : Fin 1) k) * f (ix2 p (lane k))

def nextTerm {R : ℕ} (acc : Mat R 192) (t : Mat 1 192) (f : Mat R 64) : Mat R 192 :=
  fun i => nextTermAt acc t f (i 0) (i 1)

theorem first2_apply {R : ℕ} (t0 t1 : Mat 1 192) (f0 f1 : Mat R 64) (p : Fin R) (k : Fin 192) :
    first2 t0 t1 f0 f1 (ix2 p k)
      = t0 (ix2 (0 : Fin 1) k) * f0 (ix2 p (lane k)) + t1 (ix2 (0 : Fin 1) k) * f1 (ix2 p (lane k)) := rfl

theorem nextTerm_apply {R : ℕ} (acc : Mat R 192) (t : Mat 1 192) (f : Mat R 64) (p : Fin R) (k : Fin 192) :
    nextTerm acc t f (ix2 p k) = acc (ix2 p k) + t (ix2 (0 : Fin 1) k) * f (ix2 p (lane k)) := rfl

/-- The row of the j-th coefficients: entry k is the j-th coefficient of convolution conv k. -/
def coeffRow (th : Mat 3 4) (j : Fin 4) : Mat 1 192 := fun i => th (ix2 (conv (i 1)) j)

theorem coeffRow_apply (th : Mat 3 4) (j : Fin 4) (u : Fin 1) (k : Fin 192) :
    coeffRow th j (ix2 u k) = th (ix2 (conv k) j) := rfl

/-- The three polynomials side by side: sum over j of th (conv k, j) * f_j (p, lane k), added left to right. -/
def poly {R : ℕ} (th : Mat 3 4) (f0 f1 f2 f3 : Mat R 64) : Mat R 192 :=
  nextTerm (nextTerm (first2 (coeffRow th 0) (coeffRow th 1) f0 f1) (coeffRow th 2) f2) (coeffRow th 3) f3

theorem poly_apply {R : ℕ} (th : Mat 3 4) (f0 f1 f2 f3 : Mat R 64) (p : Fin R) (k : Fin 192) :
    poly th f0 f1 f2 f3 (ix2 p k)
      = ((th (ix2 (conv k) 0) * f0 (ix2 p (lane k)) + th (ix2 (conv k) 1) * f1 (ix2 p (lane k)))
          + th (ix2 (conv k) 2) * f2 (ix2 p (lane k))) + th (ix2 (conv k) 3) * f3 (ix2 p (lane k)) := rfl

/-! ## The network -/

/-- The whole map, for an aggregation A over the N nodes and a column d. -/
def network {N : ℕ} (A : Mat N 64 → Mat N 64) (d : Mat N 1) (x : Mat N 128) (W1 : Mat 128 64) (b1 : Vec1 64)
    (W2 : Mat 64 64) (b2 : Vec1 64) (th : Mat 3 4) (Wm1 : Mat 192 64) (bm1 : Vec1 64) (Wm2 : Mat 64 2) (bm2 : Vec1 2) :
    Mat N 2 :=
  let h := trunk x W1 b1 W2 b2
  let f1 := step h (A (scaleRows h d)) d
  let f2 := step f1 (A (scaleRows f1 d)) d
  let f3 := step f2 (A (scaleRows f2 d)) d
  head (poly th h f1 f2 f3) Wm1 bm1 Wm2 bm2

end Cert.PolyConv

end
-- ==== Proof.KernelChain.lean ====
/-
  WHAT EACH REGION OF THE IDEALIZED KERNEL PROGRAM IS ENTERED WITH. The program is five regions among stretches of host
  operations. Between two regions the host computes, from buffers the earlier regions wrote and from the launch
  arguments, the arrays the next region's windows stage. This file reads every such array as a term over the launch
  memory and over the arrays the earlier regions leave:

  * the degree column dcolK of the destination list, computed once before the first region and read by the first four;
  * the neighbourhood aggregation aggK of the message matrix the region before wrote, the same operations each time;
  * the coefficient rows: column j of the 3 × 4 coefficients repeated along 64 lanes per convolution, coeffRow th j;
  * the biases cast to one row, and the weights and features as they stand.

  The sum over edges, the gather along edges and the power are host operations that are never opened: dcolK and aggK
  keep them as they are printed. A record Kept lists the buffers that later segments read and no segment writes (the
  edge lists, the coefficients, the head's parameters, the degree column) and is carried across every host stretch and
  every region, so that each entry lemma reads them off at its own boundary.
-/
import proofs.«148983_j56255481643509_2_alg».proof.Proof.Gen.KernelIdeal.Frame
import proofs.«148983_j56255481643509_2_alg».proof.Proof.Spec

set_option maxRecDepth 16384

noncomputable section

namespace Cert.PolyConv.Chain

open Idealize.ShloMosaic Idealize.ShloMosaic.ValueIdx Idealize.ShloMosaic.TcCoe
open Cert.KernelIdeal Cert.KernelIdeal.Gen Cert.PolyConv

variable (m : (ℓ : Loc nD τ sig) → Buf (Elt Ideal) ℓ) (ρ : Dev nD → PrngReg) (c : Dev nD)

/-! ## The two host terms -/

/-- The column of inverse square roots of the clamped in-degrees, as the host operations before the first region
    leave it: ones summed into zeros at the destination of every edge, the larger of that and one, raised to the
    power -1/2, laid out as a column. Neither the sum over edges nor the power is opened. -/
def dcolK (x2 : S1600000.Idx → Elt Ideal .i32) : Mat 100000 1 :=
  broadcastInDim S100000x1 ![0] bcast_S100000_S100000x1_0
    (Host.powf (F := Ideal)
      (maximumf (broadcastInDim S100000 ![] bcast_S_S100000 (constant (F := Ideal) S_ .f32 0x3F800000#32))
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 x2)
          (broadcastInDim S1600000 ![] bcast_S_S1600000 (constant (F := Ideal) S_ .f32 0x3F800000#32))))
      (broadcastInDim S100000 ![] bcast_S_S100000 (constant (F := Ideal) S_ .f32 0xBF000000#32)))

/-- The neighbourhood aggregation, as each host stretch between two regions computes it from the message matrix
    msg: the rows of msg gathered at the source of every edge (a negative source index wrapped by the number of
    nodes), then summed into zeros at the destination of every edge. The gather and the sum are not opened. -/
def aggK (x1 x2 : S1600000.Idx → Elt Ideal .i32) (msg : Mat 100000 64) : Mat 100000 64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x2)
    (Host.gather gather_S100000x64_S1600000x1_S1600000x64_1_0_n_n_0_1_164 msg
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32)))
          x1)))

/-! The clamp is a call of a module-local function, whose operations move contents between a value's type and its
    buffer's type: the two are the same type, and the transport is the identity. -/
theorem toBuf_v4 (v : (⟨S100000, .f32⟩ : BufTy).Contents (Elt Ideal)) :
    (StableHlo.TRef.of main_v4 : StableHlo.TRef sig ⟨S100000, .f32⟩).toBuf v = v := rfl
theorem toBuf_call0_v1 (v : (⟨S100000, .f32⟩ : BufTy).Contents (Elt Ideal)) :
    (StableHlo.TRef.of main_call0_v1 : StableHlo.TRef sig ⟨S100000, .f32⟩).toBuf v = v := rfl
theorem ofBuf_call0_v1 (v : (⟨S100000, .f32⟩ : BufTy).Contents (Elt Ideal)) :
    (StableHlo.TRef.of main_call0_v1 : StableHlo.TRef sig ⟨S100000, .f32⟩).ofBuf v = v := rfl
theorem toBuf_call0_v0 (v : (⟨S_, .f32⟩ : BufTy).Contents (Elt Ideal)) :
    (StableHlo.TRef.of main_call0_v0 : StableHlo.TRef sig ⟨S_, .f32⟩).toBuf v = v := rfl
theorem ofBuf_call0_v0 (v : (⟨S_, .f32⟩ : BufTy).Contents (Elt Ideal)) :
    (StableHlo.TRef.of main_call0_v0 : StableHlo.TRef sig ⟨S_, .f32⟩).ofBuf v = v := rfl
theorem ofBuf_cst_1 (v : (⟨S_, .f32⟩ : BufTy).Contents (Elt Ideal)) :
    (StableHlo.TRef.of main_cst_1 : StableHlo.TRef sig ⟨S_, .f32⟩).ofBuf v = v := rfl
theorem ofBuf_v3 (v : (⟨S100000, .f32⟩ : BufTy).Contents (Elt Ideal)) :
    (StableHlo.TRef.of main_v3 : StableHlo.TRef sig ⟨S100000, .f32⟩).ofBuf v = v := rfl

/-! ## A coefficient row -/

/-- Column o of the 3 × 4 coefficients cut out, flattened to 3 entries, repeated along 64 lanes, flattened to 192
    entries and laid as one row: entry (0, k) is the coefficient th (k / 64, o), the o-th coefficient of the
    convolution that column k belongs to. -/
theorem coeffRow_of_ops (th : Mat 3 4) (j : Fin 4) (o : ℕ) (ho : o = j.val)
    (hs : (⟨2, ![3, 4]⟩ : Shape).Slices (![0, o] : Fin 2 → ℕ) ⟨2, ![3, 1]⟩)
    (hc1 : (⟨2, ![3, 1]⟩ : Shape).ShapeCasts ⟨1, ![3]⟩)
    (hb1 : (⟨1, ![3]⟩ : Shape).BroadcastsInDim ⟨2, ![3, 64]⟩ (![0] : Fin 1 → Fin 2))
    (hc2 : (⟨2, ![3, 64]⟩ : Shape).ShapeCasts ⟨1, ![192]⟩)
    (hb2 : (⟨1, ![192]⟩ : Shape).BroadcastsInDim ⟨2, ![1, 192]⟩ (![1] : Fin 1 → Fin 2)) :
    broadcastInDim ⟨2, ![1, 192]⟩ ![1] hb2
      (shapeCast ⟨1, ![192]⟩ (broadcastInDim ⟨2, ![3, 64]⟩ ![0] hb1
        (shapeCast ⟨1, ![3]⟩ (extractStridedSlice ⟨2, ![3, 1]⟩ ![0, o] th hs) hc1)) hc2) = coeffRow th j := by
  funext i
  obtain ⟨u, k, rfl⟩ : ∃ (u : Fin 1) (k : Fin 192), i = ix2 u k := ⟨i 0, i 1, eq_ix2 i⟩
  rw [coeffRow_apply]
  have hk := k.isLt
  refine (broadcastInDim_apply ![1] hb2 _ (ix2 u k) (ix1 k) fun ax => ?_).trans ?_
  · match ax with
    | ⟨0, _⟩ => rfl
  refine (shapeCast_apply _ hc2 (ix1 k) (ix2 (conv k) (lane k)) ?_).trans ?_
  · rw [Shape.rowMajor_val_two, Shape.rowMajor_val_one]
    show k.val / 64 * 64 + k.val % 64 = k.val
    omega
  refine (broadcastInDim_apply ![0] hb1 _ (ix2 (conv k) (lane k)) (ix1 (conv k)) fun ax => ?_).trans ?_
  · match ax with
    | ⟨0, _⟩ => rfl
  refine (shapeCast_apply _ hc1 (ix1 (conv k)) (ix2 (conv k) (0 : Fin 1)) ?_).trans ?_
  · rw [Shape.rowMajor_val_two, Shape.rowMajor_val_one]
    show k.val / 64 * 1 + 0 = k.val / 64
    omega
  refine extractStridedSlice_apply _ th hs (ix2 (conv k) (0 : Fin 1)) (ix2 (conv k) j) fun ax => ?_
  match ax with
  | ⟨0, _⟩ => exact (Nat.zero_add _).symm
  | ⟨1, _⟩ =>
    show j.val = o + 0
    omega

/-! ## What the host operations before the first region leave -/

set_option maxHeartbeats 400000 in
/-- The degree column when the first region is entered. -/
theorem V3_v7 : (V3 (F := Ideal) m ρ c main_v7 : S100000x1.Idx → EReal) = dcolK (m ((c : Thread nD τ).loc main_arg2)) := by
  show StableHlo.after hostOps0_2 (StableHlo.after hostOps0_1 (StableHlo.after hostOps0 (W0 m ρ c))) (Proc.devRef .tc main_v7) = _
  after_results_simp
  rw [toBuf_v4, ofBuf_call0_v1, toBuf_call0_v1, ofBuf_call0_v0, toBuf_call0_v0, ofBuf_cst_1, ofBuf_v3, id_eq]
  unfold dcolK
  rfl

set_option maxHeartbeats 400000 in
theorem V3_arg0 : V3 (F := Ideal) m ρ c main_arg0 = m ((c : Thread nD τ).loc main_arg0) := by
  show StableHlo.after hostOps0_2 (StableHlo.after hostOps0_1 (StableHlo.after hostOps0 (W0 m ρ c))) (Proc.devRef .tc main_arg0) = _
  after_results_simp

set_option maxHeartbeats 400000 in
theorem V3_arg3 : V3 (F := Ideal) m ρ c main_arg3 = m ((c : Thread nD τ).loc main_arg3) := by
  show StableHlo.after hostOps0_2 (StableHlo.after hostOps0_1 (StableHlo.after hostOps0 (W0 m ρ c))) (Proc.devRef .tc main_arg3) = _
  after_results_simp

set_option maxHeartbeats 400000 in
theorem V3_arg5 : V3 (F := Ideal) m ρ c main_arg5 = m ((c : Thread nD τ).loc main_arg5) := by
  show StableHlo.after hostOps0_2 (StableHlo.after hostOps0_1 (StableHlo.after hostOps0 (W0 m ρ c))) (Proc.devRef .tc main_arg5) = _
  after_results_simp

set_option maxHeartbeats 400000 in
/-- The first bias, cast to one row. -/
theorem V3_v8 : (V3 (F := Ideal) m ρ c main_v8 : S1x64.Idx → EReal)
    = shapeCast S1x64 (m ((c : Thread nD τ).loc main_arg4)) shapeCasts_S64_S1x64 := by
  show StableHlo.after hostOps0_2 (StableHlo.after hostOps0_1 (StableHlo.after hostOps0 (W0 m ρ c))) (Proc.devRef .tc main_v8) = _
  after_results_simp
  rfl

set_option maxHeartbeats 400000 in
/-- The second bias, cast to one row. -/
theorem V3_v9 : (V3 (F := Ideal) m ρ c main_v9 : S1x64.Idx → EReal)
    = shapeCast S1x64 (m ((c : Thread nD τ).loc main_arg6)) shapeCasts_S64_S1x64 := by
  show StableHlo.after hostOps0_2 (StableHlo.after hostOps0_1 (StableHlo.after hostOps0 (W0 m ρ c))) (Proc.devRef .tc main_v9) = _
  after_results_simp
  rfl

/-! ## What no region and no later host operation changes -/

/-- The buffers that later segments read and none writes: the two edge lists, the coefficients and the head's
    parameters at their launch contents, and the degree column. -/
structure Kept (W : Valuation τ sig (Elt Ideal)) : Prop where
  a1 : W (Proc.devRef .tc main_arg1) = m ((c : Thread nD τ).loc main_arg1)
  a2 : W (Proc.devRef .tc main_arg2) = m ((c : Thread nD τ).loc main_arg2)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  v7 : (W (Proc.devRef .tc main_v7) : S100000x1.Idx → EReal) = dcolK (m ((c : Thread nD τ).loc main_arg2))

set_option maxHeartbeats 1000000 in
theorem kept3 : Kept m c (W3 m ρ c) := by
  refine ⟨?_, ?_, ?_, ?_, ?_, ?_, ?_, V3_v7 m ρ c⟩ <;>
  · show StableHlo.after hostOps0_2 (StableHlo.after hostOps0_1 (StableHlo.after hostOps0 (W0 m ρ c))) _ = _
    after_results_simp

set_option maxHeartbeats 1000000 in
theorem kept_host1 {W : Valuation τ sig (Elt Ideal)} (h : Kept m c W) : Kept m c (StableHlo.after hostOps1 W) := by
  refine ⟨?_, ?_, ?_, ?_, ?_, ?_, ?_, ?_⟩
  all_goals after_results_simp
  exacts [h.a1, h.a2, h.a7, h.a8, h.a9, h.a10, h.a11, h.v7]

set_option maxHeartbeats 1000000 in
theorem kept_host2 {W : Valuation τ sig (Elt Ideal)} (h : Kept m c W) : Kept m c (StableHlo.after hostOps2 W) := by
  refine ⟨?_, ?_, ?_, ?_, ?_, ?_, ?_, ?_⟩
  all_goals after_results_simp
  exacts [h.a1, h.a2, h.a7, h.a8, h.a9, h.a10, h.a11, h.v7]

set_option maxHeartbeats 1000000 in
theorem kept_host3 {W : Valuation τ sig (Elt Ideal)} (h : Kept m c W) : Kept m c (StableHlo.after hostOps3 W) := by
  refine ⟨?_, ?_, ?_, ?_, ?_, ?_, ?_, ?_⟩
  all_goals after_results_simp
  exacts [h.a1, h.a2, h.a7, h.a8, h.a9, h.a10, h.a11, h.v7]

set_option maxHeartbeats 1000000 in
theorem kept_host4 {W : Valuation τ sig (Elt Ideal)} (h : Kept m c W) : Kept m c (StableHlo.after hostOps4 W) := by
  refine ⟨?_, ?_, ?_, ?_, ?_, ?_, ?_, ?_⟩
  all_goals after_results_simp
  exacts [h.a1, h.a2, h.a7, h.a8, h.a9, h.a10, h.a11, h.v7]

/-- Across the first region: the degree column is one of its input windows, the others none of its arrays. -/
theorem kept4 : Kept m c (W4 m ρ c) :=
  have h := kept3 m ρ c
  ⟨(W4_of_ne m ρ c main_arg1 (by decide)).trans h.a1, (W4_of_ne m ρ c main_arg2 (by decide)).trans h.a2,
   (W4_of_ne m ρ c main_arg7 (by decide)).trans h.a7, (W4_of_ne m ρ c main_arg8 (by decide)).trans h.a8,
   (W4_of_ne m ρ c main_arg9 (by decide)).trans h.a9, (W4_of_ne m ρ c main_arg10 (by decide)).trans h.a10,
   (W4_of_ne m ρ c main_arg11 (by decide)).trans h.a11,
   ((W4_arr m ρ c 5).trans (((dat0 (V3 m ρ) c).arrAt_in 5 rfl _).trans (A_eq0 (V3 m ρ) c 5))).trans h.v7⟩

theorem kept5 : Kept m c (W5 m ρ c) := kept_host1 m c (kept4 m ρ c)

/-- Across the second region (the degree column is its input window 2). -/
theorem kept6 : Kept m c (W6 m ρ c) :=
  have h := kept5 m ρ c
  ⟨(W6_of_ne m ρ c main_arg1 (by decide)).trans h.a1, (W6_of_ne m ρ c main_arg2 (by decide)).trans h.a2,
   (W6_of_ne m ρ c main_arg7 (by decide)).trans h.a7, (W6_of_ne m ρ c main_arg8 (by decide)).trans h.a8,
   (W6_of_ne m ρ c main_arg9 (by decide)).trans h.a9, (W6_of_ne m ρ c main_arg10 (by decide)).trans h.a10,
   (W6_of_ne m ρ c main_arg11 (by decide)).trans h.a11,
   ((W6_arr m ρ c 2).trans (((dat1 (V5 m ρ) c).arrAt_in 2 rfl _).trans (A_eq1 (V5 m ρ) c 2))).trans h.v7⟩

theorem kept7 : Kept m c (W7 m ρ c) := kept_host2 m c (kept6 m ρ c)

/-- Across the third region. -/
theorem kept8 : Kept m c (W8 m ρ c) :=
  have h := kept7 m ρ c
  ⟨(W8_of_ne m ρ c main_arg1 (by decide)).trans h.a1, (W8_of_ne m ρ c main_arg2 (by decide)).trans h.a2,
   (W8_of_ne m ρ c main_arg7 (by decide)).trans h.a7, (W8_of_ne m ρ c main_arg8 (by decide)).trans h.a8,
   (W8_of_ne m ρ c main_arg9 (by decide)).trans h.a9, (W8_of_ne m ρ c main_arg10 (by decide)).trans h.a10,
   (W8_of_ne m ρ c main_arg11 (by decide)).trans h.a11,
   ((W8_arr m ρ c 2).trans (((dat2 (V7 m ρ) c).arrAt_in 2 rfl _).trans (A_eq2 (V7 m ρ) c 2))).trans h.v7⟩

theorem kept9 : Kept m c (W9 m ρ c) := kept_host3 m c (kept8 m ρ c)

/-- Across the fourth region. -/
theorem kept10 : Kept m c (W10 m ρ c) :=
  have h := kept9 m ρ c
  ⟨(W10_of_ne m ρ c main_arg1 (by decide)).trans h.a1, (W10_of_ne m ρ c main_arg2 (by decide)).trans h.a2,
   (W10_of_ne m ρ c main_arg7 (by decide)).trans h.a7, (W10_of_ne m ρ c main_arg8 (by decide)).trans h.a8,
   (W10_of_ne m ρ c main_arg9 (by decide)).trans h.a9, (W10_of_ne m ρ c main_arg10 (by decide)).trans h.a10,
   (W10_of_ne m ρ c main_arg11 (by decide)).trans h.a11,
   ((W10_arr m ρ c 2).trans (((dat3 (V9 m ρ) c).arrAt_in 2 rfl _).trans (A_eq3 (V9 m ρ) c 2))).trans h.v7⟩

theorem kept11 : Kept m c (W11 m ρ c) := kept_host4 m c (kept10 m ρ c)

/-! ## Region 1 is entered with -/

set_option maxHeartbeats 400000 in
/-- The features the region before it wrote. -/
theorem V5_v10_0 : V5 (F := Ideal) m ρ c main_v10_0 = (dat0 (V3 m ρ) c).arrAt 6 cfg0.N := by
  show StableHlo.after hostOps1 (W4 m ρ c) (Proc.devRef .tc main_v10_0) = _
  after_results_simp
  exact W4_arr m ρ c 6

set_option maxHeartbeats 400000 in
/-- The aggregation of the message the region before it wrote. -/
theorem V5_v20 : (V5 (F := Ideal) m ρ c main_v20 : S100000x64.Idx → EReal)
    = aggK (m ((c : Thread nD τ).loc main_arg1)) (m ((c : Thread nD τ).loc main_arg2)) ((dat0 (V3 m ρ) c).arrAt 7 cfg0.N) := by
  show StableHlo.after hostOps1 (W4 m ρ c) (Proc.devRef .tc main_v20) = _
  after_results_simp
  have e : W4 m ρ c (Proc.devRef .tc main_v10_1) = (dat0 (V3 m ρ) c).arrAt 7 cfg0.N := W4_arr m ρ c 7
  rw [(kept4 m ρ c).a1, (kept4 m ρ c).a2, e]
  unfold aggK
  rfl

theorem V5_v7 : (V5 (F := Ideal) m ρ c main_v7 : S100000x1.Idx → EReal) = dcolK (m ((c : Thread nD τ).loc main_arg2)) :=
  (kept5 m ρ c).v7

set_option maxHeartbeats 400000 in
theorem V5_v30 : (V5 (F := Ideal) m ρ c main_v30 : S1x192.Idx → EReal) = coeffRow (m ((c : Thread nD τ).loc main_arg7)) 0 := by
  show StableHlo.after hostOps1 (W4 m ρ c) (Proc.devRef .tc main_v30) = _
  after_results_simp
  rw [(kept4 m ρ c).a7]
  exact coeffRow_of_ops (m ((c : Thread nD τ).loc main_arg7)) 0 0 rfl slices_S3x4_S3x1_0_0 shapeCasts_S3x1_S3 bcast_S3_S3x64_0
    shapeCasts_S3x64_S192 bcast_S192_S1x192_1

set_option maxHeartbeats 400000 in
theorem V5_v25 : (V5 (F := Ideal) m ρ c main_v25 : S1x192.Idx → EReal) = coeffRow (m ((c : Thread nD τ).loc main_arg7)) 1 := by
  show StableHlo.after hostOps1 (W4 m ρ c) (Proc.devRef .tc main_v25) = _
  after_results_simp
  rw [(kept4 m ρ c).a7]
  exact coeffRow_of_ops (m ((c : Thread nD τ).loc main_arg7)) 1 1 rfl slices_S3x4_S3x1_0_1 shapeCasts_S3x1_S3 bcast_S3_S3x64_0
    shapeCasts_S3x64_S192 bcast_S192_S1x192_1

/-! ## Region 2 is entered with -/

set_option maxHeartbeats 400000 in
/-- The features the region before it wrote. -/
theorem V7_v31_0 : V7 (F := Ideal) m ρ c main_v31_0 = (dat1 (V5 m ρ) c).arrAt 5 cfg1.N := by
  show StableHlo.after hostOps2 (W6 m ρ c) (Proc.devRef .tc main_v31_0) = _
  after_results_simp
  exact W6_arr m ρ c 5

set_option maxHeartbeats 400000 in
/-- The aggregation of the message the region before it wrote. -/
theorem V7_v41 : (V7 (F := Ideal) m ρ c main_v41 : S100000x64.Idx → EReal)
    = aggK (m ((c : Thread nD τ).loc main_arg1)) (m ((c : Thread nD τ).loc main_arg2)) ((dat1 (V5 m ρ) c).arrAt 7 cfg1.N) := by
  show StableHlo.after hostOps2 (W6 m ρ c) (Proc.devRef .tc main_v41) = _
  after_results_simp
  have e : W6 m ρ c (Proc.devRef .tc main_v31_2) = (dat1 (V5 m ρ) c).arrAt 7 cfg1.N := W6_arr m ρ c 7
  rw [(kept6 m ρ c).a1, (kept6 m ρ c).a2, e]
  unfold aggK
  rfl

theorem V7_v7 : (V7 (F := Ideal) m ρ c main_v7 : S100000x1.Idx → EReal) = dcolK (m ((c : Thread nD τ).loc main_arg2)) :=
  (kept7 m ρ c).v7

set_option maxHeartbeats 400000 in
/-- The polynomials accumulated so far. -/
theorem V7_v31_1 : V7 (F := Ideal) m ρ c main_v31_1 = (dat1 (V5 m ρ) c).arrAt 6 cfg1.N := by
  show StableHlo.after hostOps2 (W6 m ρ c) (Proc.devRef .tc main_v31_1) = _
  after_results_simp
  exact W6_arr m ρ c 6

set_option maxHeartbeats 400000 in
theorem V7_v46 : (V7 (F := Ideal) m ρ c main_v46 : S1x192.Idx → EReal) = coeffRow (m ((c : Thread nD τ).loc main_arg7)) 2 := by
  show StableHlo.after hostOps2 (W6 m ρ c) (Proc.devRef .tc main_v46) = _
  after_results_simp
  rw [(kept6 m ρ c).a7]
  exact coeffRow_of_ops (m ((c : Thread nD τ).loc main_arg7)) 2 2 rfl slices_S3x4_S3x1_0_2 shapeCasts_S3x1_S3 bcast_S3_S3x64_0
    shapeCasts_S3x64_S192 bcast_S192_S1x192_1

/-! ## Region 3 is entered with -/

set_option maxHeartbeats 400000 in
/-- The features the region before it wrote. -/
theorem V9_v47_0 : V9 (F := Ideal) m ρ c main_v47_0 = (dat2 (V7 m ρ) c).arrAt 5 cfg2.N := by
  show StableHlo.after hostOps3 (W8 m ρ c) (Proc.devRef .tc main_v47_0) = _
  after_results_simp
  exact W8_arr m ρ c 5

set_option maxHeartbeats 400000 in
/-- The aggregation of the message the region before it wrote. -/
theorem V9_v57 : (V9 (F := Ideal) m ρ c main_v57 : S100000x64.Idx → EReal)
    = aggK (m ((c : Thread nD τ).loc main_arg1)) (m ((c : Thread nD τ).loc main_arg2)) ((dat2 (V7 m ρ) c).arrAt 7 cfg2.N) := by
  show StableHlo.after hostOps3 (W8 m ρ c) (Proc.devRef .tc main_v57) = _
  after_results_simp
  have e : W8 m ρ c (Proc.devRef .tc main_v47_2) = (dat2 (V7 m ρ) c).arrAt 7 cfg2.N := W8_arr m ρ c 7
  rw [(kept8 m ρ c).a1, (kept8 m ρ c).a2, e]
  unfold aggK
  rfl

theorem V9_v7 : (V9 (F := Ideal) m ρ c main_v7 : S100000x1.Idx → EReal) = dcolK (m ((c : Thread nD τ).loc main_arg2)) :=
  (kept9 m ρ c).v7

set_option maxHeartbeats 400000 in
/-- The polynomials accumulated so far. -/
theorem V9_v47_1 : V9 (F := Ideal) m ρ c main_v47_1 = (dat2 (V7 m ρ) c).arrAt 6 cfg2.N := by
  show StableHlo.after hostOps3 (W8 m ρ c) (Proc.devRef .tc main_v47_1) = _
  after_results_simp
  exact W8_arr m ρ c 6

set_option maxHeartbeats 400000 in
theorem V9_v62 : (V9 (F := Ideal) m ρ c main_v62 : S1x192.Idx → EReal) = coeffRow (m ((c : Thread nD τ).loc main_arg7)) 3 := by
  show StableHlo.after hostOps3 (W8 m ρ c) (Proc.devRef .tc main_v62) = _
  after_results_simp
  rw [(kept8 m ρ c).a7]
  exact coeffRow_of_ops (m ((c : Thread nD τ).loc main_arg7)) 3 3 rfl slices_S3x4_S3x1_0_3 shapeCasts_S3x1_S3 bcast_S3_S3x64_0
    shapeCasts_S3x64_S192 bcast_S192_S1x192_1

/-! ## Region 4 is entered with -/

set_option maxHeartbeats 400000 in
/-- The three polynomials side by side, as the region before it wrote them. -/
theorem V11_v63 : V11 (F := Ideal) m ρ c main_v63 = (dat3 (V9 m ρ) c).arrAt 5 cfg3.N := by
  show StableHlo.after hostOps4 (W10 m ρ c) (Proc.devRef .tc main_v63) = _
  after_results_simp
  exact W10_arr m ρ c 5

theorem V11_arg8 : V11 (F := Ideal) m ρ c main_arg8 = m ((c : Thread nD τ).loc main_arg8) := (kept11 m ρ c).a8

theorem V11_arg10 : V11 (F := Ideal) m ρ c main_arg10 = m ((c : Thread nD τ).loc main_arg10) := (kept11 m ρ c).a10

set_option maxHeartbeats 400000 in
/-- The head's first bias, cast to one row. -/
theorem V11_v64 : (V11 (F := Ideal) m ρ c main_v64 : S1x64.Idx → EReal)
    = shapeCast S1x64 (m ((c : Thread nD τ).loc main_arg9)) shapeCasts_S64_S1x64 := by
  show StableHlo.after hostOps4 (W10 m ρ c) (Proc.devRef .tc main_v64) = _
  after_results_simp
  rw [(kept10 m ρ c).a9]
  rfl

set_option maxHeartbeats 400000 in
/-- The head's second bias, cast to one row. -/
theorem V11_v65 : (V11 (F := Ideal) m ρ c main_v65 : S1x2.Idx → EReal)
    = shapeCast S1x2 (m ((c : Thread nD τ).loc main_arg11)) shapeCasts_S2_S1x2 := by
  show StableHlo.after hostOps4 (W10 m ρ c) (Proc.devRef .tc main_v65) = _
  after_results_simp
  rw [(kept10 m ρ c).a11]
  rfl

/-! ## The result -/

/-- The result buffer at the end of the run is what the last region's write-backs leave in its output window. -/
theorem W12_v66 : W12 (F := Ideal) m ρ c (Proc.devRef .tc main_v66) = (dat4 (V11 m ρ) c).arrAt 5 cfg4.N :=
  W12_arr m ρ c 5

end Cert.PolyConv.Chain

end
-- ==== Proof.RowBlocks.lean ====
/-
  BLOCKS OF ROWS. Every layer of the specification works row by row on its row-wise operands: entry (p, ·) of the result
  depends only on row p of them (and on the small operands — weights, biases, coefficient rows — as a whole). So a layer
  applied to the rows off … off + B - 1 of its operands is those rows of the layer applied to the whole matrices. This is
  what lets a computation tiled over blocks of B rows be read as one computation on all rows. No program is mentioned.
-/
import proofs.«148983_j56255481643509_2_alg».proof.Proof.Spec

noncomputable section

namespace Cert.PolyConv

open Idealize.ShloMosaic Idealize.ShloMosaic.ValueIdx Cert.LibDenseLayers
open scoped BigOperators

/-- Entry (p, q) of the block of B rows starting at row off: the matrix at (off + p, q). -/
def rowBlockAt {R C : ℕ} (B : ℕ) (a : Mat R C) (off : ℕ) (h : off + B ≤ R) (p : Fin B) (q : Fin C) : EReal :=
  a (ix2 (⟨off + p.val, by have := p.isLt; omega⟩ : Fin R) q)

/-- Rows off … off + B - 1 of a matrix, as a matrix of B rows. -/
def rowBlock {R C : ℕ} (B : ℕ) (a : Mat R C) (off : ℕ) (h : off + B ≤ R) : Mat B C :=
  fun y => rowBlockAt B a off h (y 0) (y 1)

theorem rowBlock_apply {R C : ℕ} (B : ℕ) (a : Mat R C) (off : ℕ) (h : off + B ≤ R) (p : Fin B) (q : Fin C) :
    rowBlock B a off h (ix2 p q) = a (ix2 (⟨off + p.val, by have := p.isLt; omega⟩ : Fin R) q) := rfl

theorem scaleRows_rowBlock {R C : ℕ} (B : ℕ) (a : Mat R C) (d : Mat R 1) (off : ℕ) (h : off + B ≤ R) :
    scaleRows (rowBlock B a off h) (rowBlock B d off h) = rowBlock B (scaleRows a d) off h := by
  funext y
  obtain ⟨p, q, rfl⟩ : ∃ (p : Fin B) (q : Fin C), y = ix2 p q := ⟨y 0, y 1, eq_ix2 y⟩
  rfl

theorem step_rowBlock {R C : ℕ} (B : ℕ) (f g : Mat R C) (d : Mat R 1) (off : ℕ) (h : off + B ≤ R) :
    step (rowBlock B f off h) (rowBlock B g off h) (rowBlock B d off h) = rowBlock B (step f g d) off h := by
  funext y
  obtain ⟨p, q, rfl⟩ : ∃ (p : Fin B) (q : Fin C), y = ix2 p q := ⟨y 0, y 1, eq_ix2 y⟩
  rfl

theorem first2_rowBlock {R : ℕ} (B : ℕ) (t0 t1 : Mat 1 192) (f0 f1 : Mat R 64) (off : ℕ) (h : off + B ≤ R) :
    first2 t0 t1 (rowBlock B f0 off h) (rowBlock B f1 off h) = rowBlock B (first2 t0 t1 f0 f1) off h := by
  funext y
  obtain ⟨p, k, rfl⟩ : ∃ (p : Fin B) (k : Fin 192), y = ix2 p k := ⟨y 0, y 1, eq_ix2 y⟩
  rfl

theorem nextTerm_rowBlock {R : ℕ} (B : ℕ) (acc : Mat R 192) (t : Mat 1 192) (f : Mat R 64) (off : ℕ) (h : off + B ≤ R) :
    nextTerm (rowBlock B acc off h) t (rowBlock B f off h) = rowBlock B (nextTerm acc t f) off h := by
  funext y
  obtain ⟨p, k, rfl⟩ : ∃ (p : Fin B) (k : Fin 192), y = ix2 p k := ⟨y 0, y 1, eq_ix2 y⟩
  rfl

theorem trunk_rowBlock {R : ℕ} (B : ℕ) (x : Mat R 128) (W1 : Mat 128 64) (b1 : Vec1 64) (W2 : Mat 64 64) (b2 : Vec1 64)
    (off : ℕ) (h : off + B ≤ R) :
    trunk (rowBlock B x off h) W1 b1 W2 b2 = rowBlock B (trunk x W1 b1 W2 b2) off h := by
  funext y
  obtain ⟨p, q, rfl⟩ : ∃ (p : Fin B) (q : Fin 64), y = ix2 p q := ⟨y 0, y 1, eq_ix2 y⟩
  exact trunk_row (rowBlock B x off h) x W1 b1 W2 b2 p ⟨off + p.val, by have := p.isLt; omega⟩ (fun k => rfl) q

theorem head_rowBlock {R : ℕ} (B : ℕ) (hf : Mat R 192) (Wm1 : Mat 192 64) (bm1 : Vec1 64) (Wm2 : Mat 64 2) (bm2 : Vec1 2)
    (off : ℕ) (h : off + B ≤ R) :
    head (rowBlock B hf off h) Wm1 bm1 Wm2 bm2 = rowBlock B (head hf Wm1 bm1 Wm2 bm2) off h := by
  funext y
  obtain ⟨p, q, rfl⟩ : ∃ (p : Fin B) (q : Fin 2), y = ix2 p q := ⟨y 0, y 1, eq_ix2 y⟩
  exact head_row (rowBlock B hf off h) hf Wm1 bm1 Wm2 bm2 p ⟨off + p.val, by have := p.isLt; omega⟩ (fun k => rfl) q

end Cert.PolyConv

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«148983_j56255481643509_2_alg».proof.Proof.LibMatmulRows
import proofs.«148983_j56255481643509_2_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibConcatCols.lean ====
/-
  GENERAL lemmas on matrices joined along their columns, read at an index, and on a sum over such a joined axis. Nothing
  here mentions a program; the extents are arbitrary.

  * concat2_cols_apply: an [R, a] matrix followed along the columns by an [R, b] matrix, read at (p, k): the first at
    (p, k) when k < a, the second at (p, k - a) otherwise.
  * concat3_cols_apply: the same for three matrices [R, a], [R, b], [R, c].
  * concat3_cols_fst / _snd / _thd: the same three matrices read at a column inside the first, the second and the third piece,
    the column given with its offset into the piece (no case split).
  * sum_257: a sum over 257 indices as the first 128, the next 128 and the last.
  * sum_split3: a sum over a + b + 1 indices is the sum over the first a, plus the sum over the next b, plus the last term, in
    any additive commutative monoid (so no finiteness is needed on extended reals).
-/
import Idealize.ShloMosaic.Lib.Pipeline.Value
import Idealize.ShloMosaic.Lib.ValueIdx
import Mathlib.Algebra.BigOperators.Fin

noncomputable section

namespace Cert.LibConcatCols

open Idealize.ShloMosaic Idealize.ShloMosaic.ValueIdx
open scoped BigOperators

variable {α : Type}

/-- Two matrices joined along the columns, read at (p, k). -/
theorem concat2_cols_apply {R a b n : ℕ} (x : (⟨2, ![R, a]⟩ : Shape).Idx → α) (y : (⟨2, ![R, b]⟩ : Shape).Idx → α)
    (h : Shape.Concatenates [⟨2, ![R, a]⟩, ⟨2, ![R, b]⟩] ⟨2, ![R, n]⟩ 1) (hn : n = a + b) (p : Fin R) (k : Fin n) :
    concatenate ⟨2, ![R, n]⟩ 1 [⟨⟨2, ![R, a]⟩, x⟩, ⟨⟨2, ![R, b]⟩, y⟩] h (ix2 p k)
      = if hk : k.val < a then x (ix2 p ⟨k.val, hk⟩) else y (ix2 p ⟨k.val - a, by have := k.isLt; omega⟩) := by
  split
  · next hk =>
    exact concatenate_pair_apply_left 1 x y h (ix2 p k) rfl (ix2 p ⟨k.val, hk⟩) (fun b => by
      match b with
      | ⟨0, _⟩ => rfl
      | ⟨1, _⟩ => rfl)
  · next hk =>
    exact concatenate_pair_apply_right 1 x y h (ix2 p k) rfl rfl (ix2 p ⟨k.val - a, by have := k.isLt; omega⟩) (fun b hb => by
      match b with
      | ⟨0, _⟩ => rfl
      | ⟨1, _⟩ => exact absurd rfl hb) (by show k.val - a + a = k.val; omega)

/-- Three matrices joined along the columns, read at (p, k). -/
theorem concat3_cols_apply {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (hn : n = a + b + c) (p : Fin R) (k : Fin n) :
    concatenate ⟨2, ![R, n]⟩ 1 [⟨⟨2, ![R, a]⟩, x⟩, ⟨⟨2, ![R, b]⟩, y⟩, ⟨⟨2, ![R, c]⟩, z⟩] h (ix2 p k)
      = if h1 : k.val < a then x (ix2 p ⟨k.val, h1⟩)
        else if h2 : k.val < a + b then y (ix2 p ⟨k.val - a, by omega⟩)
        else z (ix2 p ⟨k.val - a - b, by have := k.isLt; omega⟩) := by
  split
  · next h1 =>
    exact concatenate_apply_piece (t := ⟨2, ![R, n]⟩) 1 [⟨⟨2, ![R, a]⟩, x⟩, ⟨⟨2, ![R, b]⟩, y⟩, ⟨⟨2, ![R, c]⟩, z⟩] h (ix2 p k) 0 (by simp) ⟨2, ![R, a]⟩ x rfl rfl 0 rfl (ix2 p ⟨k.val, h1⟩) (fun q hq => by
      match q with
      | ⟨0, _⟩ => rfl
      | ⟨1, _⟩ => exact absurd rfl hq) (by show 0 + k.val = k.val; omega)
  · next h1 =>
    split
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 1 (by simp) ⟨2, ![R, b]⟩ y rfl rfl a rfl (ix2 p ⟨k.val - a, by omega⟩) (fun q hq => by
        match q with
        | ⟨0, _⟩ => rfl
        | ⟨1, _⟩ => exact absurd rfl hq) (by show a + (k.val - a) = k.val; omega)
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 2 (by simp) ⟨2, ![R, c]⟩ z rfl rfl (a + b) rfl
        (ix2 p ⟨k.val - a - b, by have := k.isLt; omega⟩) (fun q hq => by
        match q with
        | ⟨0, _⟩ => rfl
        | ⟨1, _⟩ => exact absurd rfl hq) (by show a + b + (k.val - a - b) = k.val; omega)

/-- Three matrices joined along the columns, read at a column k inside the first: k = i. -/
theorem concat3_cols_fst {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin a)
    (hk : k.val = i.val) :
    concatenate ⟨2, ![R, n]⟩ 1 [⟨⟨2, ![R, a]⟩, x⟩, ⟨⟨2, ![R, b]⟩, y⟩, ⟨⟨2, ![R, c]⟩, z⟩] h (ix2 p k) = x (ix2 p i) :=
  concatenate_apply_piece (t := ⟨2, ![R, n]⟩) 1 [⟨⟨2, ![R, a]⟩, x⟩, ⟨⟨2, ![R, b]⟩, y⟩, ⟨⟨2, ![R, c]⟩, z⟩] h _ 0 (by simp) ⟨2, ![R, a]⟩ x rfl rfl 0 rfl
    (ix2 p i) (fun q hq => by
      match q with
      | ⟨0, _⟩ => rfl
      | ⟨1, _⟩ => exact absurd rfl hq) (by show 0 + i.val = k.val; omega)

/-- Three matrices joined along the columns, read at a column k inside the second: k = a + i. -/
theorem concat3_cols_snd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin b)
    (hk : k.val = a + i.val) :
    concatenate ⟨2, ![R, n]⟩ 1 [⟨⟨2, ![R, a]⟩, x⟩, ⟨⟨2, ![R, b]⟩, y⟩, ⟨⟨2, ![R, c]⟩, z⟩] h (ix2 p k) = y (ix2 p i) :=
  concatenate_apply_piece (t := ⟨2, ![R, n]⟩) 1 [⟨⟨2, ![R, a]⟩, x⟩, ⟨⟨2, ![R, b]⟩, y⟩, ⟨⟨2, ![R, c]⟩, z⟩] h _ 1 (by simp) ⟨2, ![R, b]⟩ y rfl rfl a rfl
    (ix2 p i) (fun q hq => by
      match q with
      | ⟨0, _⟩ => rfl
      | ⟨1, _⟩ => exact absurd rfl hq) (by show a + i.val = k.val; omega)

/-- Three matrices joined along the columns, read at a column k inside the third: k = a + b + i. -/
theorem concat3_cols_thd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin c)
    (hk : k.val = a + b + i.val) :
    concatenate ⟨2, ![R, n]⟩ 1 [⟨⟨2, ![R, a]⟩, x⟩, ⟨⟨2, ![R, b]⟩, y⟩, ⟨⟨2, ![R, c]⟩, z⟩] h (ix2 p k) = z (ix2 p i) :=
  concatenate_apply_piece (t := ⟨2, ![R, n]⟩) 1 [⟨⟨2, ![R, a]⟩, x⟩, ⟨⟨2, ![R, b]⟩, y⟩, ⟨⟨2, ![R, c]⟩, z⟩] h _ 2 (by simp) ⟨2, ![R, c]⟩ z rfl rfl (a + b) rfl
    (ix2 p i) (fun q hq => by
      match q with
      | ⟨0, _⟩ => rfl
      | ⟨1, _⟩ => exact absurd rfl hq) (by show a + b + i.val = k.val; omega)

/-- A sum over 257 = 128 + 128 + 1 indices: the first 128, the next 128, the last one. -/
theorem sum_257 {M : Type*} [AddCommMonoid M] (f : Fin 257 → M) :
    ∑ k, f k = (∑ k : Fin 128, f ⟨k.val, by omega⟩) + (∑ k : Fin 128, f ⟨128 + k.val, by omega⟩) + f ⟨256, by omega⟩ := by
  show ∑ k : Fin (128 + 128 + 1), f k = _
  rw [Fin.sum_univ_castSucc, Fin.sum_univ_add]
  rfl

/-- A sum over a + b + 1 indices: the first a, the next b, the last one. -/
theorem sum_split3 {M : Type*} [AddCommMonoid M] (a b : ℕ) (f : Fin (a + b + 1) → M) :
    ∑ k, f k = (∑ k : Fin a, f ⟨k.val, by omega⟩) + (∑ k : Fin b, f ⟨a + k.val, by omega⟩) + f ⟨a + b, by omega⟩ := by
  rw [Fin.sum_univ_castSucc, Fin.sum_univ_add]
  rfl

end Cert.LibConcatCols

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«148983_j56255481643509_2_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.KernelSpellings.lean ====
/-
  THE KERNEL'S SPELLINGS of the specification's layers, on extended reals, for blocks of any number R of rows.
  A vector program writes each layer with layout operations: a column [R, 1] laid along the lanes; a one-row matrix [1, n] laid along the rows; three copies of a 64-wide matrix set side
  by side; a matrix product into a zero accumulator with operands narrowed to a shorter float format (no change on
  extended reals); a maximum with a zero laid over the whole block. Each lemma says that such a term IS the
  specification's layer of the same operands, as one equation between functions on the block's index set.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«148983_j56255481643509_2_alg».proof.Proof.Spec
import proofs.«148983_j56255481643509_2_alg».proof.Proof.LibRowBias
import proofs.«148983_j56255481643509_2_alg».proof.Proof.LibLayout
import proofs.«148983_j56255481643509_2_alg».proof.Proof.LibConcatCols
import proofs.«148983_j56255481643509_2_alg».proof.Proof.LibPlainDot

noncomputable section

namespace Cert.PolyConv.Spell

open Idealize.ShloMosaic Idealize.ShloMosaic.ValueIdx Cert.PolyConv Cert.LibDenseLayers Cert.LibRowBias
open scoped BigOperators

/-! ## Layouts read at an entry -/

/-- Three copies of a 64-wide matrix side by side: column k reads the matrix at lane k. -/
theorem three_copies_apply {R : ℕ} (w : (⟨2, ![R, 64]⟩ : Shape).Idx → EReal)
    (h : Shape.Concatenates [⟨2, ![R, 64]⟩, ⟨2, ![R, 64]⟩, ⟨2, ![R, 64]⟩] ⟨2, ![R, 192]⟩ 1) (p : Fin R) (k : Fin 192) :
    concatenate ⟨2, ![R, 192]⟩ 1 [⟨⟨2, ![R, 64]⟩, w⟩, ⟨⟨2, ![R, 64]⟩, w⟩, ⟨⟨2, ![R, 64]⟩, w⟩] h (ix2 p k)
      = w (ix2 p (lane k)) := by
  rw [Cert.LibConcatCols.concat3_cols_apply w w w h rfl p k]
  have hk := k.isLt
  split
  · next h1 => exact congrArg (fun q => w (ix2 p q)) (Fin.ext (by show k.val = k.val % 64; omega))
  · split
    · next h1 h2 => exact congrArg (fun q => w (ix2 p q)) (Fin.ext (by show k.val - 64 = k.val % 64; omega))
    · next h1 h2 => exact congrArg (fun q => w (ix2 p q)) (Fin.ext (by show k.val - 64 - 64 = k.val % 64; omega))

/-- A column laid along C lanes reads, at (p, q), the column at row p. -/
theorem column_along_lanes {R C : ℕ} (d : (⟨2, ![R, 1]⟩ : Shape).Idx → EReal)
    (hb : (⟨2, ![R, 1]⟩ : Shape).Broadcasts ⟨2, ![R, C]⟩) (p : Fin R) (q : Fin C) :
    broadcastTo ⟨2, ![R, C]⟩ d hb (ix2 p q) = d (ix2 p (0 : Fin 1)) :=
  Cert.LibLayout.broadcastTo_a1_ab_apply d hb p q

/-- A one-row matrix laid along R rows reads, at (p, q), its row at q. -/
theorem row_along_rows {R N : ℕ} (B : (⟨2, ![1, N]⟩ : Shape).Idx → EReal)
    (hb : (⟨2, ![1, N]⟩ : Shape).Broadcasts ⟨2, ![R, N]⟩) (p : Fin R) (q : Fin N) :
    broadcastTo ⟨2, ![R, N]⟩ B hb (ix2 p q) = B (ix2 (0 : Fin 1) q) :=
  broadcastTo_1b_ab_apply B hb p q

/-! ## The row-wise layers -/

/-- a * (d laid along the lanes) is the rows of a scaled by d. -/
theorem scale_spelt {R C : ℕ} (a : FVec Ideal ⟨2, ![R, C]⟩ .f32) (d : FVec Ideal ⟨2, ![R, 1]⟩ .f32)
    (hb : (⟨2, ![R, 1]⟩ : Shape).Broadcasts ⟨2, ![R, C]⟩) :
    mulf a (broadcastTo ⟨2, ![R, C]⟩ d hb) = scaleRows a d := by
  funext j
  obtain ⟨p, q, rfl⟩ : ∃ (p : Fin R) (q : Fin C), j = ix2 p q := ⟨j 0, j 1, eq_ix2 j⟩
  show a (ix2 p q) * broadcastTo ⟨2, ![R, C]⟩ d hb (ix2 p q) = a (ix2 p q) * d (ix2 p (0 : Fin 1))
  rw [column_along_lanes d hb p q]

/-- f - g * (d laid along the lanes) is one update of the recurrence. -/
theorem step_spelt {R C : ℕ} (f g : FVec Ideal ⟨2, ![R, C]⟩ .f32) (d : FVec Ideal ⟨2, ![R, 1]⟩ .f32)
    (hb : (⟨2, ![R, 1]⟩ : Shape).Broadcasts ⟨2, ![R, C]⟩) :
    subf f (mulf g (broadcastTo ⟨2, ![R, C]⟩ d hb)) = step f g d := by
  funext j
  obtain ⟨p, q, rfl⟩ : ∃ (p : Fin R) (q : Fin C), j = ix2 p q := ⟨j 0, j 1, eq_ix2 j⟩
  show f (ix2 p q) - g (ix2 p q) * broadcastTo ⟨2, ![R, C]⟩ d hb (ix2 p q)
    = f (ix2 p q) - g (ix2 p q) * d (ix2 p (0 : Fin 1))
  rw [column_along_lanes d hb p q]

/-- (t0 along the rows) * three copies of f0 + (t1 along the rows) * three copies of f1: the first two terms. -/
theorem first2_spelt {R : ℕ} (t0 t1 : FVec Ideal ⟨2, ![1, 192]⟩ .f32) (f0 f1 : FVec Ideal ⟨2, ![R, 64]⟩ .f32)
    (hb : (⟨2, ![1, 192]⟩ : Shape).Broadcasts ⟨2, ![R, 192]⟩)
    (hcat : Shape.Concatenates [⟨2, ![R, 64]⟩, ⟨2, ![R, 64]⟩, ⟨2, ![R, 64]⟩] ⟨2, ![R, 192]⟩ 1) :
    addf (mulf (broadcastTo ⟨2, ![R, 192]⟩ t0 hb)
            (concatenate ⟨2, ![R, 192]⟩ 1 [⟨⟨2, ![R, 64]⟩, f0⟩, ⟨⟨2, ![R, 64]⟩, f0⟩, ⟨⟨2, ![R, 64]⟩, f0⟩] hcat))
         (mulf (broadcastTo ⟨2, ![R, 192]⟩ t1 hb)
            (concatenate ⟨2, ![R, 192]⟩ 1 [⟨⟨2, ![R, 64]⟩, f1⟩, ⟨⟨2, ![R, 64]⟩, f1⟩, ⟨⟨2, ![R, 64]⟩, f1⟩] hcat))
      = first2 t0 t1 f0 f1 := by
  funext j
  obtain ⟨p, k, rfl⟩ : ∃ (p : Fin R) (k : Fin 192), j = ix2 p k := ⟨j 0, j 1, eq_ix2 j⟩
  show broadcastTo ⟨2, ![R, 192]⟩ t0 hb (ix2 p k)
        * concatenate ⟨2, ![R, 192]⟩ 1 [⟨⟨2, ![R, 64]⟩, f0⟩, ⟨⟨2, ![R, 64]⟩, f0⟩, ⟨⟨2, ![R, 64]⟩, f0⟩] hcat (ix2 p k)
      + broadcastTo ⟨2, ![R, 192]⟩ t1 hb (ix2 p k)
        * concatenate ⟨2, ![R, 192]⟩ 1 [⟨⟨2, ![R, 64]⟩, f1⟩, ⟨⟨2, ![R, 64]⟩, f1⟩, ⟨⟨2, ![R, 64]⟩, f1⟩] hcat (ix2 p k)
    = t0 (ix2 (0 : Fin 1) k) * f0 (ix2 p (lane k)) + t1 (ix2 (0 : Fin 1) k) * f1 (ix2 p (lane k))
  rw [row_along_rows t0 hb p k, row_along_rows t1 hb p k, three_copies_apply f0 hcat p k, three_copies_apply f1 hcat p k]

/-- acc + (t along the rows) * three copies of f: one more term. -/
theorem nextTerm_spelt {R : ℕ} (acc : FVec Ideal ⟨2, ![R, 192]⟩ .f32) (t : FVec Ideal ⟨2, ![1, 192]⟩ .f32)
    (f : FVec Ideal ⟨2, ![R, 64]⟩ .f32)
    (hb : (⟨2, ![1, 192]⟩ : Shape).Broadcasts ⟨2, ![R, 192]⟩)
    (hcat : Shape.Concatenates [⟨2, ![R, 64]⟩, ⟨2, ![R, 64]⟩, ⟨2, ![R, 64]⟩] ⟨2, ![R, 192]⟩ 1) :
    addf acc (mulf (broadcastTo ⟨2, ![R, 192]⟩ t hb)
            (concatenate ⟨2, ![R, 192]⟩ 1 [⟨⟨2, ![R, 64]⟩, f⟩, ⟨⟨2, ![R, 64]⟩, f⟩, ⟨⟨2, ![R, 64]⟩, f⟩] hcat))
      = nextTerm acc t f := by
  funext j
  obtain ⟨p, k, rfl⟩ : ∃ (p : Fin R) (k : Fin 192), j = ix2 p k := ⟨j 0, j 1, eq_ix2 j⟩
  show acc (ix2 p k) + broadcastTo ⟨2, ![R, 192]⟩ t hb (ix2 p k)
        * concatenate ⟨2, ![R, 192]⟩ 1 [⟨⟨2, ![R, 64]⟩, f⟩, ⟨⟨2, ![R, 64]⟩, f⟩, ⟨⟨2, ![R, 64]⟩, f⟩] hcat (ix2 p k)
    = acc (ix2 p k) + t (ix2 (0 : Fin 1) k) * f (ix2 p (lane k))
  rw [row_along_rows t hb p k, three_copies_apply f hcat p k]

/-! ## The dense layers -/

/-- A maximum with a zero laid over the block is the rectifier. -/
theorem relu_spelt {s : Shape} (a : FVec Ideal s .f32) :
    maximumf a (broadcast s (FloatOps.ofBits (F := Ideal) .f32 0x00000000#32)) = relu a := rfl

/-- A product into a zero accumulator (operands in any float format) plus a one-row bias laid along the rows is the
    affine layer with that row as bias. -/
theorem affine_spelt {R K N : ℕ} {φ₁ φ₂ : FTy} (h : FVec Ideal ⟨2, ![R, K]⟩ φ₁) (W : FVec Ideal ⟨2, ![K, N]⟩ φ₂)
    (B : FVec Ideal ⟨2, ![1, N]⟩ .f32) (hb : (⟨2, ![1, N]⟩ : Shape).Broadcasts ⟨2, ![R, N]⟩) :
    addf (matmul (DotDims.plain R K N) none h W (constant (F := Ideal) ⟨2, ![R, N]⟩ .f32 0x00000000#32))
      (broadcastTo ⟨2, ![R, N]⟩ B hb) = affine h W (rowOf B) := by
  funext j
  obtain ⟨p, q, rfl⟩ : ∃ (p : Fin R) (q : Fin N), j = ix2 p q := ⟨j 0, j 1, eq_ix2 j⟩
  show matmul (DotDims.plain R K N) none h W (constant (F := Ideal) ⟨2, ![R, N]⟩ .f32 0x00000000#32) (ix2 p q)
      + broadcastTo ⟨2, ![R, N]⟩ B hb (ix2 p q) = affineAt h W (rowOf B) p q
  rw [Cert.LibPlainDot.matmul_plain h W p q, row_along_rows B hb p q]
  rfl

/-- The same for a dimension record that is the plain one (every printed record of a product of an [R, K] by a [K, N]
    matrix is). -/
theorem affine_spelt_of {R K N : ℕ} (d : DotDims ⟨2, ![R, K]⟩ ⟨2, ![K, N]⟩ ⟨2, ![R, N]⟩) (hd : d = DotDims.plain R K N)
    {φ₁ φ₂ : FTy} (h : FVec Ideal ⟨2, ![R, K]⟩ φ₁) (W : FVec Ideal ⟨2, ![K, N]⟩ φ₂)
    (B : FVec Ideal ⟨2, ![1, N]⟩ .f32) (hb : (⟨2, ![1, N]⟩ : Shape).Broadcasts ⟨2, ![R, N]⟩) :
    addf (matmul d none h W (constant (F := Ideal) ⟨2, ![R, N]⟩ .f32 0x00000000#32))
      (broadcastTo ⟨2, ![R, N]⟩ B hb) = affine h W (rowOf B) := by
  subst hd
  exact affine_spelt h W B hb

end Cert.PolyConv.Spell

end
-- ==== Proof.Region0.lean ====
/-
  THE TRUNK, as functions of the arrays it is entered with.
  The kernel runs over 50 blocks of 2000 rows. On a block of the input features it computes two rectified affine layers
  (matrix products into zero accumulators, operands narrowed to a shorter float format: no change on extended reals;
  one-row biases laid along the rows) and stores the result, and the first message, the result scaled by d. Row p of
  either depends only on row p of the block, so each output's 50 written blocks are the rows of ONE matrix of the whole
  arrays. V is the buffers' contents when the region is entered; a bias arrives as a one-row matrix and enters through
  its row.
-/
import proofs.«148983_j56255481643509_2_alg».proof.Proof.Gen.KernelIdeal.Frame
import Idealize.ShloMosaic.Lib.Pipeline.Value
import proofs.«148983_j56255481643509_2_alg».proof.Proof.Spec
import proofs.«148983_j56255481643509_2_alg».proof.Proof.RowBlocks
import proofs.«148983_j56255481643509_2_alg».proof.Proof.KernelSpellings

set_option maxRecDepth 16384

noncomputable section

namespace Cert.PolyConv.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PolyConv Cert.LibDenseLayers Cert.LibRowBias

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The grid has 50 points, and block t of 2000 rows ends inside the 100000 rows. -/
theorem rows_le (t : Fin cfg0.N) : t.val * 2000 + 2000 ≤ 100000 := by
  have h := t.isLt
  have hN : cfg0.N = 50 := N_0
  omega

/-- The printed index maps, decided over the 50 grid points: a row-blocked window's block index at point t is (t, 0), a
    small operand's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## Each window's block at a point, as rows of its array -/

/-- Input window 0's block at point t is rows 2000 t … 2000 t + 1999 of its array. -/
theorem blk0 (t : Fin cfg0.N) :
    (iblk0 V c 0 t : S2000x128.Idx → EReal) = rowBlock 2000 (V c main_arg0 : Mat 100000 128) (t.val * 2000) (rows_le t) := by
  funext y
  show V c main_arg0 (((cfg0.win 0).blk t).view.emb y)
    = V c main_arg0 (ix2 (⟨t.val * 2000 + (y 0).val, by have h0 : (y 0).val < 2000 := (y 0).isLt; have := rows_le t; omega⟩ : Fin 100000) (y 1))
  refine congrArg (V c main_arg0) (funext fun a => Fin.ext ?_)
  obtain ⟨e0a, e0b, e1a, e1b, e2a, e2b, e3a, e3b, e4a, e4b, e5a, e5b, e6a, e6b, e7a, e7b⟩ := idx_facts t
  match a with
  | ⟨0, _⟩ => show win0_0.index t (0 : Fin 2) * 2000 + 1 * (y 0).val = t.val * 2000 + (y 0).val; omega
  | ⟨1, _⟩ => show win0_0.index t (1 : Fin 2) * 128 + 1 * (y 1).val = (y 1).val; omega

/-- Input window 1's block at every point is its whole array. -/
theorem blk1 (t : Fin cfg0.N) : (iblk0 V c 1 t : S128x64.Idx → EReal) = (V c main_arg3 : Mat 128 64) := by
  funext y
  show V c main_arg3 (((cfg0.win 1).blk t).view.emb y) = V c main_arg3 y
  refine congrArg (V c main_arg3) (funext fun a => Fin.ext ?_)
  obtain ⟨e0a, e0b, e1a, e1b, e2a, e2b, e3a, e3b, e4a, e4b, e5a, e5b, e6a, e6b, e7a, e7b⟩ := idx_facts t
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- Input window 2's block at every point is its whole array. -/
theorem blk2 (t : Fin cfg0.N) : (iblk0 V c 2 t : S1x64.Idx → EReal) = (V c main_v8 : Mat 1 64) := by
  funext y
  show V c main_v8 (((cfg0.win 2).blk t).view.emb y) = V c main_v8 y
  refine congrArg (V c main_v8) (funext fun a => Fin.ext ?_)
  obtain ⟨e0a, e0b, e1a, e1b, e2a, e2b, e3a, e3b, e4a, e4b, e5a, e5b, e6a, e6b, e7a, e7b⟩ := idx_facts t
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Input window 3's block at every point is its whole array. -/
theorem blk3 (t : Fin cfg0.N) : (iblk0 V c 3 t : S64x64.Idx → EReal) = (V c main_arg5 : Mat 64 64) := by
  funext y
  show V c main_arg5 (((cfg0.win 3).blk t).view.emb y) = V c main_arg5 y
  refine congrArg (V c main_arg5) (funext fun a => Fin.ext ?_)
  obtain ⟨e0a, e0b, e1a, e1b, e2a, e2b, e3a, e3b, e4a, e4b, e5a, e5b, e6a, e6b, e7a, e7b⟩ := idx_facts t
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Input window 4's block at every point is its whole array. -/
theorem blk4 (t : Fin cfg0.N) : (iblk0 V c 4 t : S1x64.Idx → EReal) = (V c main_v9 : Mat 1 64) := by
  funext y
  show V c main_v9 (((cfg0.win 4).blk t).view.emb y) = V c main_v9 y
  refine congrArg (V c main_v9) (funext fun a => Fin.ext ?_)
  obtain ⟨e0a, e0b, e1a, e1b, e2a, e2b, e3a, e3b, e4a, e4b, e5a, e5b, e6a, e6b, e7a, e7b⟩ := idx_facts t
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Input window 5's block at point t is rows 2000 t … 2000 t + 1999 of its array. -/
theorem blk5 (t : Fin cfg0.N) :
    (iblk0 V c 5 t : S2000x1.Idx → EReal) = rowBlock 2000 (V c main_v7 : Mat 100000 1) (t.val * 2000) (rows_le t) := by
  funext y
  show V c main_v7 (((cfg0.win 5).blk t).view.emb y)
    = V c main_v7 (ix2 (⟨t.val * 2000 + (y 0).val, by have h0 : (y 0).val < 2000 := (y 0).isLt; have := rows_le t; omega⟩ : Fin 100000) (y 1))
  refine congrArg (V c main_v7) (funext fun a => Fin.ext ?_)
  obtain ⟨e0a, e0b, e1a, e1b, e2a, e2b, e3a, e3b, e4a, e4b, e5a, e5b, e6a, e6b, e7a, e7b⟩ := idx_facts t
  match a with
  | ⟨0, _⟩ => show win0_5.index t (0 : Fin 2) * 2000 + 1 * (y 0).val = t.val * 2000 + (y 0).val; omega
  | ⟨1, _⟩ => show win0_5.index t (1 : Fin 2) * 1 + 1 * (y 1).val = (y 1).val; omega

/-- Output window 6's block at point t, read off any array G of its shape, is rows 2000 t … of G. -/
theorem read6 (t : Fin cfg0.N) (G : Mat 100000 64) :
    ((cfg0.win 6).blk t).view.read (Elt Ideal) G = rowBlock 2000 G (t.val * 2000) (rows_le t) := by
  funext y
  show G (((cfg0.win 6).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b, e6a, e6b, e7a, e7b⟩ := idx_facts t
  match a with
  | ⟨0, _⟩ => show win0_6.index t (0 : Fin 2) * 2000 + 1 * (y 0).val = t.val * 2000 + (y 0).val; omega
  | ⟨1, _⟩ => show win0_6.index t (1 : Fin 2) * 64 + 1 * (y 1).val = (y 1).val; omega

/-- An index of output window 6's array is in point t's block iff each coordinate is in the block's range. -/
theorem mem_blk6 (t : Fin cfg0.N) (i : S100000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v10_0).slice (win0_6.rect t)).set ↔ _
  rw [View.set_slice_whole, Rect.mem_set_unit]
  exact Iff.rfl

/-- Every row of output window 6's array is in the block of the point r / 2000. -/
theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_6 _, ?_⟩
  rw [mem_blk6]
  obtain ⟨e0a, e0b, e1a, e1b, e2a, e2b, e3a, e3b, e4a, e4b, e5a, e5b, e6a, e6b, e7a, e7b⟩ := idx_facts ⟨(i 0).val / 2000, by rw [hN]; omega⟩
  intro a
  match a with
  | ⟨0, _⟩ =>
    show win0_6.index _ (0 : Fin 2) * 2000 ≤ (i 0).val ∧ (i 0).val < win0_6.index _ (0 : Fin 2) * 2000 + 2000
    rw [e6a]
    show (i 0).val / 2000 * 2000 ≤ (i 0).val ∧ (i 0).val < (i 0).val / 2000 * 2000 + 2000
    omega
  | ⟨1, _⟩ =>
    show win0_6.index _ (1 : Fin 2) * 64 ≤ (i 1).val ∧ (i 1).val < win0_6.index _ (1 : Fin 2) * 64 + 64
    rw [e6b]
    omega

/-- Output window 7's block at point t, read off any array G of its shape, is rows 2000 t … of G. -/
theorem read7 (t : Fin cfg0.N) (G : Mat 100000 64) :
    ((cfg0.win 7).blk t).view.read (Elt Ideal) G = rowBlock 2000 G (t.val * 2000) (rows_le t) := by
  funext y
  show G (((cfg0.win 7).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b, e6a, e6b, e7a, e7b⟩ := idx_facts t
  match a with
  | ⟨0, _⟩ => show win0_7.index t (0 : Fin 2) * 2000 + 1 * (y 0).val = t.val * 2000 + (y 0).val; omega
  | ⟨1, _⟩ => show win0_7.index t (1 : Fin 2) * 64 + 1 * (y 1).val = (y 1).val; omega

/-- An index of output window 7's array is in point t's block iff each coordinate is in the block's range. -/
theorem mem_blk7 (t : Fin cfg0.N) (i : S100000x64.Idx) :
    i ∈ ((cfg0.win 7).blk t).view.set ↔ ∀ a : Fin 2, win0_7.index t a * S2000x64.size a ≤ (i a).val
      ∧ (i a).val < win0_7.index t a * S2000x64.size a + S2000x64.size a := by
  show i ∈ ((View.whole main_v10_1).slice (win0_7.rect t)).set ↔ _
  rw [View.set_slice_whole, Rect.mem_set_unit]
  exact Iff.rfl

/-- Every row of output window 7's array is in the block of the point r / 2000. -/
theorem cover7 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_7 _, ?_⟩
  rw [mem_blk7]
  obtain ⟨e0a, e0b, e1a, e1b, e2a, e2b, e3a, e3b, e4a, e4b, e5a, e5b, e6a, e6b, e7a, e7b⟩ := idx_facts ⟨(i 0).val / 2000, by rw [hN]; omega⟩
  intro a
  match a with
  | ⟨0, _⟩ =>
    show win0_7.index _ (0 : Fin 2) * 2000 ≤ (i 0).val ∧ (i 0).val < win0_7.index _ (0 : Fin 2) * 2000 + 2000
    rw [e7a]
    show (i 0).val / 2000 * 2000 ≤ (i 0).val ∧ (i 0).val < (i 0).val / 2000 * 2000 + 2000
    omega
  | ⟨1, _⟩ =>
    show win0_7.index _ (1 : Fin 2) * 64 ≤ (i 1).val ∧ (i 1).val < win0_7.index _ (1 : Fin 2) * 64 + 64
    rw [e7b]
    omega

/-! ## The body on a block -/

/-- The stored hidden features: the trunk of the loaded block. -/
theorem pay1_eq (v0 : FVec Ideal S2000x128 .f32) (v2 : FVec Ideal S128x64 .f32) (v5 : FVec Ideal S1x64 .f32)
    (v12 : FVec Ideal S64x64 .f32) (v15 : FVec Ideal S1x64 .f32) :
    k0_pay1 (F := Ideal) v0 v2 v5 v12 v15 = trunk v0 v2 (rowOf v5) v12 (rowOf v15) := by
  unfold k0_pay1
  simp only [shapeCast_self]
  rw [Spell.affine_spelt_of dot_S2000x128_S128x64_S2000x64_1_0_0_1_n_n rfl (truncf .bf16 v0 bitsLt_bf16_f32)
    (truncf .bf16 v2 bitsLt_bf16_f32) v5 broadcasts_S1x64_S2000x64]
  rw [Spell.relu_spelt]
  rw [Spell.affine_spelt_of dot_S2000x64_S64x64_S2000x64_1_0_0_1_n_n rfl _ (truncf .bf16 v12 bitsLt_bf16_f32) v15
    broadcasts_S1x64_S2000x64]
  rw [Spell.relu_spelt]
  rfl

/-- The stored message: the hidden features scaled by d. -/
theorem pay2_eq (v0 : FVec Ideal S2000x128 .f32) (v2 : FVec Ideal S128x64 .f32) (v5 : FVec Ideal S1x64 .f32)
    (v12 : FVec Ideal S64x64 .f32) (v15 : FVec Ideal S1x64 .f32) (v22 : FVec Ideal S2000x1 .f32) :
    k0_pay2 (F := Ideal) v0 v2 v5 v12 v15 v22 = scaleRows (trunk v0 v2 (rowOf v5) v12 (rowOf v15)) v22 := by
  unfold k0_pay2
  rw [pay1_eq]
  simp only [shapeCast_self]
  exact Spell.scale_spelt (trunk v0 v2 (rowOf v5) v12 (rowOf v15)) v22 broadcasts_S2000x1_S2000x64

/-! ## The output arrays -/

/-- The hidden features over all rows. -/
def hidden : Mat 100000 64 :=
  trunk (V c main_arg0) (V c main_arg3) (rowOf (V c main_v8)) (V c main_arg5) (rowOf (V c main_v9))
/-- The first message. -/
def msgs : Mat 100000 64 := scaleRows (hidden V c) (V c main_v7)

theorem flushed6 (t : Fin cfg0.N) :
    (dat0 V c).flushed 6 t = ((cfg0.win 6).blk t).view.read (Elt Ideal) (hidden V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x64) hz, View.ld_unit_zero (S := S1x64) hz, View.ld_unit_zero (S := S64x64) hz]
  rw [pay1_eq, read6 t]
  show trunk (iblk0 V c 0 t) (iblk0 V c 1 t) (rowOf (iblk0 V c 2 t)) (iblk0 V c 3 t) (rowOf (iblk0 V c 4 t)) = _
  rw [blk0 V c t, blk1 V c t, blk2 V c t, blk3 V c t, blk4 V c t]
  unfold hidden
  rw [trunk_rowBlock]

theorem flushed7 (t : Fin cfg0.N) :
    (dat0 V c).flushed 7 t = ((cfg0.win 7).blk t).view.read (Elt Ideal) (msgs V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S128x64) hz, View.ld_unit_zero (S := S1x64) hz, View.ld_unit_zero (S := S64x64) hz, View.ld_unit_zero (S := S2000x1) hz]
  rw [pay2_eq, read7 t]
  show scaleRows (trunk (iblk0 V c 0 t) (iblk0 V c 1 t) (rowOf (iblk0 V c 2 t)) (iblk0 V c 3 t) (rowOf (iblk0 V c 4 t)))
    (iblk0 V c 5 t) = _
  rw [blk0 V c t, blk1 V c t, blk2 V c t, blk3 V c t, blk4 V c t, blk5 V c t]
  unfold msgs hidden
  rw [trunk_rowBlock, scaleRows_rowBlock]

theorem final6 : (dat0 V c).arrAt 6 cfg0.N = hidden V c :=
  (dat0 V c).arrAt_eq_of_cover 6 (hidden V c) (fun t _ => flushed6 V c t) cover6
theorem final7 : (dat0 V c).arrAt 7 cfg0.N = msgs V c :=
  (dat0 V c).arrAt_eq_of_cover 7 (msgs V c) (fun t _ => flushed7 V c t) cover7

end Cert.PolyConv.Region0

end
-- ==== Proof.Region1.lean ====
/-
  THE FIRST UPDATE OF THE RECURRENCE, as functions of the arrays it is entered with.
  The kernel runs over 50 blocks of 2000 rows. On a block it forms the next features f - g * d and stores them, starts
  the three polynomials with their first two terms (coefficient rows times three copies of the old and of the new
  features), and stores the next message (the new features scaled by d). Every step works row by row, so each output's
  50 written blocks are the rows of ONE matrix of the whole arrays. V is the buffers' contents when the region is
  entered.
-/
import proofs.«148983_j56255481643509_2_alg».proof.Proof.Gen.KernelIdeal.Frame
import Idealize.ShloMosaic.Lib.Pipeline.Value
import proofs.«148983_j56255481643509_2_alg».proof.Proof.Spec
import proofs.«148983_j56255481643509_2_alg».proof.Proof.RowBlocks
import proofs.«148983_j56255481643509_2_alg».proof.Proof.KernelSpellings

set_option maxRecDepth 16384

noncomputable section

namespace Cert.PolyConv.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PolyConv Cert.LibDenseLayers Cert.LibRowBias

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The grid has 50 points, and block t of 2000 rows ends inside the 100000 rows. -/
theorem rows_le (t : Fin cfg1.N) : t.val * 2000 + 2000 ≤ 100000 := by
  have h := t.isLt
  have hN : cfg1.N = 50 := N_1
  omega

/-- The printed index maps, decided over the 50 grid points: a row-blocked window's block index at point t is (t, 0), a
    small operand's is (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## Each window's block at a point, as rows of its array -/

/-- Input window 0's block at point t is rows 2000 t … 2000 t + 1999 of its array. -/
theorem blk0 (t : Fin cfg1.N) :
    (iblk1 V c 0 t : S2000x64.Idx → EReal) = rowBlock 2000 (V c main_v10_0 : Mat 100000 64) (t.val * 2000) (rows_le t) := by
  funext y
  show V c main_v10_0 (((cfg1.win 0).blk t).view.emb y)
    = V c main_v10_0 (ix2 (⟨t.val * 2000 + (y 0).val, by have h0 : (y 0).val < 2000 := (y 0).isLt; have := rows_le t; omega⟩ : Fin 100000) (y 1))
  refine congrArg (V c main_v10_0) (funext fun a => Fin.ext ?_)
  obtain ⟨e0a, e0b, e1a, e1b, e2a, e2b, e3a, e3b, e4a, e4b, e5a, e5b, e6a, e6b, e7a, e7b⟩ := idx_facts t
  match a with
  | ⟨0, _⟩ => show win1_0.index t (0 : Fin 2) * 2000 + 1 * (y 0).val = t.val * 2000 + (y 0).val; omega
  | ⟨1, _⟩ => show win1_0.index t (1 : Fin 2) * 64 + 1 * (y 1).val = (y 1).val; omega

/-- Input window 1's block at point t is rows 2000 t … 2000 t + 1999 of its array. -/
theorem blk1 (t : Fin cfg1.N) :
    (iblk1 V c 1 t : S2000x64.Idx → EReal) = rowBlock 2000 (V c main_v20 : Mat 100000 64) (t.val * 2000) (rows_le t) := by
  funext y
  show V c main_v20 (((cfg1.win 1).blk t).view.emb y)
    = V c main_v20 (ix2 (⟨t.val * 2000 + (y 0).val, by have h0 : (y 0).val < 2000 := (y 0).isLt; have := rows_le t; omega⟩ : Fin 100000) (y 1))
  refine congrArg (V c main_v20) (funext fun a => Fin.ext ?_)
  obtain ⟨e0a, e0b, e1a, e1b, e2a, e2b, e3a, e3b, e4a, e4b, e5a, e5b, e6a, e6b, e7a, e7b⟩ := idx_facts t
  match a with
  | ⟨0, _⟩ => show win1_1.index t (0 : Fin 2) * 2000 + 1 * (y 0).val = t.val * 2000 + (y 0).val; omega
  | ⟨1, _⟩ => show win1_1.index t (1 : Fin 2) * 64 + 1 * (y 1).val = (y 1).val; omega

/-- Input window 2's block at point t is rows 2000 t … 2000 t + 1999 of its array. -/
theorem blk2 (t : Fin cfg1.N) :
    (iblk1 V c 2 t : S2000x1.Idx → EReal) = rowBlock 2000 (V c main_v7 : Mat 100000 1) (t.val * 2000) (rows_le t) := by
  funext y
  show V c main_v7 (((cfg1.win 2).blk t).view.emb y)
    = V c main_v7 (ix2 (⟨t.val * 2000 + (y 0).val, by have h0 : (y 0).val < 2000 := (y 0).isLt; have := rows_le t; omega⟩ : Fin 100000) (y 1))
  refine congrArg (V c main_v7) (funext fun a => Fin.ext ?_)
  obtain ⟨e0a, e0b, e1a, e1b, e2a, e2b, e3a, e3b, e4a, e4b, e5a, e5b, e6a, e6b, e7a, e7b⟩ := idx_facts t
  match a with
  | ⟨0, _⟩ => show win1_2.index t (0 : Fin 2) * 2000 + 1 * (y 0).val = t.val * 2000 + (y 0).val; omega
  | ⟨1, _⟩ => show win1_2.index t (1 : Fin 2) * 1 + 1 * (y 1).val = (y 1).val; omega

/-- Input window 3's block at every point is its whole array. -/
theorem blk3 (t : Fin cfg1.N) : (iblk1 V c 3 t : S1x192.Idx → EReal) = (V c main_v30 : Mat 1 192) := by
  funext y
  show V c main_v30 (((cfg1.win 3).blk t).view.emb y) = V c main_v30 y
  refine congrArg (V c main_v30) (funext fun a => Fin.ext ?_)
  obtain ⟨e0a, e0b, e1a, e1b, e2a, e2b, e3a, e3b, e4a, e4b, e5a, e5b, e6a, e6b, e7a, e7b⟩ := idx_facts t
  match a with
  | ⟨0, _⟩ => show win1_3.index t (0 : Fin 2) * 1 + 1 * (y 0).val = (y 0).val; omega
  | ⟨1, _⟩ => show win1_3.index t (1 : Fin 2) * 192 + 1 * (y 1).val = (y 1).val; omega

/-- Input window 4's block at every point is its whole array. -/
theorem blk4 (t : Fin cfg1.N) : (iblk1 V c 4 t : S1x192.Idx → EReal) = (V c main_v25 : Mat 1 192) := by
  funext y
  show V c main_v25 (((cfg1.win 4).blk t).view.emb y) = V c main_v25 y
  refine congrArg (V c main_v25) (funext fun a => Fin.ext ?_)
  obtain ⟨e0a, e0b, e1a, e1b, e2a, e2b, e3a, e3b, e4a, e4b, e5a, e5b, e6a, e6b, e7a, e7b⟩ := idx_facts t
  match a with
  | ⟨0, _⟩ => show win1_4.index t (0 : Fin 2) * 1 + 1 * (y 0).val = (y 0).val; omega
  | ⟨1, _⟩ => show win1_4.index t (1 : Fin 2) * 192 + 1 * (y 1).val = (y 1).val; omega

/-- Output window 5's block at point t, read off any array G of its shape, is rows 2000 t … of G. -/
theorem read5 (t : Fin cfg1.N) (G : Mat 100000 64) :
    ((cfg1.win 5).blk t).view.read (Elt Ideal) G = rowBlock 2000 G (t.val * 2000) (rows_le t) := by
  funext y
  show G (((cfg1.win 5).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b, e6a, e6b, e7a, e7b⟩ := idx_facts t
  match a with
  | ⟨0, _⟩ => show win1_5.index t (0 : Fin 2) * 2000 + 1 * (y 0).val = t.val * 2000 + (y 0).val; omega
  | ⟨1, _⟩ => show win1_5.index t (1 : Fin 2) * 64 + 1 * (y 1).val = (y 1).val; omega

/-- An index of output window 5's array is in point t's block iff each coordinate is in the block's range. -/
theorem mem_blk5 (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v31_0).slice (win1_5.rect t)).set ↔ _
  rw [View.set_slice_whole, Rect.mem_set_unit]
  exact Iff.rfl

/-- Every row of output window 5's array is in the block of the point r / 2000. -/
theorem cover5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  refine ⟨⟨(i 0).val / 2000, by rw [hN]; omega⟩, flush1_5 _, ?_⟩
  rw [mem_blk5]
  obtain ⟨e0a, e0b, e1a, e1b, e2a, e2b, e3a, e3b, e4a, e4b, e5a, e5b, e6a, e6b, e7a, e7b⟩ := idx_facts ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e5a]
    show (i 0).val / 2000 * 2000 ≤ (i 0).val ∧ (i 0).val < (i 0).val / 2000 * 2000 + 2000
    omega
  | ⟨1, _⟩ =>
    show win1_5.index _ (1 : Fin 2) * 64 ≤ (i 1).val ∧ (i 1).val < win1_5.index _ (1 : Fin 2) * 64 + 64
    rw [e5b]
    omega

/-- Output window 6's block at point t, read off any array G of its shape, is rows 2000 t … of G. -/
theorem read6 (t : Fin cfg1.N) (G : Mat 100000 192) :
    ((cfg1.win 6).blk t).view.read (Elt Ideal) G = rowBlock 2000 G (t.val * 2000) (rows_le t) := by
  funext y
  show G (((cfg1.win 6).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b, e6a, e6b, e7a, e7b⟩ := idx_facts t
  match a with
  | ⟨0, _⟩ => show win1_6.index t (0 : Fin 2) * 2000 + 1 * (y 0).val = t.val * 2000 + (y 0).val; omega
  | ⟨1, _⟩ => show win1_6.index t (1 : Fin 2) * 192 + 1 * (y 1).val = (y 1).val; omega

/-- An index of output window 6's array is in point t's block iff each coordinate is in the block's range. -/
theorem mem_blk6 (t : Fin cfg1.N) (i : S100000x192.Idx) :
    i ∈ ((cfg1.win 6).blk t).view.set ↔ ∀ a : Fin 2, win1_6.index t a * S2000x192.size a ≤ (i a).val
      ∧ (i a).val < win1_6.index t a * S2000x192.size a + S2000x192.size a := by
  show i ∈ ((View.whole main_v31_1).slice (win1_6.rect t)).set ↔ _
  rw [View.set_slice_whole, Rect.mem_set_unit]
  exact Iff.rfl

/-- Every row of output window 6's array is in the block of the point r / 2000. -/
theorem cover6 (i : S100000x192.Idx) :
    ∃ t : Fin cfg1.N, (cfg1.win 6).flush t = true ∧ i ∈ ((cfg1.win 6).blk t).view.set := by
  have hi0 : (i 0).val < 100000 := (i 0).isLt
  have hi1 : (i 1).val < 192 := (i 1).isLt
  have hN : cfg1.N = 50 := N_1
  refine ⟨⟨(i 0).val / 2000, by rw [hN]; omega⟩, flush1_6 _, ?_⟩
  rw [mem_blk6]
  obtain ⟨e0a, e0b, e1a, e1b, e2a, e2b, e3a, e3b, e4a, e4b, e5a, e5b, e6a, e6b, e7a, e7b⟩ := idx_facts ⟨(i 0).val / 2000, by rw [hN]; omega⟩
  intro a
  match a with
  | ⟨0, _⟩ =>
    show win1_6.index _ (0 : Fin 2) * 2000 ≤ (i 0).val ∧ (i 0).val < win1_6.index _ (0 : Fin 2) * 2000 + 2000
    rw [e6a]
    show (i 0).val / 2000 * 2000 ≤ (i 0).val ∧ (i 0).val < (i 0).val / 2000 * 2000 + 2000
    omega
  | ⟨1, _⟩ =>
    show win1_6.index _ (1 : Fin 2) * 192 ≤ (i 1).val ∧ (i 1).val < win1_6.index _ (1 : Fin 2) * 192 + 192
    rw [e6b]
    omega

/-- Output window 7's block at point t, read off any array G of its shape, is rows 2000 t … of G. -/
theorem read7 (t : Fin cfg1.N) (G : Mat 100000 64) :
    ((cfg1.win 7).blk t).view.read (Elt Ideal) G = rowBlock 2000 G (t.val * 2000) (rows_le t) := by
  funext y
  show G (((cfg1.win 7).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b, e6a, e6b, e7a, e7b⟩ := idx_facts t
  match a with
  | ⟨0, _⟩ => show win1_7.index t (0 : Fin 2) * 2000 + 1 * (y 0).val = t.val * 2000 + (y 0).val; omega
  | ⟨1, _⟩ => show win1_7.index t (1 : Fin 2) * 64 + 1 * (y 1).val = (y 1).val; omega

/-- An index of output window 7's array is in point t's block iff each coordinate is in the block's range. -/
theorem mem_blk7 (t : Fin cfg1.N) (i : S100000x64.Idx) :
    i ∈ ((cfg1.win 7).blk t).view.set ↔ ∀ a : Fin 2, win1_7.index t a * S2000x64.size a ≤ (i a).val
      ∧ (i a).val < win1_7.index t a * S2000x64.size a + S2000x64.size a := by
  show i ∈ ((View.whole main_v31_2).slice (win1_7.rect t)).set ↔ _
  rw [View.set_slice_whole, Rect.mem_set_unit]
  exact Iff.rfl

/-- Every row of output window 7's array is in the block of the point r / 2000. -/
theorem cover7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 50 := N_1
  refine ⟨⟨(i 0).val / 2000, by rw [hN]; omega⟩, flush1_7 _, ?_⟩
  rw [mem_blk7]
  obtain ⟨e0a, e0b, e1a, e1b, e2a, e2b, e3a, e3b, e4a, e4b, e5a, e5b, e6a, e6b, e7a, e7b⟩ := idx_facts ⟨(i 0).val / 2000, by rw [hN]; omega⟩
  intro a
  match a with
  | ⟨0, _⟩ =>
    show win1_7.index _ (0 : Fin 2) * 2000 ≤ (i 0).val ∧ (i 0).val < win1_7.index _ (0 : Fin 2) * 2000 + 2000
    rw [e7a]
    show (i 0).val / 2000 * 2000 ≤ (i 0).val ∧ (i 0).val < (i 0).val / 2000 * 2000 + 2000
    omega
  | ⟨1, _⟩ =>
    show win1_7.index _ (1 : Fin 2) * 64 ≤ (i 1).val ∧ (i 1).val < win1_7.index _ (1 : Fin 2) * 64 + 64
    rw [e7b]
    omega

/-! ## The body on a block -/

theorem pay1_eq (v0 : Vec Ideal S2000x64 .f32) : k1_pay1 v0 = v0 := by
  unfold k1_pay1
  simp only [shapeCast_self]

theorem pay2_eq (v4 : Vec Ideal S2000x1 .f32) : k1_pay2 v4 = v4 := by
  unfold k1_pay2
  simp only [shapeCast_self]

/-- The stored features: one update of the recurrence on the loaded blocks. -/
theorem pay3_eq (v0 v2 : Vec Ideal S2000x64 .f32) (v4 : Vec Ideal S2000x1 .f32) : k1_pay3 v0 v2 v4 = step v0 v2 v4 := by
  unfold k1_pay3
  rw [pay1_eq, pay2_eq]
  simp only [shapeCast_self]
  exact Spell.step_spelt v0 v2 v4 broadcasts_S2000x1_S2000x64

/-- The stored polynomials: their first two terms. -/
theorem pay4_eq (v0 v2 : Vec Ideal S2000x64 .f32) (v4 : Vec Ideal S2000x1 .f32) (v11 v15 : Vec Ideal S1x192 .f32) :
    k1_pay4 v0 v2 v4 v11 v15 = first2 v11 v15 v0 (step v0 v2 v4) := by
  unfold k1_pay4
  rw [pay3_eq, pay1_eq]
  simp only [shapeCast_self]
  exact Spell.first2_spelt v11 v15 v0 (step v0 v2 v4) broadcasts_S1x192_S2000x192
    concatenates_S2000x64_S2000x64_S2000x64_S2000x192_d1

/-- The stored message: the new features scaled by d. -/
theorem pay5_eq (v0 v2 : Vec Ideal S2000x64 .f32) (v4 : Vec Ideal S2000x1 .f32) :
    k1_pay5 v0 v2 v4 = scaleRows (step v0 v2 v4) v4 := by
  unfold k1_pay5
  rw [pay3_eq, pay2_eq]
  exact Spell.scale_spelt (step v0 v2 v4) v4 broadcasts_S2000x1_S2000x64

/-! ## The output arrays -/

/-- The next features over all rows. -/
def feats : Mat 100000 64 := step (V c main_v10_0) (V c main_v20) (V c main_v7)
/-- The first two terms of the three polynomials. -/
def polys : Mat 100000 192 := first2 (V c main_v30) (V c main_v25) (V c main_v10_0) (feats V c)
/-- The next message. -/
def msgs : Mat 100000 64 := scaleRows (feats V c) (V c main_v7)

theorem flushed5 (t : Fin cfg1.N) :
    (dat1 V c).flushed 5 t = ((cfg1.win 5).blk t).view.read (Elt Ideal) (feats V c) := by
  show (cfg1.win 5).cut (grid1.coords t) ((dat1 V c).after 5 t) = _
  rw [after1_5]
  unfold out1_5
  rw [View.canon_unit_zero hz]
  simp only [View.ld_unit_zero (S := S2000x64) hz, View.ld_unit_zero (S := S2000x1) hz]
  rw [pay3_eq, read5 t]
  show step (iblk1 V c 0 t) (iblk1 V c 1 t) (iblk1 V c 2 t) = _
  rw [blk0 V c t, blk1 V c t, blk2 V c t]
  unfold feats
  rw [step_rowBlock]

theorem flushed6 (t : Fin cfg1.N) :
    (dat1 V c).flushed 6 t = ((cfg1.win 6).blk t).view.read (Elt Ideal) (polys V c) := by
  show (cfg1.win 6).cut (grid1.coords t) ((dat1 V c).after 6 t) = _
  rw [after1_6]
  unfold out1_6
  rw [View.canon_unit_zero hz]
  simp only [View.ld_unit_zero (S := S2000x64) hz, View.ld_unit_zero (S := S2000x1) hz, View.ld_unit_zero (S := S1x192) hz]
  rw [pay4_eq, read6 t]
  show first2 (iblk1 V c 3 t) (iblk1 V c 4 t) (iblk1 V c 0 t) (step (iblk1 V c 0 t) (iblk1 V c 1 t) (iblk1 V c 2 t)) = _
  rw [blk0 V c t, blk1 V c t, blk2 V c t, blk3 V c t, blk4 V c t]
  unfold polys feats
  rw [step_rowBlock, first2_rowBlock]

theorem flushed7 (t : Fin cfg1.N) :
    (dat1 V c).flushed 7 t = ((cfg1.win 7).blk t).view.read (Elt Ideal) (msgs V c) := by
  show (cfg1.win 7).cut (grid1.coords t) ((dat1 V c).after 7 t) = _
  rw [after1_7]
  unfold out1_7
  rw [View.canon_unit_zero hz]
  simp only [View.ld_unit_zero (S := S2000x64) hz, View.ld_unit_zero (S := S2000x1) hz]
  rw [pay5_eq, read7 t]
  show scaleRows (step (iblk1 V c 0 t) (iblk1 V c 1 t) (iblk1 V c 2 t)) (iblk1 V c 2 t) = _
  rw [blk0 V c t, blk1 V c t, blk2 V c t]
  unfold msgs feats
  rw [step_rowBlock, scaleRows_rowBlock]

theorem final5 : (dat1 V c).arrAt 5 cfg1.N = feats V c :=
  (dat1 V c).arrAt_eq_of_cover 5 (feats V c) (fun t _ => flushed5 V c t) cover5
theorem final6 : (dat1 V c).arrAt 6 cfg1.N = polys V c :=
  (dat1 V c).arrAt_eq_of_cover 6 (polys V c) (fun t _ => flushed6 V c t) cover6
theorem final7 : (dat1 V c).arrAt 7 cfg1.N = msgs V c :=
  (dat1 V c).arrAt_eq_of_cover 7 (msgs V c) (fun t _ => flushed7 V c t) cover7

end Cert.PolyConv.Region1

end
-- ==== Proof.Region2.lean ====
/-
  A MIDDLE UPDATE OF THE RECURRENCE, as functions of the arrays it is entered with.
  The kernel runs over 50 blocks of 2000 rows. On a block it forms the next features f - g * d, stores them, adds their
  three copies times the coefficient row to the accumulated polynomials, and stores the next message (the new features
  scaled by d). Every step works row by row, so each output's 50 written blocks are the rows of ONE matrix of the whole
  arrays. V is the buffers' contents when the region is entered.
-/
import proofs.«148983_j56255481643509_2_alg».proof.Proof.Gen.KernelIdeal.Frame
import Idealize.ShloMosaic.Lib.Pipeline.Value
import proofs.«148983_j56255481643509_2_alg».proof.Proof.Spec
import proofs.«148983_j56255481643509_2_alg».proof.Proof.RowBlocks
import proofs.«148983_j56255481643509_2_alg».proof.Proof.KernelSpellings

set_option maxRecDepth 16384

noncomputable section

namespace Cert.PolyConv.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PolyConv Cert.LibDenseLayers Cert.LibRowBias

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The grid has 50 points, and block t of 2000 rows ends inside the 100000 rows. -/
theorem rows_le (t : Fin cfg2.N) : t.val * 2000 + 2000 ≤ 100000 := by
  have h := t.isLt
  have hN : cfg2.N = 50 := N_2
  omega

/-- The printed index maps, decided over the 50 grid points: a row-blocked window's block index at point t is (t, 0), a
    small operand's is (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-! ## Each window's block at a point, as rows of its array -/

/-- Input window 0's block at point t is rows 2000 t … 2000 t + 1999 of its array. -/
theorem blk0 (t : Fin cfg2.N) :
    (iblk2 V c 0 t : S2000x64.Idx → EReal) = rowBlock 2000 (V c main_v31_0 : Mat 100000 64) (t.val * 2000) (rows_le t) := by
  funext y
  show V c main_v31_0 (((cfg2.win 0).blk t).view.emb y)
    = V c main_v31_0 (ix2 (⟨t.val * 2000 + (y 0).val, by have h0 : (y 0).val < 2000 := (y 0).isLt; have := rows_le t; omega⟩ : Fin 100000) (y 1))
  refine congrArg (V c main_v31_0) (funext fun a => Fin.ext ?_)
  obtain ⟨e0a, e0b, e1a, e1b, e2a, e2b, e3a, e3b, e4a, e4b, e5a, e5b, e6a, e6b, e7a, e7b⟩ := idx_facts t
  match a with
  | ⟨0, _⟩ => show win2_0.index t (0 : Fin 2) * 2000 + 1 * (y 0).val = t.val * 2000 + (y 0).val; omega
  | ⟨1, _⟩ => show win2_0.index t (1 : Fin 2) * 64 + 1 * (y 1).val = (y 1).val; omega

/-- Input window 1's block at point t is rows 2000 t … 2000 t + 1999 of its array. -/
theorem blk1 (t : Fin cfg2.N) :
    (iblk2 V c 1 t : S2000x64.Idx → EReal) = rowBlock 2000 (V c main_v41 : Mat 100000 64) (t.val * 2000) (rows_le t) := by
  funext y
  show V c main_v41 (((cfg2.win 1).blk t).view.emb y)
    = V c main_v41 (ix2 (⟨t.val * 2000 + (y 0).val, by have h0 : (y 0).val < 2000 := (y 0).isLt; have := rows_le t; omega⟩ : Fin 100000) (y 1))
  refine congrArg (V c main_v41) (funext fun a => Fin.ext ?_)
  obtain ⟨e0a, e0b, e1a, e1b, e2a, e2b, e3a, e3b, e4a, e4b, e5a, e5b, e6a, e6b, e7a, e7b⟩ := idx_facts t
  match a with
  | ⟨0, _⟩ => show win2_1.index t (0 : Fin 2) * 2000 + 1 * (y 0).val = t.val * 2000 + (y 0).val; omega
  | ⟨1, _⟩ => show win2_1.index t (1 : Fin 2) * 64 + 1 * (y 1).val = (y 1).val; omega

/-- Input window 2's block at point t is rows 2000 t … 2000 t + 1999 of its array. -/
theorem blk2 (t : Fin cfg2.N) :
    (iblk2 V c 2 t : S2000x1.Idx → EReal) = rowBlock 2000 (V c main_v7 : Mat 100000 1) (t.val * 2000) (rows_le t) := by
  funext y
  show V c main_v7 (((cfg2.win 2).blk t).view.emb y)
    = V c main_v7 (ix2 (⟨t.val * 2000 + (y 0).val, by have h0 : (y 0).val < 2000 := (y 0).isLt; have := rows_le t; omega⟩ : Fin 100000) (y 1))
  refine congrArg (V c main_v7) (funext fun a => Fin.ext ?_)
  obtain ⟨e0a, e0b, e1a, e1b, e2a, e2b, e3a, e3b, e4a, e4b, e5a, e5b, e6a, e6b, e7a, e7b⟩ := idx_facts t
  match a with
  | ⟨0, _⟩ => show win2_2.index t (0 : Fin 2) * 2000 + 1 * (y 0).val = t.val * 2000 + (y 0).val; omega
  | ⟨1, _⟩ => show win2_2.index t (1 : Fin 2) * 1 + 1 * (y 1).val = (y 1).val; omega

/-- Input window 3's block at point t is rows 2000 t … 2000 t + 1999 of its array. -/
theorem blk3 (t : Fin cfg2.N) :
    (iblk2 V c 3 t : S2000x192.Idx → EReal) = rowBlock 2000 (V c main_v31_1 : Mat 100000 192) (t.val * 2000) (rows_le t) := by
  funext y
  show V c main_v31_1 (((cfg2.win 3).blk t).view.emb y)
    = V c main_v31_1 (ix2 (⟨t.val * 2000 + (y 0).val, by have h0 : (y 0).val < 2000 := (y 0).isLt; have := rows_le t; omega⟩ : Fin 100000) (y 1))
  refine congrArg (V c main_v31_1) (funext fun a => Fin.ext ?_)
  obtain ⟨e0a, e0b, e1a, e1b, e2a, e2b, e3a, e3b, e4a, e4b, e5a, e5b, e6a, e6b, e7a, e7b⟩ := idx_facts t
  match a with
  | ⟨0, _⟩ => show win2_3.index t (0 : Fin 2) * 2000 + 1 * (y 0).val = t.val * 2000 + (y 0).val; omega
  | ⟨1, _⟩ => show win2_3.index t (1 : Fin 2) * 192 + 1 * (y 1).val = (y 1).val; omega

/-- Input window 4's block at every point is its whole array. -/
theorem blk4 (t : Fin cfg2.N) : (iblk2 V c 4 t : S1x192.Idx → EReal) = (V c main_v46 : Mat 1 192) := by
  funext y
  show V c main_v46 (((cfg2.win 4).blk t).view.emb y) = V c main_v46 y
  refine congrArg (V c main_v46) (funext fun a => Fin.ext ?_)
  obtain ⟨e0a, e0b, e1a, e1b, e2a, e2b, e3a, e3b, e4a, e4b, e5a, e5b, e6a, e6b, e7a, e7b⟩ := idx_facts t
  match a with
  | ⟨0, _⟩ => show win2_4.index t (0 : Fin 2) * 1 + 1 * (y 0).val = (y 0).val; omega
  | ⟨1, _⟩ => show win2_4.index t (1 : Fin 2) * 192 + 1 * (y 1).val = (y 1).val; omega

/-- Output window 5's block at point t, read off any array G of its shape, is rows 2000 t … of G. -/
theorem read5 (t : Fin cfg2.N) (G : Mat 100000 64) :
    ((cfg2.win 5).blk t).view.read (Elt Ideal) G = rowBlock 2000 G (t.val * 2000) (rows_le t) := by
  funext y
  show G (((cfg2.win 5).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b, e6a, e6b, e7a, e7b⟩ := idx_facts t
  match a with
  | ⟨0, _⟩ => show win2_5.index t (0 : Fin 2) * 2000 + 1 * (y 0).val = t.val * 2000 + (y 0).val; omega
  | ⟨1, _⟩ => show win2_5.index t (1 : Fin 2) * 64 + 1 * (y 1).val = (y 1).val; omega

/-- An index of output window 5's array is in point t's block iff each coordinate is in the block's range. -/
theorem mem_blk5 (t : Fin cfg2.N) (i : S100000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v47_0).slice (win2_5.rect t)).set ↔ _
  rw [View.set_slice_whole, Rect.mem_set_unit]
  exact Iff.rfl

/-- Every row of output window 5's array is in the block of the point r / 2000. -/
theorem cover5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_5 _, ?_⟩
  rw [mem_blk5]
  obtain ⟨e0a, e0b, e1a, e1b, e2a, e2b, e3a, e3b, e4a, e4b, e5a, e5b, e6a, e6b, e7a, e7b⟩ := idx_facts ⟨(i 0).val / 2000, by rw [hN]; omega⟩
  intro a
  match a with
  | ⟨0, _⟩ =>
    show win2_5.index _ (0 : Fin 2) * 2000 ≤ (i 0).val ∧ (i 0).val < win2_5.index _ (0 : Fin 2) * 2000 + 2000
    rw [e5a]
    show (i 0).val / 2000 * 2000 ≤ (i 0).val ∧ (i 0).val < (i 0).val / 2000 * 2000 + 2000
    omega
  | ⟨1, _⟩ =>
    show win2_5.index _ (1 : Fin 2) * 64 ≤ (i 1).val ∧ (i 1).val < win2_5.index _ (1 : Fin 2) * 64 + 64
    rw [e5b]
    omega

/-- Output window 6's block at point t, read off any array G of its shape, is rows 2000 t … of G. -/
theorem read6 (t : Fin cfg2.N) (G : Mat 100000 192) :
    ((cfg2.win 6).blk t).view.read (Elt Ideal) G = rowBlock 2000 G (t.val * 2000) (rows_le t) := by
  funext y
  show G (((cfg2.win 6).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b, e6a, e6b, e7a, e7b⟩ := idx_facts t
  match a with
  | ⟨0, _⟩ => show win2_6.index t (0 : Fin 2) * 2000 + 1 * (y 0).val = t.val * 2000 + (y 0).val; omega
  | ⟨1, _⟩ => show win2_6.index t (1 : Fin 2) * 192 + 1 * (y 1).val = (y 1).val; omega

/-- An index of output window 6's array is in point t's block iff each coordinate is in the block's range. -/
theorem mem_blk6 (t : Fin cfg2.N) (i : S100000x192.Idx) :
    i ∈ ((cfg2.win 6).blk t).view.set ↔ ∀ a : Fin 2, win2_6.index t a * S2000x192.size a ≤ (i a).val
      ∧ (i a).val < win2_6.index t a * S2000x192.size a + S2000x192.size a := by
  show i ∈ ((View.whole main_v47_1).slice (win2_6.rect t)).set ↔ _
  rw [View.set_slice_whole, Rect.mem_set_unit]
  exact Iff.rfl

/-- Every row of output window 6's array is in the block of the point r / 2000. -/
theorem cover6 (i : S100000x192.Idx) :
    ∃ t : Fin cfg2.N, (cfg2.win 6).flush t = true ∧ i ∈ ((cfg2.win 6).blk t).view.set := by
  have hi0 : (i 0).val < 100000 := (i 0).isLt
  have hi1 : (i 1).val < 192 := (i 1).isLt
  have hN : cfg2.N = 50 := N_2
  refine ⟨⟨(i 0).val / 2000, by rw [hN]; omega⟩, flush2_6 _, ?_⟩
  rw [mem_blk6]
  obtain ⟨e0a, e0b, e1a, e1b, e2a, e2b, e3a, e3b, e4a, e4b, e5a, e5b, e6a, e6b, e7a, e7b⟩ := idx_facts ⟨(i 0).val / 2000, by rw [hN]; omega⟩
  intro a
  match a with
  | ⟨0, _⟩ =>
    show win2_6.index _ (0 : Fin 2) * 2000 ≤ (i 0).val ∧ (i 0).val < win2_6.index _ (0 : Fin 2) * 2000 + 2000
    rw [e6a]
    show (i 0).val / 2000 * 2000 ≤ (i 0).val ∧ (i 0).val < (i 0).val / 2000 * 2000 + 2000
    omega
  | ⟨1, _⟩ =>
    show win2_6.index _ (1 : Fin 2) * 192 ≤ (i 1).val ∧ (i 1).val < win2_6.index _ (1 : Fin 2) * 192 + 192
    rw [e6b]
    omega

/-- Output window 7's block at point t, read off any array G of its shape, is rows 2000 t … of G. -/
theorem read7 (t : Fin cfg2.N) (G : Mat 100000 64) :
    ((cfg2.win 7).blk t).view.read (Elt Ideal) G = rowBlock 2000 G (t.val * 2000) (rows_le t) := by
  funext y
  show G (((cfg2.win 7).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b, e6a, e6b, e7a, e7b⟩ := idx_facts t
  match a with
  | ⟨0, _⟩ => show win2_7.index t (0 : Fin 2) * 2000 + 1 * (y 0).val = t.val * 2000 + (y 0).val; omega
  | ⟨1, _⟩ => show win2_7.index t (1 : Fin 2) * 64 + 1 * (y 1).val = (y 1).val; omega

/-- An index of output window 7's array is in point t's block iff each coordinate is in the block's range. -/
theorem mem_blk7 (t : Fin cfg2.N) (i : S100000x64.Idx) :
    i ∈ ((cfg2.win 7).blk t).view.set ↔ ∀ a : Fin 2, win2_7.index t a * S2000x64.size a ≤ (i a).val
      ∧ (i a).val < win2_7.index t a * S2000x64.size a + S2000x64.size a := by
  show i ∈ ((View.whole main_v47_2).slice (win2_7.rect t)).set ↔ _
  rw [View.set_slice_whole, Rect.mem_set_unit]
  exact Iff.rfl

/-- Every row of output window 7's array is in the block of the point r / 2000. -/
theorem cover7 (i : S100000x64.Idx) :
    ∃ t : Fin cfg2.N, (cfg2.win 7).flush t = true ∧ i ∈ ((cfg2.win 7).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_7 _, ?_⟩
  rw [mem_blk7]
  obtain ⟨e0a, e0b, e1a, e1b, e2a, e2b, e3a, e3b, e4a, e4b, e5a, e5b, e6a, e6b, e7a, e7b⟩ := idx_facts ⟨(i 0).val / 2000, by rw [hN]; omega⟩
  intro a
  match a with
  | ⟨0, _⟩ =>
    show win2_7.index _ (0 : Fin 2) * 2000 ≤ (i 0).val ∧ (i 0).val < win2_7.index _ (0 : Fin 2) * 2000 + 2000
    rw [e7a]
    show (i 0).val / 2000 * 2000 ≤ (i 0).val ∧ (i 0).val < (i 0).val / 2000 * 2000 + 2000
    omega
  | ⟨1, _⟩ =>
    show win2_7.index _ (1 : Fin 2) * 64 ≤ (i 1).val ∧ (i 1).val < win2_7.index _ (1 : Fin 2) * 64 + 64
    rw [e7b]
    omega

/-! ## The body on a block -/

theorem pay1_eq (v4 : Vec Ideal S2000x1 .f32) : k2_pay1 v4 = v4 := by
  unfold k2_pay1
  simp only [shapeCast_self]

/-- The stored features: one update of the recurrence on the loaded blocks. -/
theorem pay2_eq (v0 v2 : Vec Ideal S2000x64 .f32) (v4 : Vec Ideal S2000x1 .f32) : k2_pay2 v0 v2 v4 = step v0 v2 v4 := by
  unfold k2_pay2
  rw [pay1_eq]
  simp only [shapeCast_self]
  exact Spell.step_spelt v0 v2 v4 broadcasts_S2000x1_S2000x64

/-- The stored polynomials: one more term. -/
theorem pay3_eq (v0 v2 : Vec Ideal S2000x64 .f32) (v4 : Vec Ideal S2000x1 .f32) (v10 : Vec Ideal S2000x192 .f32)
    (v12 : Vec Ideal S1x192 .f32) : k2_pay3 v0 v2 v4 v10 v12 = nextTerm v10 v12 (step v0 v2 v4) := by
  unfold k2_pay3
  rw [pay2_eq]
  simp only [shapeCast_self]
  exact Spell.nextTerm_spelt v10 v12 (step v0 v2 v4) broadcasts_S1x192_S2000x192
    concatenates_S2000x64_S2000x64_S2000x64_S2000x192_d1

/-- The stored message: the new features scaled by d. -/
theorem pay4_eq (v0 v2 : Vec Ideal S2000x64 .f32) (v4 : Vec Ideal S2000x1 .f32) :
    k2_pay4 v0 v2 v4 = scaleRows (step v0 v2 v4) v4 := by
  unfold k2_pay4
  rw [pay2_eq, pay1_eq]
  exact Spell.scale_spelt (step v0 v2 v4) v4 broadcasts_S2000x1_S2000x64

/-! ## The output arrays -/

/-- The next features over all rows. -/
def feats : Mat 100000 64 := step (V c main_v31_0) (V c main_v41) (V c main_v7)
/-- The accumulated polynomials with one more term. -/
def polys : Mat 100000 192 := nextTerm (V c main_v31_1) (V c main_v46) (feats V c)
/-- The next message. -/
def msgs : Mat 100000 64 := scaleRows (feats V c) (V c main_v7)

theorem flushed5 (t : Fin cfg2.N) :
    (dat2 V c).flushed 5 t = ((cfg2.win 5).blk t).view.read (Elt Ideal) (feats V c) := by
  show (cfg2.win 5).cut (grid2.coords t) ((dat2 V c).after 5 t) = _
  rw [after2_5]
  unfold out2_5
  rw [View.canon_unit_zero hz]
  simp only [View.ld_unit_zero (S := S2000x64) hz, View.ld_unit_zero (S := S2000x1) hz]
  rw [pay2_eq, read5 t]
  show step (iblk2 V c 0 t) (iblk2 V c 1 t) (iblk2 V c 2 t) = _
  rw [blk0 V c t, blk1 V c t, blk2 V c t]
  unfold feats
  rw [step_rowBlock]

theorem flushed6 (t : Fin cfg2.N) :
    (dat2 V c).flushed 6 t = ((cfg2.win 6).blk t).view.read (Elt Ideal) (polys V c) := by
  show (cfg2.win 6).cut (grid2.coords t) ((dat2 V c).after 6 t) = _
  rw [after2_6]
  unfold out2_6
  rw [View.canon_unit_zero hz]
  simp only [View.ld_unit_zero (S := S2000x64) hz, View.ld_unit_zero (S := S2000x1) hz, View.ld_unit_zero (S := S2000x192) hz, View.ld_unit_zero (S := S1x192) hz]
  rw [pay3_eq, read6 t]
  show nextTerm (iblk2 V c 3 t) (iblk2 V c 4 t) (step (iblk2 V c 0 t) (iblk2 V c 1 t) (iblk2 V c 2 t)) = _
  rw [blk0 V c t, blk1 V c t, blk2 V c t, blk3 V c t, blk4 V c t]
  unfold polys feats
  rw [step_rowBlock, nextTerm_rowBlock]

theorem flushed7 (t : Fin cfg2.N) :
    (dat2 V c).flushed 7 t = ((cfg2.win 7).blk t).view.read (Elt Ideal) (msgs V c) := by
  show (cfg2.win 7).cut (grid2.coords t) ((dat2 V c).after 7 t) = _
  rw [after2_7]
  unfold out2_7
  rw [View.canon_unit_zero hz]
  simp only [View.ld_unit_zero (S := S2000x64) hz, View.ld_unit_zero (S := S2000x1) hz]
  rw [pay4_eq, read7 t]
  show scaleRows (step (iblk2 V c 0 t) (iblk2 V c 1 t) (iblk2 V c 2 t)) (iblk2 V c 2 t) = _
  rw [blk0 V c t, blk1 V c t, blk2 V c t]
  unfold msgs feats
  rw [step_rowBlock, scaleRows_rowBlock]

theorem final5 : (dat2 V c).arrAt 5 cfg2.N = feats V c :=
  (dat2 V c).arrAt_eq_of_cover 5 (feats V c) (fun t _ => flushed5 V c t) cover5
theorem final6 : (dat2 V c).arrAt 6 cfg2.N = polys V c :=
  (dat2 V c).arrAt_eq_of_cover 6 (polys V c) (fun t _ => flushed6 V c t) cover6
theorem final7 : (dat2 V c).arrAt 7 cfg2.N = msgs V c :=
  (dat2 V c).arrAt_eq_of_cover 7 (msgs V c) (fun t _ => flushed7 V c t) cover7

end Cert.PolyConv.Region2

end
-- ==== Proof.Region3.lean ====
/-
  THE LAST UPDATE OF THE RECURRENCE, as one function of the arrays it is entered with.
  The kernel runs over 50 blocks of 2000 rows. On a block it forms f - g * d (the next features), lays three copies of
  them side by side, multiplies by the row of coefficients and adds the product to the accumulated polynomials. Every
  step works row by row, so the 50 written blocks are the rows of ONE matrix: nextTerm acc t (step f g d) of the whole
  arrays f, g, d, acc and the coefficient row t. V is the buffers' contents when the region is entered.
-/
import proofs.«148983_j56255481643509_2_alg».proof.Proof.Gen.KernelIdeal.Frame
import Idealize.ShloMosaic.Lib.Pipeline.Value
import proofs.«148983_j56255481643509_2_alg».proof.Proof.Spec
import proofs.«148983_j56255481643509_2_alg».proof.Proof.RowBlocks
import proofs.«148983_j56255481643509_2_alg».proof.Proof.KernelSpellings

set_option maxRecDepth 16384

noncomputable section

namespace Cert.PolyConv.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PolyConv Cert.LibDenseLayers Cert.LibRowBias

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The grid has 50 points, and block t of 2000 rows ends inside the 100000 rows. -/
theorem rows_le (t : Fin cfg3.N) : t.val * 2000 + 2000 ≤ 100000 := by
  have h := t.isLt
  have hN : cfg3.N = 50 := N_3
  omega

/-- The printed index maps, decided over the 50 grid points: a row-blocked window's block index at point t is (t, 0), a
    small operand's is (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ## Each window's block at a point, as rows of its array -/

/-- Input window 0's block at point t is rows 2000 t … 2000 t + 1999 of its array. -/
theorem blk0 (t : Fin cfg3.N) :
    (iblk3 V c 0 t : S2000x64.Idx → EReal) = rowBlock 2000 (V c main_v47_0 : Mat 100000 64) (t.val * 2000) (rows_le t) := by
  funext y
  show V c main_v47_0 (((cfg3.win 0).blk t).view.emb y)
    = V c main_v47_0 (ix2 (⟨t.val * 2000 + (y 0).val, by have h0 : (y 0).val < 2000 := (y 0).isLt; have := rows_le t; omega⟩ : Fin 100000) (y 1))
  refine congrArg (V c main_v47_0) (funext fun a => Fin.ext ?_)
  obtain ⟨e0a, e0b, e1a, e1b, e2a, e2b, e3a, e3b, e4a, e4b, e5a, e5b⟩ := idx_facts t
  match a with
  | ⟨0, _⟩ => show win3_0.index t (0 : Fin 2) * 2000 + 1 * (y 0).val = t.val * 2000 + (y 0).val; omega
  | ⟨1, _⟩ => show win3_0.index t (1 : Fin 2) * 64 + 1 * (y 1).val = (y 1).val; omega

/-- Input window 1's block at point t is rows 2000 t … 2000 t + 1999 of its array. -/
theorem blk1 (t : Fin cfg3.N) :
    (iblk3 V c 1 t : S2000x64.Idx → EReal) = rowBlock 2000 (V c main_v57 : Mat 100000 64) (t.val * 2000) (rows_le t) := by
  funext y
  show V c main_v57 (((cfg3.win 1).blk t).view.emb y)
    = V c main_v57 (ix2 (⟨t.val * 2000 + (y 0).val, by have h0 : (y 0).val < 2000 := (y 0).isLt; have := rows_le t; omega⟩ : Fin 100000) (y 1))
  refine congrArg (V c main_v57) (funext fun a => Fin.ext ?_)
  obtain ⟨e0a, e0b, e1a, e1b, e2a, e2b, e3a, e3b, e4a, e4b, e5a, e5b⟩ := idx_facts t
  match a with
  | ⟨0, _⟩ => show win3_1.index t (0 : Fin 2) * 2000 + 1 * (y 0).val = t.val * 2000 + (y 0).val; omega
  | ⟨1, _⟩ => show win3_1.index t (1 : Fin 2) * 64 + 1 * (y 1).val = (y 1).val; omega

/-- Input window 2's block at point t is rows 2000 t … 2000 t + 1999 of its array. -/
theorem blk2 (t : Fin cfg3.N) :
    (iblk3 V c 2 t : S2000x1.Idx → EReal) = rowBlock 2000 (V c main_v7 : Mat 100000 1) (t.val * 2000) (rows_le t) := by
  funext y
  show V c main_v7 (((cfg3.win 2).blk t).view.emb y)
    = V c main_v7 (ix2 (⟨t.val * 2000 + (y 0).val, by have h0 : (y 0).val < 2000 := (y 0).isLt; have := rows_le t; omega⟩ : Fin 100000) (y 1))
  refine congrArg (V c main_v7) (funext fun a => Fin.ext ?_)
  obtain ⟨e0a, e0b, e1a, e1b, e2a, e2b, e3a, e3b, e4a, e4b, e5a, e5b⟩ := idx_facts t
  match a with
  | ⟨0, _⟩ => show win3_2.index t (0 : Fin 2) * 2000 + 1 * (y 0).val = t.val * 2000 + (y 0).val; omega
  | ⟨1, _⟩ => show win3_2.index t (1 : Fin 2) * 1 + 1 * (y 1).val = (y 1).val; omega

/-- Input window 3's block at point t is rows 2000 t … 2000 t + 1999 of its array. -/
theorem blk3 (t : Fin cfg3.N) :
    (iblk3 V c 3 t : S2000x192.Idx → EReal) = rowBlock 2000 (V c main_v47_1 : Mat 100000 192) (t.val * 2000) (rows_le t) := by
  funext y
  show V c main_v47_1 (((cfg3.win 3).blk t).view.emb y)
    = V c main_v47_1 (ix2 (⟨t.val * 2000 + (y 0).val, by have h0 : (y 0).val < 2000 := (y 0).isLt; have := rows_le t; omega⟩ : Fin 100000) (y 1))
  refine congrArg (V c main_v47_1) (funext fun a => Fin.ext ?_)
  obtain ⟨e0a, e0b, e1a, e1b, e2a, e2b, e3a, e3b, e4a, e4b, e5a, e5b⟩ := idx_facts t
  match a with
  | ⟨0, _⟩ => show win3_3.index t (0 : Fin 2) * 2000 + 1 * (y 0).val = t.val * 2000 + (y 0).val; omega
  | ⟨1, _⟩ => show win3_3.index t (1 : Fin 2) * 192 + 1 * (y 1).val = (y 1).val; omega

/-- Input window 4's block at every point is its whole array. -/
theorem blk4 (t : Fin cfg3.N) : (iblk3 V c 4 t : S1x192.Idx → EReal) = (V c main_v62 : Mat 1 192) := by
  funext y
  show V c main_v62 (((cfg3.win 4).blk t).view.emb y) = V c main_v62 y
  refine congrArg (V c main_v62) (funext fun a => Fin.ext ?_)
  obtain ⟨e0a, e0b, e1a, e1b, e2a, e2b, e3a, e3b, e4a, e4b, e5a, e5b⟩ := idx_facts t
  match a with
  | ⟨0, _⟩ => show win3_4.index t (0 : Fin 2) * 1 + 1 * (y 0).val = (y 0).val; omega
  | ⟨1, _⟩ => show win3_4.index t (1 : Fin 2) * 192 + 1 * (y 1).val = (y 1).val; omega

/-- Output window 5's block at point t, read off any array G of its shape, is rows 2000 t … of G. -/
theorem read5 (t : Fin cfg3.N) (G : Mat 100000 192) :
    ((cfg3.win 5).blk t).view.read (Elt Ideal) G = rowBlock 2000 G (t.val * 2000) (rows_le t) := by
  funext y
  show G (((cfg3.win 5).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b⟩ := idx_facts t
  match a with
  | ⟨0, _⟩ => show win3_5.index t (0 : Fin 2) * 2000 + 1 * (y 0).val = t.val * 2000 + (y 0).val; omega
  | ⟨1, _⟩ => show win3_5.index t (1 : Fin 2) * 192 + 1 * (y 1).val = (y 1).val; omega

/-- An index of output window 5's array is in point t's block iff each coordinate is in the block's range. -/
theorem mem_blk5 (t : Fin cfg3.N) (i : S100000x192.Idx) :
    i ∈ ((cfg3.win 5).blk t).view.set ↔ ∀ a : Fin 2, win3_5.index t a * S2000x192.size a ≤ (i a).val
      ∧ (i a).val < win3_5.index t a * S2000x192.size a + S2000x192.size a := by
  show i ∈ ((View.whole main_v63).slice (win3_5.rect t)).set ↔ _
  rw [View.set_slice_whole, Rect.mem_set_unit]
  exact Iff.rfl

/-- Every row of output window 5's array is in the block of the point r / 2000. -/
theorem cover5 (i : S100000x192.Idx) :
    ∃ t : Fin cfg3.N, (cfg3.win 5).flush t = true ∧ i ∈ ((cfg3.win 5).blk t).view.set := by
  have hi0 : (i 0).val < 100000 := (i 0).isLt
  have hi1 : (i 1).val < 192 := (i 1).isLt
  have hN : cfg3.N = 50 := N_3
  refine ⟨⟨(i 0).val / 2000, by rw [hN]; omega⟩, flush3_5 _, ?_⟩
  rw [mem_blk5]
  obtain ⟨e0a, e0b, e1a, e1b, e2a, e2b, e3a, e3b, e4a, e4b, e5a, e5b⟩ := idx_facts ⟨(i 0).val / 2000, by rw [hN]; omega⟩
  intro a
  match a with
  | ⟨0, _⟩ =>
    show win3_5.index _ (0 : Fin 2) * 2000 ≤ (i 0).val ∧ (i 0).val < win3_5.index _ (0 : Fin 2) * 2000 + 2000
    rw [e5a]
    show (i 0).val / 2000 * 2000 ≤ (i 0).val ∧ (i 0).val < (i 0).val / 2000 * 2000 + 2000
    omega
  | ⟨1, _⟩ =>
    show win3_5.index _ (1 : Fin 2) * 192 ≤ (i 1).val ∧ (i 1).val < win3_5.index _ (1 : Fin 2) * 192 + 192
    rw [e5b]
    omega

/-! ## The body on a block -/

/-- The next features, as they are written inside the stored value. -/
theorem step_eq (v0 v2 : Vec Ideal S2000x64 .f32) (v4 : Vec Ideal S2000x1 .f32) :
    (subf (shapeCast S2000x64 v0 shapeCasts_S2000x64_S2000x64)
      (mulf (shapeCast S2000x64 v2 shapeCasts_S2000x64_S2000x64)
        (broadcastTo S2000x64 (shapeCast S2000x1 v4 shapeCasts_S2000x1_S2000x1) broadcasts_S2000x1_S2000x64))
      : FVec Ideal S2000x64 .f32) = step v0 v2 v4 := by
  simp only [shapeCast_self]
  exact Spell.step_spelt v0 v2 v4 broadcasts_S2000x1_S2000x64

/-- The stored value, as the specification's layer of the loaded blocks. -/
theorem pay_eq (v0 v2 : Vec Ideal S2000x64 .f32) (v4 : Vec Ideal S2000x1 .f32) (v10 : Vec Ideal S2000x192 .f32)
    (v12 : Vec Ideal S1x192 .f32) :
    k3_pay1 v0 v2 v4 v10 v12 = nextTerm v10 v12 (step v0 v2 v4) := by
  unfold k3_pay1
  simp only [shapeCast_self]
  rw [step_eq]
  exact Spell.nextTerm_spelt v10 v12 (step v0 v2 v4) broadcasts_S1x192_S2000x192
    concatenates_S2000x64_S2000x64_S2000x64_S2000x192_d1

/-! ## The output array -/

/-- What the accumulated polynomials end as: one more term, with the next features, over all rows. -/
def polys : Mat 100000 192 :=
  nextTerm (V c main_v47_1) (V c main_v62) (step (V c main_v47_0) (V c main_v57) (V c main_v7))

/-- What point t writes back is block t of that matrix. -/
theorem flushed5 (t : Fin cfg3.N) :
    (dat3 V c).flushed 5 t = ((cfg3.win 5).blk t).view.read (Elt Ideal) (polys V c) := by
  show (cfg3.win 5).cut (grid3.coords t) ((dat3 V c).after 5 t) = _
  rw [after3_5]
  unfold out3_5
  rw [View.canon_unit_zero hz]
  simp only [View.ld_unit_zero (S := S2000x64) hz, View.ld_unit_zero (S := S2000x1) hz, View.ld_unit_zero (S := S2000x192) hz, View.ld_unit_zero (S := S1x192) hz]
  rw [pay_eq, read5 t]
  show nextTerm (iblk3 V c 3 t) (iblk3 V c 4 t) (step (iblk3 V c 0 t) (iblk3 V c 1 t) (iblk3 V c 2 t)) = _
  rw [blk0 V c t, blk1 V c t, blk2 V c t, blk3 V c t, blk4 V c t]
  unfold polys
  rw [step_rowBlock, nextTerm_rowBlock]

/-- The array after the region. -/
theorem final5 : (dat3 V c).arrAt 5 cfg3.N = polys V c :=
  (dat3 V c).arrAt_eq_of_cover 5 (polys V c) (fun t _ => flushed5 V c t) cover5

end Cert.PolyConv.Region3

end
-- ==== Proof.Region4.lean ====
/-
  THE HEAD, as one function of the arrays it is entered with.
  The kernel runs over 50 blocks of 2000 rows. On a block of the polynomials it computes a rectified affine layer and an
  affine layer: two matrix products into zero accumulators (operands narrowed to a shorter float format: no change on
  extended reals), each plus a one-row bias laid along the rows. Row p of the result depends only on row p of the block,
  so the 50 written blocks are the rows of the head of the whole array. V is the buffers' contents when the region is
  entered; a bias arrives as a one-row matrix and enters through its row.
-/
import proofs.«148983_j56255481643509_2_alg».proof.Proof.Gen.KernelIdeal.Frame
import Idealize.ShloMosaic.Lib.Pipeline.Value
import proofs.«148983_j56255481643509_2_alg».proof.Proof.Spec
import proofs.«148983_j56255481643509_2_alg».proof.Proof.RowBlocks
import proofs.«148983_j56255481643509_2_alg».proof.Proof.KernelSpellings

set_option maxRecDepth 16384

noncomputable section

namespace Cert.PolyConv.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PolyConv Cert.LibDenseLayers Cert.LibRowBias

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The grid has 50 points, and block t of 2000 rows ends inside the 100000 rows. -/
theorem rows_le (t : Fin cfg4.N) : t.val * 2000 + 2000 ≤ 100000 := by
  have h := t.isLt
  have hN : cfg4.N = 50 := N_4
  omega

/-- The printed index maps, decided over the 50 grid points: a row-blocked window's block index at point t is (t, 0), a
    small operand's is (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-! ## Each window's block at a point, as rows of its array -/

/-- Input window 0's block at point t is rows 2000 t … 2000 t + 1999 of its array. -/
theorem blk0 (t : Fin cfg4.N) :
    (iblk4 V c 0 t : S2000x192.Idx → EReal) = rowBlock 2000 (V c main_v63 : Mat 100000 192) (t.val * 2000) (rows_le t) := by
  funext y
  show V c main_v63 (((cfg4.win 0).blk t).view.emb y)
    = V c main_v63 (ix2 (⟨t.val * 2000 + (y 0).val, by have h0 : (y 0).val < 2000 := (y 0).isLt; have := rows_le t; omega⟩ : Fin 100000) (y 1))
  refine congrArg (V c main_v63) (funext fun a => Fin.ext ?_)
  obtain ⟨e0a, e0b, e1a, e1b, e2a, e2b, e3a, e3b, e4a, e4b, e5a, e5b⟩ := idx_facts t
  match a with
  | ⟨0, _⟩ => show win4_0.index t (0 : Fin 2) * 2000 + 1 * (y 0).val = t.val * 2000 + (y 0).val; omega
  | ⟨1, _⟩ => show win4_0.index t (1 : Fin 2) * 192 + 1 * (y 1).val = (y 1).val; omega

/-- Input window 1's block at every point is its whole array. -/
theorem blk1 (t : Fin cfg4.N) : (iblk4 V c 1 t : S192x64.Idx → EReal) = (V c main_arg8 : Mat 192 64) := by
  funext y
  show V c main_arg8 (((cfg4.win 1).blk t).view.emb y) = V c main_arg8 y
  refine congrArg (V c main_arg8) (funext fun a => Fin.ext ?_)
  obtain ⟨e0a, e0b, e1a, e1b, e2a, e2b, e3a, e3b, e4a, e4b, e5a, e5b⟩ := idx_facts t
  match a with
  | ⟨0, _⟩ => show win4_1.index t (0 : Fin 2) * 192 + 1 * (y 0).val = (y 0).val; omega
  | ⟨1, _⟩ => show win4_1.index t (1 : Fin 2) * 64 + 1 * (y 1).val = (y 1).val; omega

/-- Input window 2's block at every point is its whole array. -/
theorem blk2 (t : Fin cfg4.N) : (iblk4 V c 2 t : S1x64.Idx → EReal) = (V c main_v64 : Mat 1 64) := by
  funext y
  show V c main_v64 (((cfg4.win 2).blk t).view.emb y) = V c main_v64 y
  refine congrArg (V c main_v64) (funext fun a => Fin.ext ?_)
  obtain ⟨e0a, e0b, e1a, e1b, e2a, e2b, e3a, e3b, e4a, e4b, e5a, e5b⟩ := idx_facts t
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- Input window 3's block at every point is its whole array. -/
theorem blk3 (t : Fin cfg4.N) : (iblk4 V c 3 t : S64x2.Idx → EReal) = (V c main_arg10 : Mat 64 2) := by
  funext y
  show V c main_arg10 (((cfg4.win 3).blk t).view.emb y) = V c main_arg10 y
  refine congrArg (V c main_arg10) (funext fun a => Fin.ext ?_)
  obtain ⟨e0a, e0b, e1a, e1b, e2a, e2b, e3a, e3b, e4a, e4b, e5a, e5b⟩ := idx_facts t
  match a with
  | ⟨0, _⟩ => show win4_3.index t (0 : Fin 2) * 64 + 1 * (y 0).val = (y 0).val; omega
  | ⟨1, _⟩ => show win4_3.index t (1 : Fin 2) * 2 + 1 * (y 1).val = (y 1).val; omega

/-- Input window 4's block at every point is its whole array. -/
theorem blk4 (t : Fin cfg4.N) : (iblk4 V c 4 t : S1x2.Idx → EReal) = (V c main_v65 : Mat 1 2) := by
  funext y
  show V c main_v65 (((cfg4.win 4).blk t).view.emb y) = V c main_v65 y
  refine congrArg (V c main_v65) (funext fun a => Fin.ext ?_)
  obtain ⟨e0a, e0b, e1a, e1b, e2a, e2b, e3a, e3b, e4a, e4b, e5a, e5b⟩ := idx_facts t
  match a with
  | ⟨0, _⟩ => show win4_4.index t (0 : Fin 2) * 1 + 1 * (y 0).val = (y 0).val; omega
  | ⟨1, _⟩ => show win4_4.index t (1 : Fin 2) * 2 + 1 * (y 1).val = (y 1).val; omega

/-- Output window 5's block at point t, read off any array G of its shape, is rows 2000 t … of G. -/
theorem read5 (t : Fin cfg4.N) (G : Mat 100000 2) :
    ((cfg4.win 5).blk t).view.read (Elt Ideal) G = rowBlock 2000 G (t.val * 2000) (rows_le t) := by
  funext y
  show G (((cfg4.win 5).blk t).view.emb y)
    = G (ix2 (⟨t.val * 2000 + (y 0).val, by have h0 : (y 0).val < 2000 := (y 0).isLt; have := rows_le t; omega⟩ : Fin 100000) (y 1))
  refine congrArg G (funext fun a => Fin.ext ?_)
  obtain ⟨e0a, e0b, e1a, e1b, e2a, e2b, e3a, e3b, e4a, e4b, e5a, e5b⟩ := idx_facts t
  match a with
  | ⟨0, _⟩ => show win4_5.index t (0 : Fin 2) * 2000 + 1 * (y 0).val = t.val * 2000 + (y 0).val; omega
  | ⟨1, _⟩ => show win4_5.index t (1 : Fin 2) * 2 + 1 * (y 1).val = (y 1).val; omega

/-- An index of output window 5's array is in point t's block iff each coordinate is in the block's range. -/
theorem mem_blk5 (t : Fin cfg4.N) (i : S100000x2.Idx) :
    i ∈ ((cfg4.win 5).blk t).view.set ↔ ∀ a : Fin 2, win4_5.index t a * S2000x2.size a ≤ (i a).val
      ∧ (i a).val < win4_5.index t a * S2000x2.size a + S2000x2.size a := by
  show i ∈ ((View.whole main_v66).slice (win4_5.rect t)).set ↔ _
  rw [View.set_slice_whole, Rect.mem_set_unit]
  exact Iff.rfl

/-- Every row of output window 5's array is in the block of the point r / 2000. -/
theorem cover5 (i : S100000x2.Idx) :
    ∃ t : Fin cfg4.N, (cfg4.win 5).flush t = true ∧ i ∈ ((cfg4.win 5).blk t).view.set := by
  have hi0 : (i 0).val < 100000 := (i 0).isLt
  have hi1 : (i 1).val < 2 := (i 1).isLt
  have hN : cfg4.N = 50 := N_4
  refine ⟨⟨(i 0).val / 2000, by rw [hN]; omega⟩, flush4_5 _, ?_⟩
  rw [mem_blk5]
  obtain ⟨e0a, e0b, e1a, e1b, e2a, e2b, e3a, e3b, e4a, e4b, e5a, e5b⟩ := idx_facts ⟨(i 0).val / 2000, by rw [hN]; omega⟩
  intro a
  match a with
  | ⟨0, _⟩ =>
    show win4_5.index _ (0 : Fin 2) * 2000 ≤ (i 0).val ∧ (i 0).val < win4_5.index _ (0 : Fin 2) * 2000 + 2000
    rw [e5a]
    show (i 0).val / 2000 * 2000 ≤ (i 0).val ∧ (i 0).val < (i 0).val / 2000 * 2000 + 2000
    omega
  | ⟨1, _⟩ =>
    show win4_5.index _ (1 : Fin 2) * 2 ≤ (i 1).val ∧ (i 1).val < win4_5.index _ (1 : Fin 2) * 2 + 2
    rw [e5b]
    omega

/-! ## The body on a block -/

/-- The stored value: the head of the loaded block. -/
theorem pay_eq (v0 : FVec Ideal S2000x192 .f32) (v3 : FVec Ideal S192x64 .f32) (v6 : FVec Ideal S1x64 .f32)
    (v13 : FVec Ideal S64x2 .f32) (v16 : FVec Ideal S1x2 .f32) :
    k4_pay1 (F := Ideal) v0 v3 v6 v13 v16 = head v0 v3 (rowOf v6) v13 (rowOf v16) := by
  unfold k4_pay1
  simp only [shapeCast_self]
  rw [Spell.affine_spelt_of dot_S2000x192_S192x64_S2000x64_1_0_0_1_n_n rfl (truncf .bf16 v0 bitsLt_bf16_f32)
    (truncf .bf16 v3 bitsLt_bf16_f32) v6 broadcasts_S1x64_S2000x64]
  rw [Spell.relu_spelt]
  rw [Spell.affine_spelt_of dot_S2000x64_S64x2_S2000x2_1_0_0_1_n_n rfl _ (truncf .bf16 v13 bitsLt_bf16_f32) v16
    broadcasts_S1x2_S2000x2]
  rfl

/-! ## The output array -/

/-- The head of the whole array of polynomials. -/
def scores : Mat 100000 2 :=
  head (V c main_v63) (V c main_arg8) (rowOf (V c main_v64)) (V c main_arg10) (rowOf (V c main_v65))

theorem flushed5 (t : Fin cfg4.N) :
    (dat4 V c).flushed 5 t = ((cfg4.win 5).blk t).view.read (Elt Ideal) (scores V c) := by
  show (cfg4.win 5).cut (grid4.coords t) ((dat4 V c).after 5 t) = _
  rw [after4_5]
  unfold out4_5
  rw [View.canon_unit_zero hz]
  simp only [View.ld_unit_zero (S := S2000x192) hz, View.ld_unit_zero (S := S192x64) hz, View.ld_unit_zero (S := S1x64) hz, View.ld_unit_zero (S := S64x2) hz, View.ld_unit_zero (S := S1x2) hz]
  rw [pay_eq, read5 t]
  show head (iblk4 V c 0 t) (iblk4 V c 1 t) (rowOf (iblk4 V c 2 t)) (iblk4 V c 3 t) (rowOf (iblk4 V c 4 t)) = _
  rw [blk0 V c t, blk1 V c t, blk2 V c t, blk3 V c t, blk4 V c t]
  unfold scores
  rw [head_rowBlock]

theorem final5 : (dat4 V c).arrAt 5 cfg4.N = scores V c :=
  (dat4 V c).arrAt_eq_of_cover 5 (scores V c) (fun t _ => flushed5 V c t) cover5

end Cert.PolyConv.Region4

end
-- ==== Proof.KernelValue.lean ====
/-
  THE IDEALIZED KERNEL PROGRAM COMPUTES THE NETWORK.
  Its result array is the head of the three polynomials of h, f1, f2, f3, where h is the trunk of the input features and
  f1, f2, f3 follow the recurrence f ↦ f - A (f · d) · d, with A the program's own aggregation over the edges (a gather at
  the source indices followed by a sum into the destination rows) and d its column of inverse square roots of the clamped
  in-degrees. The proof walks the program once: each region's output arrays are one function of the arrays the region is
  entered with (the five region modules), and what a region is entered with is what earlier regions and the host
  operations between them left (the chain module). Both A and d enter only as a function and a column.
-/
import proofs.«148983_j56255481643509_2_alg».proof.Proof.KernelChain
import proofs.«148983_j56255481643509_2_alg».proof.Proof.Region0
import proofs.«148983_j56255481643509_2_alg».proof.Proof.Region1
import proofs.«148983_j56255481643509_2_alg».proof.Proof.Region2
import proofs.«148983_j56255481643509_2_alg».proof.Proof.Region3
import proofs.«148983_j56255481643509_2_alg».proof.Proof.Region4

noncomputable section

namespace Cert.PolyConv.KernelValue

open Idealize.ShloMosaic Idealize.ShloMosaic.TcCoe Idealize.ShloMosaic.ValueIdx Idealize.SL.Sem
open Cert.KernelIdeal Cert.KernelIdeal.Gen Cert.PolyConv Cert.LibRowBias Cert.PolyConv.Chain

variable (m : (ℓ : Loc nD τ sig) → Buf (Elt Ideal) ℓ) (ρ : Dev nD → PrngReg) (c : Dev nD)

/-- The hidden features: the trunk of the input features. -/
def hid : Mat 100000 64 := trunk (m ((c : Thread nD τ).loc main_arg0)) (m ((c : Thread nD τ).loc main_arg3)) (m ((c : Thread nD τ).loc main_arg4)) (m ((c : Thread nD τ).loc main_arg5)) (m ((c : Thread nD τ).loc main_arg6))
/-- The column d. -/
def dk : Mat 100000 1 := dcolK (m ((c : Thread nD τ).loc main_arg2))
/-- One update of the recurrence. -/
def upd (f : Mat 100000 64) : Mat 100000 64 :=
  step f (aggK (m ((c : Thread nD τ).loc main_arg1)) (m ((c : Thread nD τ).loc main_arg2)) (scaleRows f (dk m c))) (dk m c)
/-- The coefficients. -/
def th : Mat 3 4 := (m ((c : Thread nD τ).loc main_arg7))

/-! ## Region 0: the trunk and the first message -/

theorem hid_eq : (dat0 (V3 m ρ) c).arrAt 6 cfg0.N = hid m c := by
  rw [Region0.final6 (V3 m ρ) c]
  unfold Region0.hidden
  rw [V3_arg0 m ρ c, V3_arg3 m ρ c, V3_v8 m ρ c, V3_arg5 m ρ c, V3_v9 m ρ c, rowOf_shapeCast, rowOf_shapeCast]
  rfl

theorem msg0_eq : (dat0 (V3 m ρ) c).arrAt 7 cfg0.N = scaleRows (hid m c) (dk m c) := by
  rw [Region0.final7 (V3 m ρ) c]
  unfold Region0.msgs Region0.hidden
  rw [V3_arg0 m ρ c, V3_arg3 m ρ c, V3_v8 m ρ c, V3_arg5 m ρ c, V3_v9 m ρ c, V3_v7 m ρ c, rowOf_shapeCast,
    rowOf_shapeCast]
  rfl

/-! ## Region 1 -/

theorem f1_eq : (dat1 (V5 m ρ) c).arrAt 5 cfg1.N = upd m c (hid m c) := by
  rw [Region1.final5 (V5 m ρ) c]
  unfold Region1.feats
  rw [V5_v10_0 m ρ c, V5_v20 m ρ c, V5_v7 m ρ c, hid_eq m ρ c, msg0_eq m ρ c]
  rfl

theorem p1_eq : (dat1 (V5 m ρ) c).arrAt 6 cfg1.N
    = first2 (coeffRow (th m c) 0) (coeffRow (th m c) 1) (hid m c) (upd m c (hid m c)) := by
  rw [Region1.final6 (V5 m ρ) c]
  unfold Region1.polys Region1.feats
  rw [V5_v10_0 m ρ c, V5_v20 m ρ c, V5_v7 m ρ c, V5_v30 m ρ c, V5_v25 m ρ c, hid_eq m ρ c, msg0_eq m ρ c]
  rfl

theorem msg1_eq : (dat1 (V5 m ρ) c).arrAt 7 cfg1.N = scaleRows (upd m c (hid m c)) (dk m c) := by
  rw [Region1.final7 (V5 m ρ) c]
  unfold Region1.msgs Region1.feats
  rw [V5_v10_0 m ρ c, V5_v20 m ρ c, V5_v7 m ρ c, hid_eq m ρ c, msg0_eq m ρ c]
  rfl

/-! ## Region 2 -/

theorem f2_eq : (dat2 (V7 m ρ) c).arrAt 5 cfg2.N = upd m c (upd m c (hid m c)) := by
  rw [Region2.final5 (V7 m ρ) c]
  unfold Region2.feats
  rw [V7_v31_0 m ρ c, V7_v41 m ρ c, V7_v7 m ρ c, f1_eq m ρ c, msg1_eq m ρ c]
  rfl

theorem p2_eq : (dat2 (V7 m ρ) c).arrAt 6 cfg2.N
    = nextTerm (first2 (coeffRow (th m c) 0) (coeffRow (th m c) 1) (hid m c) (upd m c (hid m c))) (coeffRow (th m c) 2)
        (upd m c (upd m c (hid m c))) := by
  rw [Region2.final6 (V7 m ρ) c]
  unfold Region2.polys Region2.feats
  rw [V7_v31_0 m ρ c, V7_v41 m ρ c, V7_v7 m ρ c, V7_v31_1 m ρ c, V7_v46 m ρ c, f1_eq m ρ c, msg1_eq m ρ c, p1_eq m ρ c]
  rfl

theorem msg2_eq : (dat2 (V7 m ρ) c).arrAt 7 cfg2.N = scaleRows (upd m c (upd m c (hid m c))) (dk m c) := by
  rw [Region2.final7 (V7 m ρ) c]
  unfold Region2.msgs Region2.feats
  rw [V7_v31_0 m ρ c, V7_v41 m ρ c, V7_v7 m ρ c, f1_eq m ρ c, msg1_eq m ρ c]
  rfl

/-! ## Region 3 -/

theorem p3_eq : (dat3 (V9 m ρ) c).arrAt 5 cfg3.N
    = poly (th m c) (hid m c) (upd m c (hid m c)) (upd m c (upd m c (hid m c))) (upd m c (upd m c (upd m c (hid m c)))) := by
  rw [Region3.final5 (V9 m ρ) c]
  unfold Region3.polys
  rw [V9_v47_0 m ρ c, V9_v57 m ρ c, V9_v7 m ρ c, V9_v47_1 m ρ c, V9_v62 m ρ c, f2_eq m ρ c, msg2_eq m ρ c, p2_eq m ρ c]
  rfl

/-! ## Region 4 and the result -/

theorem value : W12 m ρ c (Proc.devRef .tc main_v66)
    = network (aggK (m ((c : Thread nD τ).loc main_arg1)) (m ((c : Thread nD τ).loc main_arg2))) (dcolK (m ((c : Thread nD τ).loc main_arg2))) (m ((c : Thread nD τ).loc main_arg0))
        (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  rw [W12_v66 m ρ c, Region4.final5 (V11 m ρ) c]
  unfold Region4.scores
  rw [V11_v63 m ρ c, V11_arg8 m ρ c, V11_v64 m ρ c, V11_arg10 m ρ c, V11_v65 m ρ c, rowOf_shapeCast, rowOf_shapeCast,
    p3_eq m ρ c]
  rfl

end Cert.PolyConv.KernelValue

end
-- ==== Proof.RefSpellings.lean ====
/-
  HOST SPELLINGS OF THE SPECIFICATION'S LAYERS, for any extents and mentioning no program. A host program spells
  * the rectifier as a maximum with a single-precision zero laid over the whole matrix;
  * the scaling of rows by a column as a product with the column laid along the lanes, and the recurrence's update
    f - g * d in the same way;
  * a polynomial coefficient as a table entry read out by a row slice, a reshape to four entries, a one-entry slice and a
    reshape to a scalar, laid over the whole matrix;
  * one convolution's output as four such coefficient matrices times the four features, added left to right;
  * the three outputs side by side as a concatenation along the columns: column k holds convolution k / 64 at lane k % 64.
  Every operation is read at an index; no law of extended-real arithmetic is used.
-/
import proofs.«148983_j56255481643509_2_alg».proof.Proof.Spec
import proofs.«148983_j56255481643509_2_alg».proof.Proof.LibConcatCols
import Idealize.ShloMosaic.Lib.Pipeline.Value

noncomputable section

namespace Cert.PolyConv.Ref

open Idealize.ShloMosaic Idealize.ShloMosaic.ValueIdx Cert.PolyConv Cert.LibDenseLayers
open scoped BigOperators

/-- The larger of an entry and a single-precision zero laid over the whole matrix is the rectifier. -/
theorem relu_spelling {R C : ℕ} (h0 : (⟨0, ![]⟩ : Shape).BroadcastsInDim ⟨2, ![R, C]⟩ (![] : Fin 0 → Fin 2)) (a : Mat R C) :
    maximumf (F := Ideal) (s := ⟨2, ![R, C]⟩) (φ := .f32) a (broadcastInDim ⟨2, ![R, C]⟩ ![] h0 (constant (F := Ideal) ⟨0, ![]⟩ .f32 0x00000000#32)) = relu a := by
  funext i
  show max (a i) ((broadcastInDim ⟨2, ![R, C]⟩ ![] h0 (constant (F := Ideal) ⟨0, ![]⟩ .f32 0x00000000#32)) i) = max (a i) _
  rw [broadcastInDim_apply _ h0 _ i ix0 (fun a => a.elim0)]
  rfl

/-- A column laid along the lanes, read at (p, q), is the column at (p, 0). -/
theorem bcol_apply {R C : ℕ} (hb : (⟨2, ![R, 1]⟩ : Shape).BroadcastsInDim ⟨2, ![R, C]⟩ (![0, 1] : Fin 2 → Fin 2))
    (d : Mat R 1) (p : Fin R) (q : Fin C) : (broadcastInDim ⟨2, ![R, C]⟩ ![0, 1] hb d) (ix2 p q) = d (ix2 p (0 : Fin 1)) :=
  broadcastInDim_apply _ hb d (ix2 p q) (ix2 p (0 : Fin 1)) (fun a => match a with
    | ⟨0, _⟩ => by
      show p.val = if R = 1 then 0 else p.val
      have := p.isLt
      split <;> omega
    | ⟨1, _⟩ => by show 0 = if (1 : Nat) = 1 then 0 else q.val; rw [if_pos rfl])

/-- A matrix times a column laid along the lanes is the matrix with its rows scaled. -/
theorem scale_spelling {R C : ℕ} (hb : (⟨2, ![R, 1]⟩ : Shape).BroadcastsInDim ⟨2, ![R, C]⟩ (![0, 1] : Fin 2 → Fin 2))
    (f : Mat R C) (d : Mat R 1) : mulf (F := Ideal) (s := ⟨2, ![R, C]⟩) (φ := .f32) f (broadcastInDim ⟨2, ![R, C]⟩ ![0, 1] hb d) = scaleRows f d := by
  funext i
  obtain ⟨p, q, rfl⟩ : ∃ (p : Fin R) (q : Fin C), i = ix2 p q := ⟨i 0, i 1, eq_ix2 i⟩
  show f (ix2 p q) * (broadcastInDim ⟨2, ![R, C]⟩ ![0, 1] hb d) (ix2 p q) = f (ix2 p q) * d (ix2 p (0 : Fin 1))
  rw [bcol_apply]

/-- f minus g times a column laid along the lanes is the recurrence's update. -/
theorem step_spelling {R C : ℕ} (hb : (⟨2, ![R, 1]⟩ : Shape).BroadcastsInDim ⟨2, ![R, C]⟩ (![0, 1] : Fin 2 → Fin 2))
    (f g : Mat R C) (d : Mat R 1) : subf (F := Ideal) (s := ⟨2, ![R, C]⟩) (φ := .f32) f (mulf (F := Ideal) (s := ⟨2, ![R, C]⟩) (φ := .f32) g (broadcastInDim ⟨2, ![R, C]⟩ ![0, 1] hb d)) = step f g d := by
  funext i
  obtain ⟨p, q, rfl⟩ : ∃ (p : Fin R) (q : Fin C), i = ix2 p q := ⟨i 0, i 1, eq_ix2 i⟩
  show f (ix2 p q) - g (ix2 p q) * (broadcastInDim ⟨2, ![R, C]⟩ ![0, 1] hb d) (ix2 p q) = f (ix2 p q) - g (ix2 p q) * d (ix2 p (0 : Fin 1))
  rw [bcol_apply]

/-- A table entry read out by a row slice, a reshape to four entries, a one-entry slice and a reshape to a scalar, then
    laid over a whole matrix, is that entry everywhere. -/
theorem coeff_spelling {R C : ℕ} (th : Mat 3 4) (i : Fin 3) (j : Fin 4)
    (h1 : (⟨2, ![3, 4]⟩ : Shape).Slices ![i.val, 0] ⟨2, ![1, 4]⟩) (c1 : (⟨2, ![1, 4]⟩ : Shape).ShapeCasts ⟨1, ![4]⟩)
    (h2 : (⟨1, ![4]⟩ : Shape).Slices ![j.val] ⟨1, ![1]⟩) (c2 : (⟨1, ![1]⟩ : Shape).ShapeCasts ⟨0, ![]⟩)
    (h0 : (⟨0, ![]⟩ : Shape).BroadcastsInDim ⟨2, ![R, C]⟩ (![] : Fin 0 → Fin 2)) :
    broadcastInDim ⟨2, ![R, C]⟩ ![] h0
      (shapeCast ⟨0, ![]⟩ (extractStridedSlice ⟨1, ![1]⟩ ![j.val]
        (shapeCast ⟨1, ![4]⟩ (extractStridedSlice ⟨2, ![1, 4]⟩ ![i.val, 0] th h1) c1) h2) c2)
      = fun _ => th (ix2 i j) := by
  funext u
  rw [broadcastInDim_apply _ h0 _ u ix0 (fun a => a.elim0)]
  rw [shapeCast_apply _ c2 ix0 (ix1 (0 : Fin 1))
    (by rw [Shape.rowMajor_val_one]; exact (Shape.rowMajorPi_zero _ _).symm)]
  rw [extractStridedSlice_apply ![j.val] _ h2 (ix1 (0 : Fin 1)) (ix1 j) (fun a => match a with
    | ⟨0, _⟩ => by show j.val = j.val + 0; omega)]
  rw [shapeCast_apply _ c1 (ix1 j) (ix2 (0 : Fin 1) j)
    (by rewrite [Shape.rowMajor_val_two, Shape.rowMajor_val_one]; show 0 * 4 + j.val = j.val; omega)]
  exact extractStridedSlice_apply ![i.val, 0] th h1 (ix2 (0 : Fin 1) j) (ix2 i j) (fun a => match a with
    | ⟨0, _⟩ => by show i.val = i.val + 0; omega
    | ⟨1, _⟩ => by show j.val = 0 + j.val; omega)

/-- One convolution's output: the four coefficients of row i of the table on the four features, added left to right. -/
def piece {R : ℕ} (th : Mat 3 4) (i : Fin 3) (f0 f1 f2 f3 : Mat R 64) : Mat R 64 :=
  fun j => ((th (ix2 i (0 : Fin 4)) * f0 j + th (ix2 i (1 : Fin 4)) * f1 j) + th (ix2 i (2 : Fin 4)) * f2 j)
    + th (ix2 i (3 : Fin 4)) * f3 j

/-- The seven multiplications and additions of one convolution's output, with coefficient matrices constant at row i of
    the table, are that polynomial. -/
theorem piece_spelling {R : ℕ} (th : Mat 3 4) (i : Fin 3) (c0 c1 c2 c3 : Mat R 64)
    (h0 : c0 = fun _ => th (ix2 i (0 : Fin 4))) (h1 : c1 = fun _ => th (ix2 i (1 : Fin 4)))
    (h2 : c2 = fun _ => th (ix2 i (2 : Fin 4))) (h3 : c3 = fun _ => th (ix2 i (3 : Fin 4))) (f0 f1 f2 f3 : Mat R 64) :
    addf (F := Ideal) (s := ⟨2, ![R, 64]⟩) (φ := .f32)
      (addf (F := Ideal) (s := ⟨2, ![R, 64]⟩) (φ := .f32)
        (addf (F := Ideal) (s := ⟨2, ![R, 64]⟩) (φ := .f32)
          (mulf (F := Ideal) (s := ⟨2, ![R, 64]⟩) (φ := .f32) c0 f0) (mulf (F := Ideal) (s := ⟨2, ![R, 64]⟩) (φ := .f32) c1 f1))
        (mulf (F := Ideal) (s := ⟨2, ![R, 64]⟩) (φ := .f32) c2 f2))
      (mulf (F := Ideal) (s := ⟨2, ![R, 64]⟩) (φ := .f32) c3 f3) = piece th i f0 f1 f2 f3 := by
  subst h0 h1 h2 h3
  rfl

/-- The three convolutions' outputs side by side are the specification's three polynomials. -/
theorem concat_spelling {R : ℕ} (hc : Shape.Concatenates [⟨2, ![R, 64]⟩, ⟨2, ![R, 64]⟩, ⟨2, ![R, 64]⟩] ⟨2, ![R, 192]⟩ 1)
    (th : Mat 3 4) (f0 f1 f2 f3 : Mat R 64) :
    concatenate ⟨2, ![R, 192]⟩ 1 [⟨⟨2, ![R, 64]⟩, piece th 0 f0 f1 f2 f3⟩, ⟨⟨2, ![R, 64]⟩, piece th 1 f0 f1 f2 f3⟩,
      ⟨⟨2, ![R, 64]⟩, piece th 2 f0 f1 f2 f3⟩] hc = poly th f0 f1 f2 f3 := by
  funext i
  obtain ⟨p, k, rfl⟩ : ∃ (p : Fin R) (k : Fin 192), i = ix2 p k := ⟨i 0, i 1, eq_ix2 i⟩
  have hk := k.isLt
  rw [Cert.LibConcatCols.concat3_cols_apply (R := R) (a := 64) (b := 64) (c := 64) (n := 192) _ _ _ hc rfl p k, poly_apply]
  split
  · next h1 =>
    have hv : conv k = (0 : Fin 3) := Fin.ext (by show k.val / 64 = 0; omega)
    have hl : lane k = ⟨k.val, h1⟩ := Fin.ext (by show k.val % 64 = k.val; omega)
    rw [hv, hl]
    rfl
  · next h1 =>
    split
    · next h2 =>
      have hv : conv k = (1 : Fin 3) := Fin.ext (by show k.val / 64 = 1; omega)
      have hl : lane k = ⟨k.val - 64, by omega⟩ := Fin.ext (by show k.val % 64 = k.val - 64; omega)
      rw [hv, hl]
      rfl
    · next h2 =>
      have hv : conv k = (2 : Fin 3) := Fin.ext (by show k.val / 64 = 2; omega)
      have hl : lane k = ⟨k.val - 64 - 64, by omega⟩ := Fin.ext (by show k.val % 64 = k.val - 64 - 64; omega)
      rw [hv, hl]
      rfl

end Cert.PolyConv.Ref

end
-- ==== Proof.RefTrunk.lean ====
/-
  THE REFERENCE PROGRAM'S TRUNK: two dot_generals, each followed by a bias laid along the rows and a maximum with a zero
  laid over the whole matrix, are the specification's two rectified affine layers.
-/
import proofs.«148983_j56255481643509_2_alg».proof.Proof.Gen.ReferenceIdeal.Read
import proofs.«148983_j56255481643509_2_alg».proof.Proof.RefSpellings

noncomputable section

namespace Cert.PolyConv.Ref

open Idealize.ShloMosaic Idealize.ShloMosaic.ValueIdx
open Cert.ReferenceIdeal Cert.ReferenceIdeal.Gen Cert.ReferenceIdeal.Read Cert.PolyConv Cert.LibDenseLayers
open scoped BigOperators

variable (x0 : (⟨S100000x128, .f32⟩ : BufTy).Contents (Elt Ideal)) (x1 x2 : (⟨S1600000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S3x4, .f32⟩ : BufTy).Contents (Elt Ideal)) (x8 : (⟨S192x64, .f32⟩ : BufTy).Contents (Elt Ideal))
  (x9 : (⟨S64, .f32⟩ : BufTy).Contents (Elt Ideal)) (x10 : (⟨S64x2, .f32⟩ : BufTy).Contents (Elt Ideal))
  (x11 : (⟨S2, .f32⟩ : BufTy).Contents (Elt Ideal))

/-- The first dot_general plus its bias laid along the rows is the first affine layer. -/
theorem v11_eq : val_main_v11 (F := Ideal) x0 x3 x4 = affine (R := 100000) (K := 128) (N := 64) x0 x3 x4 := by
  unfold val_main_v11 val_main_v10 val_main_v9 val_main_v8
  exact affine_of_dot (R := 100000) (K := 128) (N := 64) (by decide) dot_S100000x128_S128x64_S100000x64_1_0_0_1_n_n rfl rfl
    lhs_main_v8_0 lhs_main_v8_1 rhs_main_v8_0 rhs_main_v8_1 bcast_S64_S1x64_1 bcast_S1x64_S100000x64_0_1 x0 x3 x4

/-- Its maximum with zero is the first rectified layer. -/
theorem v12_eq : val_main_v12 (F := Ideal) x0 x3 x4 = relu (affine (R := 100000) (K := 128) (N := 64) x0 x3 x4) := by
  unfold val_main_v12 val_main_call1_v0 val_main_call1_cst
  rw [v11_eq x0 x3 x4]
  exact relu_spelling bcast_S_S100000x64 _

/-- The second dot_general plus its bias is the second affine layer on the first rectified one. -/
theorem v16_eq : val_main_v16 (F := Ideal) x0 x3 x4 x5 x6
    = affine (R := 100000) (K := 64) (N := 64) (relu (affine (R := 100000) (K := 128) (N := 64) x0 x3 x4)) x5 x6 := by
  unfold val_main_v16 val_main_v15 val_main_v14 val_main_v13
  rw [v12_eq x0 x3 x4]
  exact affine_of_dot (R := 100000) (K := 64) (N := 64) (by decide) dot_S100000x64_S64x64_S100000x64_1_0_0_1_n_n rfl rfl
    lhs_main_v13_0 lhs_main_v13_1 rhs_main_v13_0 rhs_main_v13_1 bcast_S64_S1x64_1 bcast_S1x64_S100000x64_0_1 _ x5 x6

/-- The reference's hidden features are the specification's trunk. -/
theorem trunk_eq : val_main_v17 (F := Ideal) x0 x3 x4 x5 x6 = trunk x0 x3 x4 x5 x6 := by
  unfold val_main_v17 val_main_call2_v0 val_main_call2_cst
  rw [v16_eq x0 x3 x4 x5 x6]
  exact relu_spelling bcast_S_S100000x64 _

end Cert.PolyConv.Ref

end
-- ==== Proof.RefRecurrence.lean ====
/-
  THE REFERENCE PROGRAM'S FEATURE RECURRENCE. One update is: scale the rows of f by the column d, gather the scaled rows along
  the edges' sources, add them into zeros at the edges' destinations, scale the sums by d again and subtract from f. The
  gather and the scatter-add are kept as one unopened map agg of the scaled matrix; the column d is kept unopened too. The
  program writes the three updates three times over (once per convolution), each time with its own copies of the zeros,
  the destination indices and the wrapped source indices; each copy is the same term as the first, so all nine updates
  are the one map nxt applied once, twice or three times to the trunk's features.
-/
import proofs.«148983_j56255481643509_2_alg».proof.Proof.RefTrunk

noncomputable section

namespace Cert.PolyConv.Ref

open Idealize.ShloMosaic Idealize.ShloMosaic.ValueIdx
open Cert.ReferenceIdeal Cert.ReferenceIdeal.Gen Cert.ReferenceIdeal.Read Cert.PolyConv Cert.LibDenseLayers
open scoped BigOperators

variable (x0 : (⟨S100000x128, .f32⟩ : BufTy).Contents (Elt Ideal)) (x1 x2 : (⟨S1600000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S3x4, .f32⟩ : BufTy).Contents (Elt Ideal)) (x8 : (⟨S192x64, .f32⟩ : BufTy).Contents (Elt Ideal))
  (x9 : (⟨S64, .f32⟩ : BufTy).Contents (Elt Ideal)) (x10 : (⟨S64x2, .f32⟩ : BufTy).Contents (Elt Ideal))
  (x11 : (⟨S2, .f32⟩ : BufTy).Contents (Elt Ideal))

/-- The neighbourhood aggregation as the reference spells it: the rows of msg gathered at the wrapped source indices and
    added into a zero matrix at the destination indices. -/
def agg (msg : Mat 100000 64) : Mat 100000 64 :=
  Host.scatterAdd (F := Ideal) (φ := .f32) scatter_S100000x64_S1600000x1_S1600000x64_1_0_0_1 (val_main_v33 (F := Ideal)) (val_main_v34 (F := Ideal) x2)
    (Host.gather gather_S100000x64_S1600000x1_S1600000x64_1_0_n_n_0_1_164 msg (val_main_v31 (F := Ideal) x1))

/-- The column of inverse square roots of the clamped in-degrees, as the reference computes it. -/
def dcol : Mat 100000 1 := val_main_v7 (F := Ideal) x2

/-- One update of the recurrence: f minus the aggregated scaled f, scaled again. -/
def nxt (f : Mat 100000 64) : Mat 100000 64 := step f (agg x1 x2 (scaleRows f (dcol x2))) (dcol x2)

/-- The seven operations of one update, written with any copies z, di, si of the zero matrix, the destination indices and
    the wrapped source indices, are the map nxt. -/
theorem nxt_spelling (z : (⟨S100000x64, .f32⟩ : BufTy).Contents (Elt Ideal)) (hz : z = val_main_v33 (F := Ideal))
    (di : (⟨S1600000x1, .i32⟩ : BufTy).Contents (Elt Ideal)) (hd : di = val_main_v34 (F := Ideal) x2)
    (si : (⟨S1600000x1, .i32⟩ : BufTy).Contents (Elt Ideal)) (hs : si = val_main_v31 (F := Ideal) x1) (f : Mat 100000 64) :
    subf (F := Ideal) (s := S100000x64) (φ := .f32) f
      (mulf (F := Ideal) (s := S100000x64) (φ := .f32)
        (Host.scatterAdd (F := Ideal) (φ := .f32) scatter_S100000x64_S1600000x1_S1600000x64_1_0_0_1 z di
          (Host.gather gather_S100000x64_S1600000x1_S1600000x64_1_0_n_n_0_1_164
            (mulf (F := Ideal) (s := S100000x64) (φ := .f32) f (broadcastInDim S100000x64 ![0, 1] bcast_S100000x1_S100000x64_0_1 (val_main_v7 (F := Ideal) x2))) si))
        (broadcastInDim S100000x64 ![0, 1] bcast_S100000x1_S100000x64_0_1 (val_main_v7 (F := Ideal) x2))) = nxt x1 x2 f := by
  subst hz hd hs
  have e1 : mulf (F := Ideal) (s := S100000x64) (φ := .f32) f (broadcastInDim S100000x64 ![0, 1] bcast_S100000x1_S100000x64_0_1 (val_main_v7 (F := Ideal) x2)) = scaleRows f (dcol x2) :=
    scale_spelling bcast_S100000x1_S100000x64_0_1 f _
  rw [e1]
  exact step_spelling bcast_S100000x1_S100000x64_0_1 f _ _

/-- The first update of the first convolution's copy of the recurrence. -/
theorem v38_eq : val_main_v38 (F := Ideal) x0 x1 x2 x3 x4 x5 x6 = nxt x1 x2 (trunk x0 x3 x4 x5 x6) := by
  unfold val_main_v38 val_main_v37 val_main_v36 val_main_v35 val_main_v32 val_main_v25 val_main_v24
  rw [trunk_eq x0 x3 x4 x5 x6]
  exact nxt_spelling x1 x2 (val_main_v33 (F := Ideal)) rfl (val_main_v34 (F := Ideal) x2) rfl (val_main_v31 (F := Ideal) x1) rfl _

/-- The second update of the first convolution's copy of the recurrence. -/
theorem v58_eq : val_main_v58 (F := Ideal) x0 x1 x2 x3 x4 x5 x6 = nxt x1 x2 (nxt x1 x2 (trunk x0 x3 x4 x5 x6)) := by
  unfold val_main_v58 val_main_v57 val_main_v56 val_main_v55 val_main_v52 val_main_v45 val_main_v44
  rw [v38_eq x0 x1 x2 x3 x4 x5 x6]
  exact nxt_spelling x1 x2 (val_main_v53 (F := Ideal)) rfl (val_main_v54 (F := Ideal) x2) rfl (val_main_v51 (F := Ideal) x1) rfl _

/-- The third update of the first convolution's copy of the recurrence. -/
theorem v78_eq : val_main_v78 (F := Ideal) x0 x1 x2 x3 x4 x5 x6 = nxt x1 x2 (nxt x1 x2 (nxt x1 x2 (trunk x0 x3 x4 x5 x6))) := by
  unfold val_main_v78 val_main_v77 val_main_v76 val_main_v75 val_main_v72 val_main_v65 val_main_v64
  rw [v58_eq x0 x1 x2 x3 x4 x5 x6]
  exact nxt_spelling x1 x2 (val_main_v73 (F := Ideal)) rfl (val_main_v74 (F := Ideal) x2) rfl (val_main_v71 (F := Ideal) x1) rfl _

/-- The first update of the second convolution's copy of the recurrence. -/
theorem v104_eq : val_main_v104 (F := Ideal) x0 x1 x2 x3 x4 x5 x6 = nxt x1 x2 (trunk x0 x3 x4 x5 x6) := by
  unfold val_main_v104 val_main_v103 val_main_v102 val_main_v101 val_main_v98 val_main_v91 val_main_v90
  rw [trunk_eq x0 x3 x4 x5 x6]
  exact nxt_spelling x1 x2 (val_main_v99 (F := Ideal)) rfl (val_main_v100 (F := Ideal) x2) rfl (val_main_v97 (F := Ideal) x1) rfl _

/-- The second update of the second convolution's copy of the recurrence. -/
theorem v124_eq : val_main_v124 (F := Ideal) x0 x1 x2 x3 x4 x5 x6 = nxt x1 x2 (nxt x1 x2 (trunk x0 x3 x4 x5 x6)) := by
  unfold val_main_v124 val_main_v123 val_main_v122 val_main_v121 val_main_v118 val_main_v111 val_main_v110
  rw [v104_eq x0 x1 x2 x3 x4 x5 x6]
  exact nxt_spelling x1 x2 (val_main_v119 (F := Ideal)) rfl (val_main_v120 (F := Ideal) x2) rfl (val_main_v117 (F := Ideal) x1) rfl _

/-- The third update of the second convolution's copy of the recurrence. -/
theorem v144_eq : val_main_v144 (F := Ideal) x0 x1 x2 x3 x4 x5 x6 = nxt x1 x2 (nxt x1 x2 (nxt x1 x2 (trunk x0 x3 x4 x5 x6))) := by
  unfold val_main_v144 val_main_v143 val_main_v142 val_main_v141 val_main_v138 val_main_v131 val_main_v130
  rw [v124_eq x0 x1 x2 x3 x4 x5 x6]
  exact nxt_spelling x1 x2 (val_main_v139 (F := Ideal)) rfl (val_main_v140 (F := Ideal) x2) rfl (val_main_v137 (F := Ideal) x1) rfl _

/-- The first update of the third convolution's copy of the recurrence. -/
theorem v170_eq : val_main_v170 (F := Ideal) x0 x1 x2 x3 x4 x5 x6 = nxt x1 x2 (trunk x0 x3 x4 x5 x6) := by
  unfold val_main_v170 val_main_v169 val_main_v168 val_main_v167 val_main_v164 val_main_v157 val_main_v156
  rw [trunk_eq x0 x3 x4 x5 x6]
  exact nxt_spelling x1 x2 (val_main_v165 (F := Ideal)) rfl (val_main_v166 (F := Ideal) x2) rfl (val_main_v163 (F := Ideal) x1) rfl _

/-- The second update of the third convolution's copy of the recurrence. -/
theorem v190_eq : val_main_v190 (F := Ideal) x0 x1 x2 x3 x4 x5 x6 = nxt x1 x2 (nxt x1 x2 (trunk x0 x3 x4 x5 x6)) := by
  unfold val_main_v190 val_main_v189 val_main_v188 val_main_v187 val_main_v184 val_main_v177 val_main_v176
  rw [v170_eq x0 x1 x2 x3 x4 x5 x6]
  exact nxt_spelling x1 x2 (val_main_v185 (F := Ideal)) rfl (val_main_v186 (F := Ideal) x2) rfl (val_main_v183 (F := Ideal) x1) rfl _

/-- The third update of the third convolution's copy of the recurrence. -/
theorem v210_eq : val_main_v210 (F := Ideal) x0 x1 x2 x3 x4 x5 x6 = nxt x1 x2 (nxt x1 x2 (nxt x1 x2 (trunk x0 x3 x4 x5 x6))) := by
  unfold val_main_v210 val_main_v209 val_main_v208 val_main_v207 val_main_v204 val_main_v197 val_main_v196
  rw [v190_eq x0 x1 x2 x3 x4 x5 x6]
  exact nxt_spelling x1 x2 (val_main_v205 (F := Ideal)) rfl (val_main_v206 (F := Ideal) x2) rfl (val_main_v203 (F := Ideal) x1) rfl _

end Cert.PolyConv.Ref

end
-- ==== Proof.RefNetwork.lean ====
/-
  THE REFERENCE PROGRAM IS THE NETWORK. Each polynomial coefficient is the 3 x 4 table's entry (i, j) laid over the whole
  matrix; each convolution's output is then the polynomial of row i of the table in the four features of the recurrence,
  added left to right; the three outputs side by side are the specification's poly; the head follows. The recurrence is
  computed three times over by the program and once by the specification: the three copies were shown equal, update by
  update, in the module before this.
-/
import proofs.«148983_j56255481643509_2_alg».proof.Proof.RefRecurrence

noncomputable section

namespace Cert.PolyConv.Ref

open Idealize.ShloMosaic Idealize.ShloMosaic.ValueIdx
open Cert.ReferenceIdeal Cert.ReferenceIdeal.Gen Cert.ReferenceIdeal.Read Cert.PolyConv Cert.LibDenseLayers
open scoped BigOperators

variable (x0 : (⟨S100000x128, .f32⟩ : BufTy).Contents (Elt Ideal)) (x1 x2 : (⟨S1600000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S3x4, .f32⟩ : BufTy).Contents (Elt Ideal)) (x8 : (⟨S192x64, .f32⟩ : BufTy).Contents (Elt Ideal))
  (x9 : (⟨S64, .f32⟩ : BufTy).Contents (Elt Ideal)) (x10 : (⟨S64x2, .f32⟩ : BufTy).Contents (Elt Ideal))
  (x11 : (⟨S2, .f32⟩ : BufTy).Contents (Elt Ideal))

/-- The constant coefficient of the first convolution, laid over the whole matrix. -/
theorem c_v22 : val_main_v22 (F := Ideal) x7 = fun _ => x7 (ix2 (0 : Fin 3) (0 : Fin 4)) := by
  unfold val_main_v22 val_main_v21 val_main_v20 val_main_v19 val_main_v18
  exact coeff_spelling x7 0 0 slices_S3x4_S1x4_0_0 shapeCasts_S1x4_S4 slices_S4_S1_0 shapeCasts_S1_S_ bcast_S_S100000x64

/-- The first-order coefficient of the first convolution, laid over the whole matrix. -/
theorem c_v41 : val_main_v41 (F := Ideal) x7 = fun _ => x7 (ix2 (0 : Fin 3) (1 : Fin 4)) := by
  unfold val_main_v41 val_main_v40 val_main_v39 val_main_v19 val_main_v18
  exact coeff_spelling x7 0 1 slices_S3x4_S1x4_0_0 shapeCasts_S1x4_S4 slices_S4_S1_1 shapeCasts_S1_S_ bcast_S_S100000x64

/-- The second-order coefficient of the first convolution, laid over the whole matrix. -/
theorem c_v61 : val_main_v61 (F := Ideal) x7 = fun _ => x7 (ix2 (0 : Fin 3) (2 : Fin 4)) := by
  unfold val_main_v61 val_main_v60 val_main_v59 val_main_v19 val_main_v18
  exact coeff_spelling x7 0 2 slices_S3x4_S1x4_0_0 shapeCasts_S1x4_S4 slices_S4_S1_2 shapeCasts_S1_S_ bcast_S_S100000x64

/-- The third-order coefficient of the first convolution, laid over the whole matrix. -/
theorem c_v81 : val_main_v81 (F := Ideal) x7 = fun _ => x7 (ix2 (0 : Fin 3) (3 : Fin 4)) := by
  unfold val_main_v81 val_main_v80 val_main_v79 val_main_v19 val_main_v18
  exact coeff_spelling x7 0 3 slices_S3x4_S1x4_0_0 shapeCasts_S1x4_S4 slices_S4_S1_3 shapeCasts_S1_S_ bcast_S_S100000x64

/-- The constant coefficient of the second convolution, laid over the whole matrix. -/
theorem c_v88 : val_main_v88 (F := Ideal) x7 = fun _ => x7 (ix2 (1 : Fin 3) (0 : Fin 4)) := by
  unfold val_main_v88 val_main_v87 val_main_v86 val_main_v85 val_main_v84
  exact coeff_spelling x7 1 0 slices_S3x4_S1x4_1_0 shapeCasts_S1x4_S4 slices_S4_S1_0 shapeCasts_S1_S_ bcast_S_S100000x64

/-- The first-order coefficient of the second convolution, laid over the whole matrix. -/
theorem c_v107 : val_main_v107 (F := Ideal) x7 = fun _ => x7 (ix2 (1 : Fin 3) (1 : Fin 4)) := by
  unfold val_main_v107 val_main_v106 val_main_v105 val_main_v85 val_main_v84
  exact coeff_spelling x7 1 1 slices_S3x4_S1x4_1_0 shapeCasts_S1x4_S4 slices_S4_S1_1 shapeCasts_S1_S_ bcast_S_S100000x64

/-- The second-order coefficient of the second convolution, laid over the whole matrix. -/
theorem c_v127 : val_main_v127 (F := Ideal) x7 = fun _ => x7 (ix2 (1 : Fin 3) (2 : Fin 4)) := by
  unfold val_main_v127 val_main_v126 val_main_v125 val_main_v85 val_main_v84
  exact coeff_spelling x7 1 2 slices_S3x4_S1x4_1_0 shapeCasts_S1x4_S4 slices_S4_S1_2 shapeCasts_S1_S_ bcast_S_S100000x64

/-- The third-order coefficient of the second convolution, laid over the whole matrix. -/
theorem c_v147 : val_main_v147 (F := Ideal) x7 = fun _ => x7 (ix2 (1 : Fin 3) (3 : Fin 4)) := by
  unfold val_main_v147 val_main_v146 val_main_v145 val_main_v85 val_main_v84
  exact coeff_spelling x7 1 3 slices_S3x4_S1x4_1_0 shapeCasts_S1x4_S4 slices_S4_S1_3 shapeCasts_S1_S_ bcast_S_S100000x64

/-- The constant coefficient of the third convolution, laid over the whole matrix. -/
theorem c_v154 : val_main_v154 (F := Ideal) x7 = fun _ => x7 (ix2 (2 : Fin 3) (0 : Fin 4)) := by
  unfold val_main_v154 val_main_v153 val_main_v152 val_main_v151 val_main_v150
  exact coeff_spelling x7 2 0 slices_S3x4_S1x4_2_0 shapeCasts_S1x4_S4 slices_S4_S1_0 shapeCasts_S1_S_ bcast_S_S100000x64

/-- The first-order coefficient of the third convolution, laid over the whole matrix. -/
theorem c_v173 : val_main_v173 (F := Ideal) x7 = fun _ => x7 (ix2 (2 : Fin 3) (1 : Fin 4)) := by
  unfold val_main_v173 val_main_v172 val_main_v171 val_main_v151 val_main_v150
  exact coeff_spelling x7 2 1 slices_S3x4_S1x4_2_0 shapeCasts_S1x4_S4 slices_S4_S1_1 shapeCasts_S1_S_ bcast_S_S100000x64

/-- The second-order coefficient of the third convolution, laid over the whole matrix. -/
theorem c_v193 : val_main_v193 (F := Ideal) x7 = fun _ => x7 (ix2 (2 : Fin 3) (2 : Fin 4)) := by
  unfold val_main_v193 val_main_v192 val_main_v191 val_main_v151 val_main_v150
  exact coeff_spelling x7 2 2 slices_S3x4_S1x4_2_0 shapeCasts_S1x4_S4 slices_S4_S1_2 shapeCasts_S1_S_ bcast_S_S100000x64

/-- The third-order coefficient of the third convolution, laid over the whole matrix. -/
theorem c_v213 : val_main_v213 (F := Ideal) x7 = fun _ => x7 (ix2 (2 : Fin 3) (3 : Fin 4)) := by
  unfold val_main_v213 val_main_v212 val_main_v211 val_main_v151 val_main_v150
  exact coeff_spelling x7 2 3 slices_S3x4_S1x4_2_0 shapeCasts_S1x4_S4 slices_S4_S1_3 shapeCasts_S1_S_ bcast_S_S100000x64

/-- The first convolution's output is its polynomial in the four features. -/
theorem v83_eq : val_main_v83 (F := Ideal) x0 x1 x2 x3 x4 x5 x6 x7
    = piece x7 0 (trunk x0 x3 x4 x5 x6) (nxt x1 x2 (trunk x0 x3 x4 x5 x6))
      (nxt x1 x2 (nxt x1 x2 (trunk x0 x3 x4 x5 x6)))
      (nxt x1 x2 (nxt x1 x2 (nxt x1 x2 (trunk x0 x3 x4 x5 x6)))) := by
  unfold val_main_v83 val_main_v82 val_main_v63 val_main_v62 val_main_v43 val_main_v42 val_main_v23
  rw [trunk_eq x0 x3 x4 x5 x6, v38_eq x0 x1 x2 x3 x4 x5 x6, v58_eq x0 x1 x2 x3 x4 x5 x6, v78_eq x0 x1 x2 x3 x4 x5 x6]
  exact piece_spelling x7 0 _ _ _ _ (c_v22 x7) (c_v41 x7) (c_v61 x7) (c_v81 x7) _ _ _ _

/-- The second convolution's output is its polynomial in the four features. -/
theorem v149_eq : val_main_v149 (F := Ideal) x0 x1 x2 x3 x4 x5 x6 x7
    = piece x7 1 (trunk x0 x3 x4 x5 x6) (nxt x1 x2 (trunk x0 x3 x4 x5 x6))
      (nxt x1 x2 (nxt x1 x2 (trunk x0 x3 x4 x5 x6)))
      (nxt x1 x2 (nxt x1 x2 (nxt x1 x2 (trunk x0 x3 x4 x5 x6)))) := by
  unfold val_main_v149 val_main_v148 val_main_v129 val_main_v128 val_main_v109 val_main_v108 val_main_v89
  rw [trunk_eq x0 x3 x4 x5 x6, v104_eq x0 x1 x2 x3 x4 x5 x6, v124_eq x0 x1 x2 x3 x4 x5 x6, v144_eq x0 x1 x2 x3 x4 x5 x6]
  exact piece_spelling x7 1 _ _ _ _ (c_v88 x7) (c_v107 x7) (c_v127 x7) (c_v147 x7) _ _ _ _

/-- The third convolution's output is its polynomial in the four features. -/
theorem v215_eq : val_main_v215 (F := Ideal) x0 x1 x2 x3 x4 x5 x6 x7
    = piece x7 2 (trunk x0 x3 x4 x5 x6) (nxt x1 x2 (trunk x0 x3 x4 x5 x6))
      (nxt x1 x2 (nxt x1 x2 (trunk x0 x3 x4 x5 x6)))
      (nxt x1 x2 (nxt x1 x2 (nxt x1 x2 (trunk x0 x3 x4 x5 x6)))) := by
  unfold val_main_v215 val_main_v214 val_main_v195 val_main_v194 val_main_v175 val_main_v174 val_main_v155
  rw [trunk_eq x0 x3 x4 x5 x6, v170_eq x0 x1 x2 x3 x4 x5 x6, v190_eq x0 x1 x2 x3 x4 x5 x6, v210_eq x0 x1 x2 x3 x4 x5 x6]
  exact piece_spelling x7 2 _ _ _ _ (c_v154 x7) (c_v173 x7) (c_v193 x7) (c_v213 x7) _ _ _ _

/-- The concatenated matrix entering the head. -/
theorem v216_eq : val_main_v216 (F := Ideal) x0 x1 x2 x3 x4 x5 x6 x7
    = poly x7 (trunk x0 x3 x4 x5 x6) (nxt x1 x2 (trunk x0 x3 x4 x5 x6))
      (nxt x1 x2 (nxt x1 x2 (trunk x0 x3 x4 x5 x6)))
      (nxt x1 x2 (nxt x1 x2 (nxt x1 x2 (trunk x0 x3 x4 x5 x6)))) := by
  unfold val_main_v216
  rw [v83_eq x0 x1 x2 x3 x4 x5 x6 x7, v149_eq x0 x1 x2 x3 x4 x5 x6 x7, v215_eq x0 x1 x2 x3 x4 x5 x6 x7]
  exact concat_spelling concatenates_S100000x64_S100000x64_S100000x64_S100000x192_d1 x7 _ _ _ _

/-- The head's first affine layer. -/
theorem v220_eq : val_main_v220 (F := Ideal) x0 x1 x2 x3 x4 x5 x6 x7 x8 x9
    = affine (R := 100000) (K := 192) (N := 64) (poly x7 (trunk x0 x3 x4 x5 x6) (nxt x1 x2 (trunk x0 x3 x4 x5 x6))
      (nxt x1 x2 (nxt x1 x2 (trunk x0 x3 x4 x5 x6)))
      (nxt x1 x2 (nxt x1 x2 (nxt x1 x2 (trunk x0 x3 x4 x5 x6))))) x8 x9 := by
  unfold val_main_v220 val_main_v219 val_main_v218 val_main_v217
  rw [v216_eq x0 x1 x2 x3 x4 x5 x6 x7]
  exact affine_of_dot (R := 100000) (K := 192) (N := 64) (by decide) dot_S100000x192_S192x64_S100000x64_1_0_0_1_n_n rfl rfl
    lhs_main_v217_0 lhs_main_v217_1 rhs_main_v217_0 rhs_main_v217_1 bcast_S64_S1x64_1 bcast_S1x64_S100000x64_0_1 _ x8 x9

/-- Its maximum with zero. -/
theorem v221_eq : val_main_v221 (F := Ideal) x0 x1 x2 x3 x4 x5 x6 x7 x8 x9
    = relu (affine (R := 100000) (K := 192) (N := 64) (poly x7 (trunk x0 x3 x4 x5 x6) (nxt x1 x2 (trunk x0 x3 x4 x5 x6))
      (nxt x1 x2 (nxt x1 x2 (trunk x0 x3 x4 x5 x6)))
      (nxt x1 x2 (nxt x1 x2 (nxt x1 x2 (trunk x0 x3 x4 x5 x6))))) x8 x9) := by
  unfold val_main_v221 val_main_call3_v0 val_main_call3_cst
  rw [v220_eq x0 x1 x2 x3 x4 x5 x6 x7 x8 x9]
  exact relu_spelling bcast_S_S100000x64 _

/-- The reference program's result is the network run on the reference's own aggregation and column. -/
theorem result_eq : val_main_v225 (F := Ideal) x0 x1 x2 x3 x4 x5 x6 x7 x8 x9 x10 x11
    = network (agg x1 x2) (dcol x2) x0 x3 x4 x5 x6 x7 x8 x9 x10 x11 := by
  unfold val_main_v225 val_main_v224 val_main_v223 val_main_v222
  rw [v221_eq x0 x1 x2 x3 x4 x5 x6 x7 x8 x9]
  exact affine_of_dot (R := 100000) (K := 64) (N := 2) (by decide) dot_S100000x64_S64x2_S100000x2_1_0_0_1_n_n rfl rfl
    lhs_main_v222_0 lhs_main_v222_1 rhs_main_v222_0 rhs_main_v222_1 bcast_S2_S1x2_1 bcast_S1x2_S100000x2_0_1 _ x10 x11

end Cert.PolyConv.Ref

end
-- ==== Proof.SameHostTerms.lean ====
/-
  THE TWO PROGRAMS' HOST TERMS ARE THE SAME. The kernel's program and the reference spell the neighbourhood aggregation
  (wrap the negative source indices, gather the message rows at them, add the rows into a zero matrix at the destination
  indices) and the column of inverse square roots of the clamped in-degrees with the same host operations on the same
  operands; only the names of the printed dimension records and of the intermediate values differ. The operations are
  never opened: the reference's named intermediates are unfolded one level each, the records identified, and the two
  sides are then one term.
-/
import proofs.«148983_j56255481643509_2_alg».proof.Proof.KernelChain
import proofs.«148983_j56255481643509_2_alg».proof.Proof.RefRecurrence

noncomputable section

namespace Cert.PolyConv.Same

open Idealize.ShloMosaic Cert.PolyConv Cert.ReferenceIdeal.Read

/-- The two printed records of the row scatter are one record. -/
theorem scatter_rows_rec : Cert.ReferenceIdeal.scatter_S100000x64_S1600000x1_S1600000x64_1_0_0_1
    = Cert.KernelIdeal.scatter_S100000x64_S1600000x1_S1600000x64_1_0_0_1 := rfl
/-- The two printed records of the row gather are one record. -/
theorem gather_rows_rec : Cert.ReferenceIdeal.gather_S100000x64_S1600000x1_S1600000x64_1_0_n_n_0_1_164
    = Cert.KernelIdeal.gather_S100000x64_S1600000x1_S1600000x64_1_0_n_n_0_1_164 := rfl
/-- The two printed records of the degree scatter are one record. -/
theorem scatter_deg_rec : Cert.ReferenceIdeal.scatter_S100000_S1600000x1_S1600000_n_0_0_1
    = Cert.KernelIdeal.scatter_S100000_S1600000x1_S1600000_n_0_0_1 := rfl

/-- The aggregation. -/
theorem agg_same (x1 x2 : Cert.KernelIdeal.S1600000.Idx → Elt Ideal .i32) (msg : Mat 100000 64) :
    Ref.agg x1 x2 msg = Chain.aggK x1 x2 msg := by
  unfold Ref.agg Chain.aggK
  simp only [val_main_v33, val_main_cst_4, val_main_v34, val_main_v31, val_main_v30, val_main_v27, val_main_v26,
    val_main_c, val_main_v29, val_main_v28, val_main_c_3]
  rw [scatter_rows_rec, gather_rows_rec]

/-- The aggregation, as one equation between maps. -/
theorem agg_fun_same (x1 x2 : Cert.KernelIdeal.S1600000.Idx → Elt Ideal .i32) : Ref.agg x1 x2 = Chain.aggK x1 x2 :=
  funext (agg_same x1 x2)

/-- The degree column. -/
theorem dcol_same (x2 : Cert.KernelIdeal.S1600000.Idx → Elt Ideal .i32) : Ref.dcol x2 = Chain.dcolK x2 := by
  unfold Ref.dcol Chain.dcolK
  simp only [val_main_v7, val_main_v6, val_main_v5, val_main_cst_2, val_main_v4, val_main_call0_v1, val_main_call0_v0,
    val_main_cst_1, val_main_v3, val_main_v2, val_main_v1, val_main_cst_0, val_main_v0, val_main_cst, id]
  rw [scatter_deg_rec]

end Cert.PolyConv.Same

end
-- ==== Proof.lean ====
/-
  THE CERTIFICATE: a Pallas implementation of a polynomial graph-convolution network against its jnp reference.

  The network, on N = 100000 nodes and 1600000 edges: the in-degrees deg by a sum of ones over the destination indices;
  the column d = max(deg, 1)^(-1/2); hidden features h = relu(relu(x · W1 + b1) · W2 + b2); a recurrence
  f_k = f_(k-1) - A(f_(k-1) · d) · d for k = 1, 2, 3 from f_0 = h, where A gathers the rows of its argument at the source
  indices and adds them into the destination rows; three polynomials out_i = ((θ_i0 h + θ_i1 f_1) + θ_i2 f_2) + θ_i3 f_3
  set side by side; and a head relu(· Wm1 + bm1) · Wm2 + bm2.

  The reference runs the recurrence three times, once per polynomial; the kernel program runs it once, in five tiled
  kernels over 50 blocks of 2000 rows with the gathers and row sums between them on the host, and keeps the three
  polynomials side by side in one 192-wide array. On extended reals with exact operations the two are one function, and no
  law of arithmetic is needed to see it: both add the four terms of each polynomial in the same order, the recurrence
  does not mention the coefficients, and every tiled step works row by row. So nothing here uses that the inputs are
  finite.

  * Spec.lean states the network index by index, for any aggregation A and column d.
  * Region0 … Region4 (over KernelSpellings, RowBlocks): each kernel's output arrays are one function of the arrays it
    is entered with. KernelChain: what each kernel is entered with. KernelRun: the program's run, with the result buffer
    named. KernelValue: so the program's result is the network of its own A and d.
  * RefSpellings, RefTrunk, RefRecurrence, RefNetwork: the reference's result is the network of its own A and d.
  * SameHostTerms: the two A's and the two d's are the same host terms.
  The frames of the two kernel programs are the generated ones; the reference's frame is its generated run with the
  result dropped; the idealization rewrote nothing, so it preserves the kernel trivially.
-/
import proofs.«148983_j56255481643509_2_alg».proof.Defs
import proofs.«148983_j56255481643509_2_alg».proof.Proof.Gen.Kernel
import proofs.«148983_j56255481643509_2_alg».proof.Proof.Gen.Kernel.Frame
import proofs.«148983_j56255481643509_2_alg».proof.Proof.Gen.KernelIdeal
import proofs.«148983_j56255481643509_2_alg».proof.Proof.Gen.KernelIdeal.Frame
import proofs.«148983_j56255481643509_2_alg».proof.Proof.Gen.ReferenceIdeal
import proofs.«148983_j56255481643509_2_alg».proof.Proof.Gen.Pre_finite_inputs
import proofs.«148983_j56255481643509_2_alg».proof.Proof.Gen.ReferenceIdeal.Run
import proofs.«148983_j56255481643509_2_alg».proof.Proof.Gen.ReferenceIdeal.Read
import proofs.«148983_j56255481643509_2_alg».proof.Proof.KernelRun
import proofs.«148983_j56255481643509_2_alg».proof.Proof.KernelValue
import proofs.«148983_j56255481643509_2_alg».proof.Proof.RefNetwork
import proofs.«148983_j56255481643509_2_alg».proof.Proof.SameHostTerms
import Idealize.ShloMosaic.Adequacy
import Idealize.ShloMosaic.Init

noncomputable section

namespace Cert.Proof

open Idealize.ShloMosaic Idealize.ShloMosaic.TcCoe Idealize.SL.Sem Cert.PolyConv

/-- The word-level kernel program runs and leaves its arguments unchanged. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the network of the arguments. -/
theorem algebraic : Cert.algebraic_KernelIdeal_ReferenceIdeal := by
  intro m ρ m' ρ' _ hagree
  refine ⟨fun c => network (Chain.aggK (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Chain.dcolK (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (KernelValue.value m ρ c), (h c).2⟩)
      (Chain.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v225_eq m' c, Ref.result_eq, a0, a1, a2, a3, a4, a5, a6, a7, a8, a9, a10, a11,
      Same.agg_fun_same, Same.dcol_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
